-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8x352x352 : Shape := ⟨4, ![16, 8, 352, 352]⟩
abbrev S16x1x352x352 : Shape := ⟨4, ![16, 1, 352, 352]⟩
abbrev S_ : Shape := ⟨0, ![]⟩

class Facts : Prop where
  bcast_S_S16x8x352x352 : S_.BroadcastsInDim S16x8x352x352 (![] : Fin 0 → Fin S16x8x352x352.rank)
  reducesTo_S16x8x352x352_S_d0_1_2_3 : S16x8x352x352.ReducesTo [0, 1, 2, 3] S_
  h_S_ : 0 < S_.numel
  bcast_S_S16x1x352x352 : S_.BroadcastsInDim S16x1x352x352 (![] : Fin 0 → Fin S16x1x352x352.rank)
  reducesTo_S16x1x352x352_S_d0_1_2_3 : S16x1x352x352.ReducesTo [0, 1, 2, 3] S_

variable [Facts]

def fn {F : FTy → Type} [FloatOps F] (main_arg0 : FVec F S16x8x352x352 .f32) (main_arg1 : FVec F S16x1x352x352 .f32) (main_arg2 : IVec S16x8x352x352 32) : IVec S_ 1 :=
  let main_v0 : FVec F S16x8x352x352 .f32 := Host.absf main_arg0
  let main_cst : FVec F S_ .f32 := constant S_ .f32 0x7F800000#32
  let main_v1 : FVec F S16x8x352x352 .f32 := broadcastInDim S16x8x352x352 ![] bcast_S_S16x8x352x352 main_cst
  let main_v2 : IVec S16x8x352x352 1 := cmpf .olt main_v0 main_v1
  let main_c : IVec S_ 1 := constantI S_ 1 1#1
  let main_v3 : IVec S_ 1 := (fun x v => Host.reduce IntOp.andi x v reducesTo_S16x8x352x352_S_d0_1_2_3 h_S_) main_v2 main_c
  let main_v4 : FVec F S16x1x352x352 .f32 := Host.absf main_arg1
  let main_cst_0 : FVec F S_ .f32 := constant S_ .f32 0x7F800000#32
  let main_v5 : FVec F S16x1x352x352 .f32 := broadcastInDim S16x1x352x352 ![] bcast_S_S16x1x352x352 main_cst_0
  let main_v6 : IVec S16x1x352x352 1 := cmpf .olt main_v4 main_v5
  let main_c_1 : IVec S_ 1 := constantI S_ 1 1#1
  let main_v7 : IVec S_ 1 := (fun x v => Host.reduce IntOp.andi x v reducesTo_S16x1x352x352_S_d0_1_2_3 h_S_) main_v6 main_c_1
  let main_v8 : IVec S_ 1 := andi main_v3 main_v7
  main_v8
-- ==== Kernel.lean ====
abbrev S16x8x352x352 : Shape := ⟨4, ![16, 8, 352, 352]⟩
abbrev S16x1x352x352 : Shape := ⟨4, ![16, 1, 352, 352]⟩
abbrev S2x1x1 : Shape := ⟨3, ![2, 1, 1]⟩
abbrev S1x8x352x352 : Shape := ⟨4, ![1, 8, 352, 352]⟩
abbrev S1x1x352x352 : Shape := ⟨4, ![1, 1, 352, 352]⟩
abbrev S1x1x1 : Shape := ⟨3, ![1, 1, 1]⟩
abbrev S1x1 : Shape := ⟨2, ![1, 1]⟩
abbrev S352x352 : Shape := ⟨2, ![352, 352]⟩
abbrev S352 : Shape := ⟨1, ![352]⟩
abbrev S352x1 : Shape := ⟨2, ![352, 1]⟩
abbrev S1 : Shape := ⟨1, ![1]⟩
abbrev S_ : Shape := ⟨0, ![]⟩

abbrev nBuf : Space → Nat
  | .hbm => 6
  | .vmem => 9
  | .smem => 0
  | _ => 0

abbrev bufTy : (tb : Table) → Fin (tcTables nBuf tb) → BufTy
  | .hbm, ⟨0, _⟩ => ⟨S16x8x352x352, .f32⟩
  | .hbm, ⟨1, _⟩ => ⟨S16x1x352x352, .f32⟩
  | .hbm, ⟨2, _⟩ => ⟨S16x8x352x352, .i32⟩
  | .hbm, ⟨3, _⟩ => ⟨S2x1x1, .f32⟩
  | .hbm, ⟨4, _⟩ => ⟨S_, .f32⟩
  | .hbm, ⟨5, _⟩ => ⟨S_, .f32⟩
  | .local _ .vmem, ⟨0, _⟩ => ⟨S1x8x352x352, .f32⟩
  | .local _ .vmem, ⟨1, _⟩ => ⟨S1x8x352x352, .f32⟩
  | .local _ .vmem, ⟨2, _⟩ => ⟨S1x1x352x352, .f32⟩
  | .local _ .vmem, ⟨3, _⟩ => ⟨S1x1x352x352, .f32⟩
  | .local _ .vmem, ⟨4, _⟩ => ⟨S1x8x352x352, .i32⟩
  | .local _ .vmem, ⟨5, _⟩ => ⟨S1x8x352x352, .i32⟩
  | .local _ .vmem, ⟨6, _⟩ => ⟨S1x1x1, .f32⟩
  | .local _ .vmem, ⟨7, _⟩ => ⟨S1x1x1, .f32⟩
  | .local _ .vmem, ⟨8, _⟩ => ⟨S1x1, .f32⟩
  | _, _ => ⟨S16x8x352x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v542 : BitVec 1 := Scalar.cmpi .eq arg1 c7_i32
  let v543 : BitVec 32 := Scalar.extui v542
  let c0_i32_255 : BitVec 32 := 0#32
  let v544 : BitVec 1 := Scalar.cmpi .ne v543 c0_i32_255
  v544

def cc0_transform_0 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x352x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x352x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x352x352 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x8x352x352_S1x1x352x352_0_0_0_0 : ∀ a, (![0, 0, 0, 0] : Fin 4 → Nat) a + S1x1x352x352.size a ≤ S1x8x352x352.size a
  h_S1x1x352x352 : 0 < S1x1x352x352.numel
  shapeCasts_S1x1x352x352_S352x352 : S1x1x352x352.ShapeCasts S352x352
  reduces_S352x352_S352 : S352x352.Reduces [1] S352
  shapeCasts_S352_S352x1 : S352.ShapeCasts S352x1
  reduces_S352x1_S1 : S352x1.Reduces [0] S1
  shapeCasts_S1_S1x1 : S1.ShapeCasts S1x1
  inb_S1x8x352x352_S1x1x352x352_0_7_0_0 : ∀ a, (![0, 7, 0, 0] : Fin 4 → Nat) a + S1x1x352x352.size a ≤ S1x8x352x352.size a
  rotates_S352x352_d1 : S352x352.Rotates 1 none
  iota_S352x352_d1_w32 : S352x352.Iotas .tc 32 [1]
  rotates_S352x352_d0 : S352x352.Rotates 0 none
  iota_S352x352_d0_w32 : S352x352.Iotas .tc 32 [0]
  inb_S1x8x352x352_S1x1x352x352_0_1_0_0 : ∀ a, (![0, 1, 0, 0] : Fin 4 → Nat) a + S1x1x352x352.size a ≤ S1x8x352x352.size a
  inb_S1x8x352x352_S1x1x352x352_0_6_0_0 : ∀ a, (![0, 6, 0, 0] : Fin 4 → Nat) a + S1x1x352x352.size a ≤ S1x8x352x352.size a
  inb_S1x8x352x352_S1x1x352x352_0_2_0_0 : ∀ a, (![0, 2, 0, 0] : Fin 4 → Nat) a + S1x1x352x352.size a ≤ S1x8x352x352.size a
  inb_S1x8x352x352_S1x1x352x352_0_5_0_0 : ∀ a, (![0, 5, 0, 0] : Fin 4 → Nat) a + S1x1x352x352.size a ≤ S1x8x352x352.size a
  inb_S1x8x352x352_S1x1x352x352_0_3_0_0 : ∀ a, (![0, 3, 0, 0] : Fin 4 → Nat) a + S1x1x352x352.size a ≤ S1x8x352x352.size a
  inb_S1x8x352x352_S1x1x352x352_0_4_0_0 : ∀ a, (![0, 4, 0, 0] : Fin 4 → Nat) a + S1x1x352x352.size a ≤ S1x8x352x352.size a
  natLt_1_32 : 1 < 32
  inb_S1x1x352x352_S1x1x352x352_0_0_0_0 : ∀ a, (![0, 0, 0, 0] : Fin 4 → Nat) a + S1x1x352x352.size a ≤ S1x1x352x352.size a
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x352x352.size a ≤ S16x8x352x352.size a
  hwx0_0 : ∀ i : grid0.Coords, EltTy.bits .f32 = 32 ∨ (Rect.block (s := S16x8x352x352) S1x8x352x352.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x352x352.size a ≤ S16x1x352x352.size a
  hwx0_1 : ∀ i : grid0.Coords, EltTy.bits .f32 = 32 ∨ (Rect.block (s := S16x1x352x352) S1x1x352x352.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x352x352.size a ≤ S16x8x352x352.size a
  hwx0_2 : ∀ i : grid0.Coords, EltTy.bits .i32 = 32 ∨ (Rect.block (s := S16x8x352x352) S1x8x352x352.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

abbrev win0_0 : Pipeline.Window sig grid0 :=
  Pipeline.Window.ofSpec (Memref.whole main_arg0) S1x8x352x352.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x352x352.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x8x352x352.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16x8x352x352 : Shape := ⟨4, ![16, 8, 352, 352]⟩
abbrev S16x1x352x352 : Shape := ⟨4, ![16, 1, 352, 352]⟩
abbrev S_ : Shape := ⟨0, ![]⟩
abbrev S16x352x352 : Shape := ⟨3, ![16, 352, 352]⟩
abbrev S16x352x353 : Shape := ⟨3, ![16, 352, 353]⟩
abbrev S16x353x352 : Shape := ⟨3, ![16, 353, 352]⟩

abbrev nBuf : Space → Nat
  | .hbm => 176
  | .vmem => 0
  | .smem => 0
  | _ => 0

abbrev hbmTy0_0 (i : Nat) : BufTy := match i % 128 with
  | 0 => ⟨S16x8x352x352, .f32⟩
  | 1 => ⟨S16x1x352x352, .f32⟩
  | 2 => ⟨S16x8x352x352, .i32⟩
  | 3 => ⟨S16x8x352x352, .f32⟩
  | 4 => ⟨S16x8x352x352, .f32⟩
  | 5 => ⟨S_, .f32⟩
  | 6 => ⟨S16x8x352x352, .f32⟩
  | 7 => ⟨S16x8x352x352, .f32⟩
  | 8 => ⟨S_, .f32⟩
  | 9 => ⟨S16x8x352x352, .f32⟩
  | 10 => ⟨S16x8x352x352, .f32⟩
  | 11 => ⟨S16x8x352x352, .f32⟩
  | 12 => ⟨S_, .f32⟩
  | 13 => ⟨S16x352x352, .f32⟩
  | 14 => ⟨S_, .f32⟩
  | 15 => ⟨S16x352x352, .f32⟩
  | 16 => ⟨S16x352x352, .i1⟩
  | 17 => ⟨S_, .f32⟩
  | 18 => ⟨S16x352x352, .f32⟩
  | 19 => ⟨S16x352x352, .i1⟩
  | 20 => ⟨S16x352x352, .i1⟩
  | 21 => ⟨S16x352x352, .f32⟩
  | 22 => ⟨S16x1x352x352, .f32⟩
  | 23 => ⟨S16x352x352, .f32⟩
  | 24 => ⟨S_, .i32⟩
  | 25 => ⟨S_, .f32⟩
  | 26 => ⟨S16x352x353, .f32⟩
  | 27 => ⟨S16x352x352, .f32⟩
  | 28 => ⟨S_, .i32⟩
  | 29 => ⟨S_, .f32⟩
  | 30 => ⟨S16x353x352, .f32⟩
  | 31 => ⟨S16x352x352, .f32⟩
  | 32 => ⟨S16x1x352x352, .f32⟩
  | 33 => ⟨S16x352x352, .f32⟩
  | 34 => ⟨S_, .i32⟩
  | 35 => ⟨S_, .f32⟩
  | 36 => ⟨S16x353x352, .f32⟩
  | 37 => ⟨S16x352x352, .f32⟩
  | 38 => ⟨S16x1x352x352, .f32⟩
  | 39 => ⟨S16x352x352, .f32⟩
  | 40 => ⟨S_, .i32⟩
  | 41 => ⟨S_, .f32⟩
  | 42 => ⟨S16x352x353, .f32⟩
  | 43 => ⟨S16x352x352, .f32⟩
  | 44 => ⟨S_, .i32⟩
  | 45 => ⟨S_, .f32⟩
  | 46 => ⟨S16x353x352, .f32⟩
  | 47 => ⟨S16x352x352, .f32⟩
  | 48 => ⟨S16x1x352x352, .f32⟩
  | 49 => ⟨S16x352x352, .f32⟩
  | 50 => ⟨S_, .i32⟩
  | 51 => ⟨S_, .f32⟩
  | 52 => ⟨S16x352x353, .f32⟩
  | 53 => ⟨S16x352x352, .f32⟩
  | 54 => ⟨S16x1x352x352, .f32⟩
  | 55 => ⟨S16x352x352, .f32⟩
  | 56 => ⟨S_, .i32⟩
  | 57 => ⟨S_, .f32⟩
  | 58 => ⟨S16x352x353, .f32⟩
  | 59 => ⟨S16x352x352, .f32⟩
  | 60 => ⟨S16x1x352x352, .f32⟩
  | 61 => ⟨S16x352x352, .f32⟩
  | 62 => ⟨S_, .i32⟩
  | 63 => ⟨S_, .f32⟩
  | 64 => ⟨S16x352x353, .f32⟩
  | 65 => ⟨S16x352x352, .f32⟩
  | 66 => ⟨S_, .i32⟩
  | 67 => ⟨S_, .f32⟩
  | 68 => ⟨S16x353x352, .f32⟩
  | 69 => ⟨S16x352x352, .f32⟩
  | 70 => ⟨S16x1x352x352, .f32⟩
  | 71 => ⟨S16x352x352, .f32⟩
  | 72 => ⟨S_, .i32⟩
  | 73 => ⟨S_, .f32⟩
  | 74 => ⟨S16x353x352, .f32⟩
  | 75 => ⟨S16x352x352, .f32⟩
  | 76 => ⟨S16x1x352x352, .f32⟩
  | 77 => ⟨S16x352x352, .f32⟩
  | 78 => ⟨S_, .i32⟩
  | 79 => ⟨S_, .f32⟩
  | 80 => ⟨S16x352x353, .f32⟩
  | 81 => ⟨S16x352x352, .f32⟩
  | 82 => ⟨S_, .i32⟩
  | 83 => ⟨S_, .f32⟩
  | 84 => ⟨S16x353x352, .f32⟩
  | 85 => ⟨S16x352x352, .f32⟩
  | 86 => ⟨S16x1x352x352, .f32⟩
  | 87 => ⟨S16x1x352x352, .f32⟩
  | 88 => ⟨S16x1x352x352, .f32⟩
  | 89 => ⟨S16x1x352x352, .f32⟩
  | 90 => ⟨S16x1x352x352, .f32⟩
  | 91 => ⟨S16x1x352x352, .f32⟩
  | 92 => ⟨S16x1x352x352, .f32⟩
  | 93 => ⟨S16x1x352x352, .f32⟩
  | 94 => ⟨S16x8x352x352, .f32⟩
  | 95 => ⟨S16x8x352x352, .f32⟩
  | 96 => ⟨S_, .f32⟩
  | 97 => ⟨S16x352x352, .f32⟩
  | 98 => ⟨S_, .f32⟩
  | 99 => ⟨S16x352x352, .f32⟩
  | 100 => ⟨S_, .f32⟩
  | 101 => ⟨S16x352x352, .f32⟩
  | 102 => ⟨S16x352x352, .f32⟩
  | 103 => ⟨S16x352x352, .f32⟩
  | 104 => ⟨S_, .f32⟩
  | 105 => ⟨S16x352x352, .f32⟩
  | 106 => ⟨S16x352x352, .f32⟩
  | 107 => ⟨S16x352x352, .f32⟩
  | 108 => ⟨S16x352x352, .f32⟩
  | 109 => ⟨S16x1x352x352, .f32⟩
  | 110 => ⟨S_, .f32⟩
  | 111 => ⟨S_, .f32⟩
  | 112 => ⟨S_, .f32⟩
  | 113 => ⟨S16x1x352x352, .f32⟩
  | 114 => ⟨S16x1x352x352, .f32⟩
  | 115 => ⟨S_, .f32⟩
  | 116 => ⟨S16x1x352x352, .f32⟩
  | 117 => ⟨S16x1x352x352, .f32⟩
  | 118 => ⟨S16x1x352x352, .f32⟩
  | 119 => ⟨S16x1x352x352, .f32⟩
  | 120 => ⟨S_, .f32⟩
  | 121 => ⟨S16x1x352x352, .f32⟩
  | 122 => ⟨S16x1x352x352, .f32⟩
  | 123 => ⟨S16x1x352x352, .f32⟩
  | 124 => ⟨S16x1x352x352, .f32⟩
  | 125 => ⟨S16x1x352x352, .f32⟩
  | 126 => ⟨S16x1x352x352, .f32⟩
  | 127 => ⟨S_, .f32⟩
  | _ => ⟨S16x8x352x352, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S16x8x352x352, .f32⟩
  | 6 => ⟨S16x8x352x352, .f32⟩
  | 7 => ⟨S_, .f32⟩
  | 8 => ⟨S16x8x352x352, .f32⟩
  | 9 => ⟨S16x8x352x352, .f32⟩
  | 10 => ⟨S16x8x352x352, .f32⟩
  | 11 => ⟨S16x8x352x352, .f32⟩
  | 12 => ⟨S_, .f32⟩
  | 13 => ⟨S16x8x352x352, .f32⟩
  | 14 => ⟨S16x8x352x352, .f32⟩
  | 15 => ⟨S16x8x352x352, .f32⟩
  | 16 => ⟨S16x8x352x352, .f32⟩
  | 17 => ⟨S16x8x352x352, .f32⟩
  | 18 => ⟨S16x8x352x352, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S16x8x352x352, .f32⟩
  | 26 => ⟨S16x8x352x352, .f32⟩
  | 27 => ⟨S_, .f32⟩
  | 28 => ⟨S16x8x352x352, .f32⟩
  | 29 => ⟨S16x8x352x352, .f32⟩
  | 30 => ⟨S16x8x352x352, .f32⟩
  | 31 => ⟨S16x8x352x352, .f32⟩
  | 32 => ⟨S_, .f32⟩
  | 33 => ⟨S16x8x352x352, .f32⟩
  | 34 => ⟨S16x8x352x352, .f32⟩
  | 35 => ⟨S16x8x352x352, .f32⟩
  | 36 => ⟨S16x8x352x352, .f32⟩
  | 37 => ⟨S16x8x352x352, .f32⟩
  | 38 => ⟨S16x8x352x352, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | _ => ⟨S16x8x352x352, .f32⟩

abbrev hbmTy (i : Nat) : BufTy := match i / 128 with
  | 0 => hbmTy0_0 i
  | 1 => hbmTy0_1 i
  | _ => ⟨S16x8x352x352, .f32⟩

abbrev bufTy : (tb : Table) → Fin (tcTables nBuf tb) → BufTy
  | .hbm, ⟨i, _⟩ => hbmTy i
  | _, _ => ⟨S16x8x352x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_call1_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_call2_v0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_call3_v0 : Ref sig .tc := ⟨.hbm, 41, rfl⟩
abbrev main_v26 : Ref sig .tc := ⟨.hbm, 42, rfl⟩
abbrev main_v27 : Ref sig .tc := ⟨.hbm, 43, rfl⟩
abbrev main_c_7 : Ref sig .tc := ⟨.hbm, 44, rfl⟩
abbrev main_call4_v0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_8 : Ref sig .tc := ⟨.hbm, 50, rfl⟩
abbrev main_call5_v0 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_9 : Ref sig .tc := ⟨.hbm, 56, rfl⟩
abbrev main_call6_v0 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_10 : Ref sig .tc := ⟨.hbm, 62, rfl⟩
abbrev main_call7_v0 : Ref sig .tc := ⟨.hbm, 63, rfl⟩
abbrev main_v40 : Ref sig .tc := ⟨.hbm, 64, rfl⟩
abbrev main_v41 : Ref sig .tc := ⟨.hbm, 65, rfl⟩
abbrev main_c_11 : Ref sig .tc := ⟨.hbm, 66, rfl⟩
abbrev main_call8_v0 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_12 : Ref sig .tc := ⟨.hbm, 72, rfl⟩
abbrev main_call9_v0 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_c_13 : Ref sig .tc := ⟨.hbm, 78, rfl⟩
abbrev main_call10_v0 : Ref sig .tc := ⟨.hbm, 79, rfl⟩
abbrev main_v50 : Ref sig .tc := ⟨.hbm, 80, rfl⟩
abbrev main_v51 : Ref sig .tc := ⟨.hbm, 81, rfl⟩
abbrev main_c_14 : Ref sig .tc := ⟨.hbm, 82, rfl⟩
abbrev main_call11_v0 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_15 : Ref sig .tc := ⟨.hbm, 96, rfl⟩
abbrev main_v64 : Ref sig .tc := ⟨.hbm, 97, rfl⟩
abbrev main_cst_16 : Ref sig .tc := ⟨.hbm, 98, rfl⟩
abbrev main_v65 : Ref sig .tc := ⟨.hbm, 99, rfl⟩
abbrev main_cst_17 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_18 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_19 : Ref sig .tc := ⟨.hbm, 110, rfl⟩
abbrev main_cst_20 : Ref sig .tc := ⟨.hbm, 111, rfl⟩
abbrev main_call12_v0 : Ref sig .tc := ⟨.hbm, 112, rfl⟩
abbrev main_call12_v1 : Ref sig .tc := ⟨.hbm, 113, rfl⟩
abbrev main_call12_v2 : Ref sig .tc := ⟨.hbm, 114, rfl⟩
abbrev main_call12_v3 : Ref sig .tc := ⟨.hbm, 115, rfl⟩
abbrev main_call12_v4 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_cst_21 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_cst_22 : Ref sig .tc := ⟨.hbm, 127, rfl⟩
abbrev main_v83 : Ref sig .tc := ⟨.hbm, 128, rfl⟩
abbrev main_v84 : Ref sig .tc := ⟨.hbm, 129, rfl⟩
abbrev main_cst_23 : Ref sig .tc := ⟨.hbm, 130, rfl⟩
abbrev main_cst_24 : Ref sig .tc := ⟨.hbm, 131, rfl⟩
abbrev main_call13_v0 : Ref sig .tc := ⟨.hbm, 132, rfl⟩
abbrev main_call13_v1 : Ref sig .tc := ⟨.hbm, 133, rfl⟩
abbrev main_call13_v2 : Ref sig .tc := ⟨.hbm, 134, rfl⟩
abbrev main_call13_v3 : Ref sig .tc := ⟨.hbm, 135, rfl⟩
abbrev main_call13_v4 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_cst_25 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_cst_26 : Ref sig .tc := ⟨.hbm, 147, rfl⟩
abbrev main_v94 : Ref sig .tc := ⟨.hbm, 148, rfl⟩
abbrev main_v95 : Ref sig .tc := ⟨.hbm, 149, rfl⟩
abbrev main_cst_27 : Ref sig .tc := ⟨.hbm, 150, rfl⟩
abbrev main_cst_28 : Ref sig .tc := ⟨.hbm, 151, rfl⟩
abbrev main_call14_v0 : Ref sig .tc := ⟨.hbm, 152, rfl⟩
abbrev main_call14_v1 : Ref sig .tc := ⟨.hbm, 153, rfl⟩
abbrev main_call14_v2 : Ref sig .tc := ⟨.hbm, 154, rfl⟩
abbrev main_call14_v3 : Ref sig .tc := ⟨.hbm, 155, rfl⟩
abbrev main_call14_v4 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_cst_29 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_cst_30 : Ref sig .tc := ⟨.hbm, 167, rfl⟩
abbrev main_v105 : Ref sig .tc := ⟨.hbm, 168, rfl⟩
abbrev main_v106 : Ref sig .tc := ⟨.hbm, 169, rfl⟩
abbrev main_cst_31 : Ref sig .tc := ⟨.hbm, 170, rfl⟩
abbrev main_v107 : Ref sig .tc := ⟨.hbm, 171, rfl⟩
abbrev main_v108 : Ref sig .tc := ⟨.hbm, 172, rfl⟩
abbrev main_cst_32 : Ref sig .tc := ⟨.hbm, 173, rfl⟩
abbrev main_v109 : Ref sig .tc := ⟨.hbm, 174, rfl⟩
abbrev main_v110 : Ref sig .tc := ⟨.hbm, 175, rfl⟩

abbrev nD : Nat := 1
abbrev τ : Topo := Topo.v7x

variable {F : FTy → Type} [FloatOps F]

class Facts₀ : Prop where
  bcast_S_S16x8x352x352 : S_.BroadcastsInDim S16x8x352x352 (![] : Fin 0 → Fin S16x8x352x352.rank)
  reducesTo_S16x8x352x352_S16x352x352_d1 : S16x8x352x352.ReducesTo [1] S16x352x352
  h_S_ : 0 < S_.numel
  bcast_S_S16x352x352 : S_.BroadcastsInDim S16x352x352 (![] : Fin 0 → Fin S16x352x352.rank)
  slices_S16x8x352x352_S16x1x352x352_0_7_0_0 : S16x8x352x352.Slices ![0, 7, 0, 0] S16x1x352x352
  shapeCasts_S16x1x352x352_S16x352x352 : S16x1x352x352.ShapeCasts S16x352x352
  pads_S16x352x352_S16x352x353_000_000_100 : S16x352x352.Pads (![0, 0, 1] : Fin 3 → Nat) ![0, 0, 0] ![0, 0, 0] S16x352x353
  slices_S16x352x353_S16x352x352_0_0_0 : S16x352x353.Slices ![0, 0, 0] S16x352x352
  pads_S16x352x352_S16x353x352_000_100_000 : S16x352x352.Pads (![0, 1, 0] : Fin 3 → Nat) ![0, 0, 0] ![0, 0, 0] S16x353x352
  slices_S16x353x352_S16x352x352_0_0_0 : S16x353x352.Slices ![0, 0, 0] S16x352x352
  slices_S16x8x352x352_S16x1x352x352_0_6_0_0 : S16x8x352x352.Slices ![0, 6, 0, 0] S16x1x352x352
  slices_S16x8x352x352_S16x1x352x352_0_5_0_0 : S16x8x352x352.Slices ![0, 5, 0, 0] S16x1x352x352
  pads_S16x352x352_S16x352x353_000_000_010 : S16x352x352.Pads (![0, 0, 0] : Fin 3 → Nat) ![0, 0, 1] ![0, 0, 0] S16x352x353
  slices_S16x352x353_S16x352x352_0_0_1 : S16x352x353.Slices ![0, 0, 1] S16x352x352
  slices_S16x8x352x352_S16x1x352x352_0_4_0_0 : S16x8x352x352.Slices ![0, 4, 0, 0] S16x1x352x352
  slices_S16x8x352x352_S16x1x352x352_0_3_0_0 : S16x8x352x352.Slices ![0, 3, 0, 0] S16x1x352x352
  slices_S16x8x352x352_S16x1x352x352_0_2_0_0 : S16x8x352x352.Slices ![0, 2, 0, 0] S16x1x352x352
  pads_S16x352x352_S16x353x352_000_010_000 : S16x352x352.Pads (![0, 0, 0] : Fin 3 → Nat) ![0, 1, 0] ![0, 0, 0] S16x353x352
  slices_S16x353x352_S16x352x352_0_1_0 : S16x353x352.Slices ![0, 1, 0] S16x352x352
  slices_S16x8x352x352_S16x1x352x352_0_1_0_0 : S16x8x352x352.Slices ![0, 1, 0, 0] S16x1x352x352
  slices_S16x8x352x352_S16x1x352x352_0_0_0_0 : S16x8x352x352.Slices ![0, 0, 0, 0] S16x1x352x352
  bcast_S16x352x352_S16x1x352x352_0_2_3 : S16x352x352.BroadcastsInDim S16x1x352x352 (![0, 2, 3] : Fin 3 → Fin S16x1x352x352.rank)
  concatenates_S16x1x352x352_S16x1x352x352_S16x1x352x352_S16x1x352x352_S16x1x352x352_S16x1x352x352_S16x1x352x352_S16x1x352x352_S16x8x352x352_d1 : Shape.Concatenates [S16x1x352x352, S16x1x352x352, S16x1x352x352, S16x1x352x352, S16x1x352x352, S16x1x352x352, S16x1x352x352, S16x1x352x352] S16x8x352x352 1
  bcast_S_S16x1x352x352 : S_.BroadcastsInDim S16x1x352x352 (![] : Fin 0 → Fin S16x1x352x352.rank)
  reducesTo_S16x1x352x352_S_d0_1_2_3 : S16x1x352x352.ReducesTo [0, 1, 2, 3] S_
  reducesTo_S16x8x352x352_S_d0_1_2_3 : S16x8x352x352.ReducesTo [0, 1, 2, 3] S_

variable [Facts₀]

class Facts : Prop extends Facts₀ where

variable [Facts]
-- ==== Proof.Spec.lean ====
/-
  The loss both programs compute, written once as a function of three arrays of extended reals:
  the logits `x b i h w` (batch, direction, row, column), the target `t b h w`, and the
  connectivity labels `n b i h w` (already read as numbers).

  With `σ` the logistic function, every pixel carries eight votes
  `vote i = σ (x i) · (the zero-padded translate, in direction i, of σ (x (7 - i)))`;
  the decoupled map mixes their maximum and one minus their minimum by the edge indicator
  `0 < Σᵢ n i < 8`.  The loss is a weighted sum of three clipped binary cross-entropies,
  each a sum over all pixels (and, for two of them, all eight directions).

  `kernelTotal` adds the three terms batch entry by batch entry, the sign taken inside every sum;
  `refTotal` takes the three sums over the whole arrays first, and negates and scales them after.
-/
import Idealize.ShloMosaic.PureOps.Ideal
import Idealize.ShloMosaic.Lib.ValueIdx

noncomputable section

namespace Cert.Bicon

open Idealize.ShloMosaic

/-- The lower clipping bound, the float nearest 10⁻⁷. -/
def eps : EReal := Ideal.ofBits .f32 0x33D6BF95#32
/-- The upper clipping bound, the float nearest 1 - 10⁻⁷. -/
def top1 : EReal := Ideal.ofBits .f32 0x3F7FFFFE#32
def one : EReal := Ideal.ofBits .f32 0x3F800000#32
def eight : EReal := Ideal.ofBits .f32 0x41000000#32
/-- The weight of the connectivity term, the float nearest 4/5. -/
def c08 : EReal := Ideal.ofBits .f32 0x3F4CCCCD#32
/-- The weight of the bilateral term, the float nearest 1/5. -/
def c02 : EReal := Ideal.ofBits .f32 0x3E4CCCCD#32

/-- A probability clipped into `[eps, top1]`. -/
def clip (p : EReal) : EReal := min top1 (max eps p)

/-- One pixel's cross-entropy, before the sign: `t · log p + (1 - t) · log (1 - p)` at the clipped `p`. -/
def bce (p t : EReal) : EReal := t * Ideal.log (clip p) + (one - t) * Ideal.log1p (-(clip p))

/-- A picture of 352 × 352 extended reals. -/
abbrev Img := Fin 352 → Fin 352 → EReal

/-- The translate one column to the right, zero in the first column. -/
def shR (f : Img) : Img := fun h w => if hw : 0 < w.val then f h ⟨w.val - 1, by omega⟩ else 0
/-- The translate one column to the left, zero in the last column. -/
def shL (f : Img) : Img := fun h w => if hw : w.val < 351 then f h ⟨w.val + 1, by omega⟩ else 0
/-- The translate one row down, zero in the first row. -/
def shD (f : Img) : Img := fun h w => if hh : 0 < h.val then f ⟨h.val - 1, by omega⟩ w else 0
/-- The translate one row up, zero in the last row. -/
def shU (f : Img) : Img := fun h w => if hh : h.val < 351 then f ⟨h.val + 1, by omega⟩ w else 0

/-- Direction `i`'s neighbour picture: the translate by that direction's offset of the opposite
    direction's picture (columns first, then rows). -/
def nb (s : Fin 8 → Img) : Fin 8 → Img :=
  ![shD (shR (s 7)), shD (s 6), shD (shL (s 5)), shR (s 4), shL (s 3), shU (shR (s 2)), shU (s 1), shU (shL (s 0))]

/-- The eight probabilities of batch entry `b`. -/
def prob (x : Fin 16 → Fin 8 → Img) (b : Fin 16) : Fin 8 → Img := fun i h w => Ideal.logistic (x b i h w)

/-- The eight votes of a pixel. -/
def vote (x : Fin 16 → Fin 8 → Img) (b : Fin 16) (i : Fin 8) (h w : Fin 352) : EReal :=
  prob x b i h w * nb (prob x b) i h w

/-- The largest of eight values, joined from the left. -/
def max8 (f : Fin 8 → EReal) : EReal :=
  max (max (max (max (max (max (max (f 0) (f 1)) (f 2)) (f 3)) (f 4)) (f 5)) (f 6)) (f 7)
/-- The smallest of eight values, met from the left. -/
def min8 (f : Fin 8 → EReal) : EReal :=
  min (min (min (min (min (min (min (f 0) (f 1)) (f 2)) (f 3)) (f 4)) (f 5)) (f 6)) (f 7)

/-- The edge indicator of a pixel whose eight labels add up to `s`: one when `0 < s < 8`, else zero. -/
def edge (s : EReal) : EReal := (if s < eight then 1 else 0) * (if 0 < s then 1 else 0)

/-- The decoupled map at a pixel. -/
def dec (x n : Fin 16 → Fin 8 → Img) (b : Fin 16) (h w : Fin 352) : EReal :=
  max8 (fun i => vote x b i h w) * (one - edge (∑ i, n b i h w))
    + (one - min8 (fun i => vote x b i h w)) * edge (∑ i, n b i h w)

/-- The connectivity term's summand. -/
def X (x n : Fin 16 → Fin 8 → Img) (b : Fin 16) (i : Fin 8) (h w : Fin 352) : EReal :=
  bce (prob x b i h w) (n b i h w)
/-- The decoupled term's summand. -/
def Y (x n : Fin 16 → Fin 8 → Img) (t : Fin 16 → Img) (b : Fin 16) (h w : Fin 352) : EReal :=
  bce (dec x n b h w) (t b h w)
/-- The bilateral term's summand. -/
def Z (x n : Fin 16 → Fin 8 → Img) (b : Fin 16) (i : Fin 8) (h w : Fin 352) : EReal :=
  bce (vote x b i h w) (n b i h w)

/-- One batch entry's share of the loss, the sign taken inside every sum. -/
def perBatch (x n : Fin 16 → Fin 8 → Img) (t : Fin 16 → Img) (b : Fin 16) : EReal :=
  (c08 * (∑ i, ∑ h, ∑ w, -(X x n b i h w)) + ∑ h, ∑ w, -(Y x n t b h w))
    + c02 * (∑ i, ∑ h, ∑ w, -(Z x n b i h w))

/-- The loss, batch entry by batch entry. -/
def kernelTotal (x n : Fin 16 → Fin 8 → Img) (t : Fin 16 → Img) : EReal := ∑ b, perBatch x n t b

/-- The loss, each of the three sums taken over the whole arrays first. -/
def refTotal (x n : Fin 16 → Fin 8 → Img) (t : Fin 16 → Img) : EReal :=
  (c08 * -(∑ b, ∑ i, ∑ h, ∑ w, X x n b i h w) + -(∑ b, ∑ h, ∑ w, Y x n t b h w))
    + c02 * -(∑ b, ∑ i, ∑ h, ∑ w, Z x n b i h w)

end Cert.Bicon

end
-- ==== Proof.Algebra.lean ====
import proofs.«131828_j61684320305394_2_alg».proof.Proof.Spec
import Mathlib.Tactic

noncomputable section

/-
  The two totals agree when every input is a real number.

  On the extended reals negation and scaling do not distribute over sums at mixed infinities. They do
  for real summands, so the proof first shows that every summand of the three cross-entropy sums is a
  real number: the logistic of a real is real, zero-padded translates of real pictures are real, and
  products, sums, maxima, minima and selections of reals are real; a clipped probability is a real in
  `[eps, top1]` with `0 < eps` and `top1 < 1`, so both logarithms of the cross-entropy are taken at
  positive reals. With every summand written as the inclusion of a real, the inclusion moves outside the
  finite sums and the identity is the one of real finite sums.
-/

namespace Cert.Bicon

open Idealize.ShloMosaic

/-- The value is a real number. -/
def Rl (a : EReal) : Prop := ∃ r : ℝ, a = (r : EReal)

theorem rl_coe (r : ℝ) : Rl (r : EReal) := ⟨r, rfl⟩
theorem rl_zero : Rl 0 := ⟨0, EReal.coe_zero.symm⟩
theorem rl_one : Rl 1 := ⟨1, EReal.coe_one.symm⟩

theorem Rl.add {a b : EReal} (ha : Rl a) (hb : Rl b) : Rl (a + b) := by
  obtain ⟨x, rfl⟩ := ha; obtain ⟨y, rfl⟩ := hb; exact ⟨x + y, (EReal.coe_add x y).symm⟩

theorem Rl.mul {a b : EReal} (ha : Rl a) (hb : Rl b) : Rl (a * b) := by
  obtain ⟨x, rfl⟩ := ha; obtain ⟨y, rfl⟩ := hb; exact ⟨x * y, (EReal.coe_mul x y).symm⟩

theorem Rl.neg {a : EReal} (ha : Rl a) : Rl (-a) := by
  obtain ⟨x, rfl⟩ := ha; exact ⟨-x, (EReal.coe_neg x).symm⟩

theorem Rl.sub {a b : EReal} (ha : Rl a) (hb : Rl b) : Rl (a - b) := by
  obtain ⟨x, rfl⟩ := ha; obtain ⟨y, rfl⟩ := hb; exact ⟨x - y, (EReal.coe_sub x y).symm⟩

theorem Rl.max {a b : EReal} (ha : Rl a) (hb : Rl b) : Rl (max a b) := by
  rcases max_choice a b with h | h
  · rw [h]; exact ha
  · rw [h]; exact hb

theorem Rl.min {a b : EReal} (ha : Rl a) (hb : Rl b) : Rl (min a b) := by
  rcases min_choice a b with h | h
  · rw [h]; exact ha
  · rw [h]; exact hb

theorem Rl.ite {P : Prop} [Decidable P] {a b : EReal} (ha : Rl a) (hb : Rl b) : Rl (if P then a else b) := by
  split
  · exact ha
  · exact hb

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### The constants -/

theorem eps_eq : eps = (((14073749 : ℝ) * (2 : ℝ) ^ (-47 : ℤ) : ℝ) : EReal) := by
  simp [eps, Ideal.ofBits, Ideal.ieee, -EReal.coe_mul]

theorem top1_eq : top1 = (((16777214 : ℝ) * (2 : ℝ) ^ (-24 : ℤ) : ℝ) : EReal) := by
  simp [top1, Ideal.ofBits, Ideal.ieee, -EReal.coe_mul]

theorem one_eq : one = ((1 : ℝ) : EReal) := by
  simp [one, Ideal.ofBits, Ideal.ieee, -EReal.coe_mul]
  norm_num

theorem c08_eq : c08 = (((13421773 : ℝ) * (2 : ℝ) ^ (-24 : ℤ) : ℝ) : EReal) := by
  simp [c08, Ideal.ofBits, Ideal.ieee, -EReal.coe_mul]

theorem c02_eq : c02 = (((13421773 : ℝ) * (2 : ℝ) ^ (-26 : ℤ) : ℝ) : EReal) := by
  simp [c02, Ideal.ofBits, Ideal.ieee, -EReal.coe_mul]

end Cert.Bicon

namespace Cert.Bicon

open Idealize.ShloMosaic

/-! ### The pictures -/

theorem rl_shR (f : Img) (hf : ∀ h w, Rl (f h w)) : ∀ h w, Rl (shR f h w) := by
  intro h w; unfold shR; split
  · exact hf _ _
  · exact rl_zero

theorem rl_shL (f : Img) (hf : ∀ h w, Rl (f h w)) : ∀ h w, Rl (shL f h w) := by
  intro h w; unfold shL; split
  · exact hf _ _
  · exact rl_zero

theorem rl_shD (f : Img) (hf : ∀ h w, Rl (f h w)) : ∀ h w, Rl (shD f h w) := by
  intro h w; unfold shD; split
  · exact hf _ _
  · exact rl_zero

theorem rl_shU (f : Img) (hf : ∀ h w, Rl (f h w)) : ∀ h w, Rl (shU f h w) := by
  intro h w; unfold shU; split
  · exact hf _ _
  · exact rl_zero

theorem rl_nb (s : Fin 8 → Img) (hs : ∀ i h w, Rl (s i h w)) : ∀ i h w, Rl (nb s i h w) := by
  intro i
  fin_cases i
  · exact rl_shD _ (rl_shR _ (hs 7))
  · exact rl_shD _ (hs 6)
  · exact rl_shD _ (rl_shL _ (hs 5))
  · exact rl_shR _ (hs 4)
  · exact rl_shL _ (hs 3)
  · exact rl_shU _ (rl_shR _ (hs 2))
  · exact rl_shU _ (hs 1)
  · exact rl_shU _ (rl_shL _ (hs 0))

theorem rl_logistic {a : EReal} (ha : Rl a) : Rl (Ideal.logistic a) := by
  obtain ⟨r, rfl⟩ := ha
  exact ⟨_, Ideal.logistic_coe r⟩

section
variable (x n : Fin 16 → Fin 8 → Img) (t : Fin 16 → Img)
variable (hx : ∀ b i h w, Rl (x b i h w)) (hn : ∀ b i h w, Rl (n b i h w)) (ht : ∀ b h w, Rl (t b h w))
include hx

theorem rl_prob (b : Fin 16) : ∀ i h w, Rl (prob x b i h w) := fun i h w => rl_logistic (hx b i h w)

theorem rl_vote (b : Fin 16) (i : Fin 8) (h w : Fin 352) : Rl (vote x b i h w) :=
  (rl_prob x hx b i h w).mul (rl_nb _ (rl_prob x hx b) i h w)

end

theorem rl_max8 (f : Fin 8 → EReal) (hf : ∀ i, Rl (f i)) : Rl (max8 f) :=
  ((((((((hf 0).max (hf 1)).max (hf 2)).max (hf 3)).max (hf 4)).max (hf 5)).max (hf 6)).max (hf 7))

theorem rl_min8 (f : Fin 8 → EReal) (hf : ∀ i, Rl (f i)) : Rl (min8 f) :=
  ((((((((hf 0).min (hf 1)).min (hf 2)).min (hf 3)).min (hf 4)).min (hf 5)).min (hf 6)).min (hf 7))

theorem rl_edge (s : EReal) : Rl (edge s) := (rl_one.ite rl_zero).mul (rl_one.ite rl_zero)

theorem rl_oneC : Rl one := ⟨1, one_eq⟩

theorem rl_dec (x n : Fin 16 → Fin 8 → Img) (hx : ∀ b i h w, Rl (x b i h w)) (b : Fin 16) (h w : Fin 352) :
    Rl (dec x n b h w) :=
  ((rl_max8 _ fun i => rl_vote x hx b i h w).mul (rl_oneC.sub (rl_edge _))).add
    ((rl_oneC.sub (rl_min8 _ fun i => rl_vote x hx b i h w)).mul (rl_edge _))

/-! ### The clipped cross-entropy -/

/-- A clipped real is a real between the two bounds. -/
theorem clip_coe (r : ℝ) : ∃ c : ℝ, clip (r : EReal) = (c : EReal) ∧
    (14073749 : ℝ) * (2 : ℝ) ^ (-47 : ℤ) ≤ c ∧ c ≤ (16777214 : ℝ) * (2 : ℝ) ^ (-24 : ℤ) := by
  refine ⟨min ((16777214 : ℝ) * (2 : ℝ) ^ (-24 : ℤ)) (max ((14073749 : ℝ) * (2 : ℝ) ^ (-47 : ℤ)) r), ?_, ?_, ?_⟩
  · rw [clip, eps_eq, top1_eq, EReal.coe_strictMono.monotone.map_min, EReal.coe_strictMono.monotone.map_max]
  · refine le_min ?_ (le_max_left _ _)
    norm_num
  · exact min_le_left _ _

theorem rl_bce {p t : EReal} (hp : Rl p) (ht : Rl t) : Rl (bce p t) := by
  obtain ⟨r, rfl⟩ := hp
  obtain ⟨c, hc, hlo, hhi⟩ := clip_coe r
  have hpos : 0 < c := lt_of_lt_of_le (by positivity) hlo
  have hlt : c < 1 := lt_of_le_of_lt hhi (by norm_num)
  unfold bce
  rw [hc]
  have h1 : Ideal.log (c : EReal) = ((Real.log c : ℝ) : EReal) := by
    rw [Ideal.log_coe, if_neg (not_le.2 hpos)]
  have h2 : Ideal.log1p (-(c : EReal)) = ((Real.log (1 + -c) : ℝ) : EReal) := by
    have : (1 : EReal) + -(c : EReal) = ((1 + -c : ℝ) : EReal) := by
      rw [EReal.coe_add, EReal.coe_neg, EReal.coe_one]
    rw [Ideal.log1p, this, Ideal.log_coe, if_neg (not_le.2 (by linarith))]
  rw [h1, h2]
  exact (ht.mul (rl_coe _)).add ((rl_oneC.sub ht).mul (rl_coe _))

/-! ### The regrouping of the sums -/

/-- For real weights and real summands, adding the three weighted sums batch entry by batch entry with the
    sign inside is negating and weighting the three whole sums. -/
theorem total_regroup {B I H : Type*} [Fintype B] [Fintype I] [Fintype H] (a c : EReal)
    (X Z : B → I → H → H → EReal) (Y : B → H → H → EReal)
    (ha : Rl a) (hc : Rl c) (hX : ∀ b i h w, Rl (X b i h w)) (hY : ∀ b h w, Rl (Y b h w))
    (hZ : ∀ b i h w, Rl (Z b i h w)) :
    ∑ b, ((a * (∑ i, ∑ h, ∑ w, -(X b i h w)) + ∑ h, ∑ w, -(Y b h w)) + c * (∑ i, ∑ h, ∑ w, -(Z b i h w)))
      = (a * -(∑ b, ∑ i, ∑ h, ∑ w, X b i h w) + -(∑ b, ∑ h, ∑ w, Y b h w))
          + c * -(∑ b, ∑ i, ∑ h, ∑ w, Z b i h w) := by
  obtain ⟨a', rfl⟩ := ha
  obtain ⟨c', rfl⟩ := hc
  choose X' hX' using hX
  choose Y' hY' using hY
  choose Z' hZ' using hZ
  simp only [hX', hY', hZ', ← EReal.coe_neg, ← coe_sum, ← EReal.coe_mul, ← EReal.coe_add]
  congr 1
  simp only [Finset.sum_neg_distrib, Finset.sum_add_distrib, ← Finset.mul_sum]

/-- The two totals agree on real inputs. -/
theorem kernelTotal_eq_refTotal (x n : Fin 16 → Fin 8 → Img) (t : Fin 16 → Img)
    (hx : ∀ b i h w, ∃ r : ℝ, x b i h w = (r : EReal)) (hn : ∀ b i h w, ∃ r : ℝ, n b i h w = (r : EReal))
    (ht : ∀ b h w, ∃ r : ℝ, t b h w = (r : EReal)) :
    kernelTotal x n t = refTotal x n t := by
  unfold kernelTotal refTotal perBatch
  exact total_regroup c08 c02 (X x n) (Z x n) (Y x n t) ⟨_, c08_eq⟩ ⟨_, c02_eq⟩
    (fun b i h w => rl_bce (rl_prob x hx b i h w) (hn b i h w))
    (fun b h w => rl_bce (rl_dec x n hx b h w) (ht b h w))
    (fun b i h w => rl_bce (rl_vote x hx b i h w) (hn b i h w))

end Cert.Bicon

end
-- ==== Proof.LibKeepdims.lean ====
/-
  Two layout operations read at an index given by coordinates, for the column that a row-wise sum with kept
  dimensions produces: a vector `[a]` cast to the column `[a, 1]`, and a column `[a, 1]` broadcast over `b` lanes.
  They complete the row forms of the library's layout lemmas (a leading unit axis added, one row broadcast over many).
-/
import Idealize.ShloMosaic.Lib.ValueLayout

namespace Cert.LibKeepdims

open Idealize.ShloMosaic Idealize.ShloMosaic.ValueIdx

variable {α : Type}

/-- An `[a]` vector cast to the column `[a, 1]` reads, at `(i, u)`, the operand at `i`, whatever the unit coordinate `u`:
    both indices have the same row-major position, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`: the row coordinate is kept
    (when `a = 1` it is `0` anyway) and the unit axis reads its one coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KImg.lean ====
/-
  The kernel's vector operations on one 352 × 352 picture, read pixel by pixel over the extended reals:
  a rotation along one axis followed by a mask on that axis's coordinate is a zero-padded translate;
  a lane sum followed by a sublane sum is the sum over all pixels; the clipped cross-entropy of two
  pictures is `bce` at every pixel.
-/
import Idealize.ShloMosaic.PureOps.Ideal.Laws
import Idealize.ShloMosaic.Lib.Pipeline.Value
import Idealize.ShloMosaic.Lib.KernelVsHost
import Idealize.ShloMosaic.Lib.Affine
import proofs.«131828_j61684320305394_2_alg».proof.Proof.Spec
import proofs.«131828_j61684320305394_2_alg».proof.Proof.LibKeepdims

noncomputable section

namespace Cert.Bicon

open Idealize.ShloMosaic Idealize.ShloMosaic.ValueIdx

/-- The shape of one picture. -/
abbrev T2 : Shape := ⟨2, ![352, 352]⟩

/-- A 352 × 352 vector of extended reals as a picture. -/
def img (v : T2.Idx → EReal) : Img := fun h w => v (ix2 h w)

theorem img_apply (v : T2.Idx → EReal) (h w : Fin 352) : img v h w = v (ix2 h w) := rfl

/-- A coordinate below 352, as a 32-bit word, is positive as a signed word exactly when it is positive. -/
theorem mask_gt : ∀ w : Fin 352, IntOp.cmpi .sgt (BitVec.ofNat 32 w.val) 0#32 = if 0 < w.val then 1#1 else 0#1 := by
  decide +kernel

/-- A coordinate below 352, as a 32-bit word, is below 351 as a signed word exactly when it is below 351. -/
theorem mask_lt : ∀ w : Fin 352, IntOp.cmpi .slt (BitVec.ofNat 32 w.val) 351#32 = if w.val < 351 then 1#1 else 0#1 := by
  decide +kernel

theorem zero_word : (Scalar.ofBits (F := Ideal) .f32 0x00000000#32 : EReal) = 0 := Ideal.ofBits_zero_f32

/-- Rotating the columns by one and clearing column 0 translates the picture one column to the right. -/
theorem colR_apply (v : FVec Ideal T2 .f32) (hr : T2.Rotates 1 none) (hi : T2.Iotas .tc 32 [1]) (h w : Fin 352) :
    select (cmpi .sgt (iota .tc T2 32 [1] hi) (broadcast T2 (0#32)))
        (dynamicRotate 1 1#32 none v hr) (broadcast T2 (Scalar.ofBits (F := Ideal) .f32 0x00000000#32)) (ix2 h w)
      = shR (img v) h w := by
  show Scalar.select (IntOp.cmpi .sgt (iota .tc T2 32 [1] hi (ix2 h w)) 0#32) (dynamicRotate 1 1#32 none v hr (ix2 h w)) _ = _
  rw [iota_single_apply]
  show Scalar.select (IntOp.cmpi .sgt (BitVec.ofNat 32 w.val) 0#32) _ _ = _
  rw [mask_gt w]
  unfold shR
  by_cases hw : 0 < w.val
  · rw [if_pos hw, dif_pos hw, select_one]
    refine dynamicRotate_apply 1 1#32 v hr (ix2 h w) (ix2 h ⟨w.val - 1, by omega⟩) fun b => ?_
    match b with
    | ⟨0, _⟩ => rfl
    | ⟨1, _⟩ =>
      show w.val - 1 = (w.val + 352 - 1 % 352) % 352
      have := w.isLt
      omega
  · rw [if_neg hw, dif_neg hw, select_zero]
    exact zero_word

/-- Rotating the columns by 351 and clearing column 351 translates the picture one column to the left. -/
theorem colL_apply (v : FVec Ideal T2 .f32) (hr : T2.Rotates 1 none) (hi : T2.Iotas .tc 32 [1]) (h w : Fin 352) :
    select (cmpi .slt (iota .tc T2 32 [1] hi) (broadcast T2 (351#32)))
        (dynamicRotate 1 351#32 none v hr) (broadcast T2 (Scalar.ofBits (F := Ideal) .f32 0x00000000#32)) (ix2 h w)
      = shL (img v) h w := by
  show Scalar.select (IntOp.cmpi .slt (iota .tc T2 32 [1] hi (ix2 h w)) 351#32) (dynamicRotate 1 351#32 none v hr (ix2 h w)) _ = _
  rw [iota_single_apply]
  show Scalar.select (IntOp.cmpi .slt (BitVec.ofNat 32 w.val) 351#32) _ _ = _
  rw [mask_lt w]
  unfold shL
  by_cases hw : w.val < 351
  · rw [if_pos hw, dif_pos hw, select_one]
    refine dynamicRotate_apply 1 351#32 v hr (ix2 h w) (ix2 h ⟨w.val + 1, by omega⟩) fun b => ?_
    match b with
    | ⟨0, _⟩ => rfl
    | ⟨1, _⟩ =>
      show w.val + 1 = (w.val + 352 - 351 % 352) % 352
      omega
  · rw [if_neg hw, dif_neg hw, select_zero]
    exact zero_word

/-- Rotating the rows by one and clearing row 0 translates the picture one row down. -/
theorem rowD_apply (v : FVec Ideal T2 .f32) (hr : T2.Rotates 0 none) (hi : T2.Iotas .tc 32 [0]) (h w : Fin 352) :
    select (cmpi .sgt (iota .tc T2 32 [0] hi) (broadcast T2 (0#32)))
        (dynamicRotate 0 1#32 none v hr) (broadcast T2 (Scalar.ofBits (F := Ideal) .f32 0x00000000#32)) (ix2 h w)
      = shD (img v) h w := by
  show Scalar.select (IntOp.cmpi .sgt (iota .tc T2 32 [0] hi (ix2 h w)) 0#32) (dynamicRotate 0 1#32 none v hr (ix2 h w)) _ = _
  rw [iota_single_apply]
  show Scalar.select (IntOp.cmpi .sgt (BitVec.ofNat 32 h.val) 0#32) _ _ = _
  rw [mask_gt h]
  unfold shD
  by_cases hh : 0 < h.val
  · rw [if_pos hh, dif_pos hh, select_one]
    refine dynamicRotate_apply 0 1#32 v hr (ix2 h w) (ix2 ⟨h.val - 1, by omega⟩ w) fun b => ?_
    match b with
    | ⟨0, _⟩ =>
      show h.val - 1 = (h.val + 352 - 1 % 352) % 352
      have := h.isLt
      omega
    | ⟨1, _⟩ => rfl
  · rw [if_neg hh, dif_neg hh, select_zero]
    exact zero_word

/-- Rotating the rows by 351 and clearing row 351 translates the picture one row up. -/
theorem rowU_apply (v : FVec Ideal T2 .f32) (hr : T2.Rotates 0 none) (hi : T2.Iotas .tc 32 [0]) (h w : Fin 352) :
    select (cmpi .slt (iota .tc T2 32 [0] hi) (broadcast T2 (351#32)))
        (dynamicRotate 0 351#32 none v hr) (broadcast T2 (Scalar.ofBits (F := Ideal) .f32 0x00000000#32)) (ix2 h w)
      = shU (img v) h w := by
  show Scalar.select (IntOp.cmpi .slt (iota .tc T2 32 [0] hi (ix2 h w)) 351#32) (dynamicRotate 0 351#32 none v hr (ix2 h w)) _ = _
  rw [iota_single_apply]
  show Scalar.select (IntOp.cmpi .slt (BitVec.ofNat 32 h.val) 351#32) _ _ = _
  rw [mask_lt h]
  unfold shU
  by_cases hh : h.val < 351
  · rw [if_pos hh, dif_pos hh, select_one]
    refine dynamicRotate_apply 0 351#32 v hr (ix2 h w) (ix2 ⟨h.val + 1, by omega⟩ w) fun b => ?_
    match b with
    | ⟨0, _⟩ =>
      show h.val + 1 = (h.val + 352 - 351 % 352) % 352
      omega
    | ⟨1, _⟩ => rfl
  · rw [if_neg hh, dif_neg hh, select_zero]
    exact zero_word

/-- A probability picture clipped into `[eps, top1]`. -/
def clipV (p : FVec Ideal T2 .f32) : FVec Ideal T2 .f32 :=
  minimumf (broadcast T2 (Scalar.ofBits (F := Ideal) .f32 0x3F7FFFFE#32))
    (maximumf (broadcast T2 (Scalar.ofBits (F := Ideal) .f32 0x33D6BF95#32)) p)

/-- The negated cross-entropy picture of a probability picture and a target picture. -/
def negBceV (p t : FVec Ideal T2 .f32) : FVec Ideal T2 .f32 :=
  subf (broadcast T2 (Scalar.ofBits (F := Ideal) .f32 0x00000000#32))
    (addf (mulf t (log (clipV p)))
      (mulf (subf (broadcast T2 (Scalar.ofBits (F := Ideal) .f32 0x3F800000#32)) t)
        (log1p (subf (broadcast T2 (Scalar.ofBits (F := Ideal) .f32 0x00000000#32)) (clipV p)))))

/-- At every pixel it is minus `bce` of the two pixels. -/
theorem negBceV_apply (p t : FVec Ideal T2 .f32) (j : T2.Idx) : negBceV p t j = -(bce (p j) (t j)) := by
  show (Scalar.ofBits (F := Ideal) .f32 0x00000000#32 : EReal)
      - (t j * Ideal.log (clip (p j)) + (one - t j) * Ideal.log1p ((Scalar.ofBits (F := Ideal) .f32 0x00000000#32 : EReal) - clip (p j))) = _
  rw [zero_word, zero_sub, zero_sub]
  rfl

/-- The sum over the lanes of every row, kept as a column, then over the rows: the sum over all pixels. -/
theorem sumAll_apply (x : FVec Ideal T2 .f32) (h1 : T2.Reduces [1] ⟨1, ![352]⟩)
    (c1 : (⟨1, ![352]⟩ : Shape).ShapeCasts ⟨2, ![352, 1]⟩) (h0 : (⟨2, ![352, 1]⟩ : Shape).Reduces [0] ⟨1, ![1]⟩)
    (c0 : (⟨1, ![1]⟩ : Shape).ShapeCasts ⟨2, ![1, 1]⟩) (j : (⟨2, ![1, 1]⟩ : Shape).Idx) :
    shapeCast ⟨2, ![1, 1]⟩ (multiReduction .add [0] ⟨1, ![1]⟩
        (shapeCast ⟨2, ![352, 1]⟩ (multiReduction .add [1] ⟨1, ![352]⟩ x 0x00000000#32 h1 (.inl rfl) rfl) c1)
        0x00000000#32 h0 (.inl rfl) rfl) c0 j
      = ∑ h : Fin 352, ∑ w : Fin 352, x (ix2 h w) := by
  obtain ⟨p, q, rfl⟩ : ∃ (p : Fin 1) (q : Fin 1), j = ix2 p q := ⟨j 0, j 1, eq_ix2 j⟩
  obtain rfl : p = 0 := Subsingleton.elim _ _
  refine (Cert.LibKeepdims.shapeCast_a_a1_apply _ c0 0 q).trans ?_
  refine (Ideal.multiReduction_add_single _ 0x00000000#32 h0 (.inl rfl) rfl (ix1 0)).trans ?_
  show ∑ h : Fin 352, shapeCast ⟨2, ![352, 1]⟩ (multiReduction .add [1] ⟨1, ![352]⟩ x 0x00000000#32 h1 (.inl rfl) rfl) c1
      (h0.lift (ix1 0) h) = _
  refine Finset.sum_congr rfl fun h _ => ?_
  have e : (h0.lift (ix1 (0 : Fin 1)) h : (⟨2, ![352, 1]⟩ : Shape).Idx) = ix2 h (0 : Fin 1) := by
    funext a
    match a with
    | ⟨0, _⟩ => rfl
    | ⟨1, _⟩ => rfl
  refine (congrArg _ e).trans ?_
  refine (Cert.LibKeepdims.shapeCast_a_a1_apply _ c1 h 0).trans ?_
  refine (Ideal.multiReduction_add_single x 0x00000000#32 h1 (.inl rfl) rfl (ix1 h)).trans ?_
  show ∑ w : Fin 352, x (h1.lift (ix1 h) w) = _
  refine Finset.sum_congr rfl fun w _ => congrArg x (funext fun a => ?_)
  match a with
  | ⟨0, _⟩ => rfl
  | ⟨1, _⟩ => rfl

end Cert.Bicon

end
-- ==== Proof.KPoint.lean ====
/-
  One grid point's work, as the kernel performs it on whole pictures: from the eight logit pictures
  `cs i`, the eight label pictures `ls i` and the target picture `tg` of one batch entry to the
  1 × 1 array holding that entry's share of the loss.  Each definition follows the order of the
  kernel's operations (sums and maxima joined from the left, direction by direction).
-/
import proofs.«131828_j61684320305394_2_alg».proof.Proof.KImg

noncomputable section

namespace Cert.Bicon

open Idealize.ShloMosaic Idealize.ShloMosaic.ValueIdx

/-- The shape of the accumulator. -/
abbrev T11 : Shape := ⟨2, ![1, 1]⟩

section Point

variable (hr1 : T2.Rotates 1 none) (hr0 : T2.Rotates 0 none) (hi1 : T2.Iotas .tc 32 [1]) (hi0 : T2.Iotas .tc 32 [0])
  (h1 : T2.Reduces [1] ⟨1, ![352]⟩) (c1 : (⟨1, ![352]⟩ : Shape).ShapeCasts ⟨2, ![352, 1]⟩)
  (h0 : (⟨2, ![352, 1]⟩ : Shape).Reduces [0] ⟨1, ![1]⟩) (c0 : (⟨1, ![1]⟩ : Shape).ShapeCasts T11) (hlt : 1 < 32)

/-- The zero picture. -/
def zeroV : FVec Ideal T2 .f32 := broadcast T2 (Scalar.ofBits (F := Ideal) .f32 0x00000000#32)
/-- The all-ones picture. -/
def oneV : FVec Ideal T2 .f32 := broadcast T2 (Scalar.ofBits (F := Ideal) .f32 0x3F800000#32)

/-- The translate one column to the right, as the kernel spells it: rotate, then clear column 0. -/
def colRV (v : FVec Ideal T2 .f32) : FVec Ideal T2 .f32 :=
  select (cmpi .sgt (iota .tc T2 32 [1] hi1) (broadcast T2 (0#32))) (dynamicRotate 1 1#32 none v hr1) zeroV
/-- The translate one column to the left: rotate by 351, then clear column 351. -/
def colLV (v : FVec Ideal T2 .f32) : FVec Ideal T2 .f32 :=
  select (cmpi .slt (iota .tc T2 32 [1] hi1) (broadcast T2 (351#32))) (dynamicRotate 1 351#32 none v hr1) zeroV
/-- The translate one row down: rotate, then clear row 0. -/
def rowDV (v : FVec Ideal T2 .f32) : FVec Ideal T2 .f32 :=
  select (cmpi .sgt (iota .tc T2 32 [0] hi0) (broadcast T2 (0#32))) (dynamicRotate 0 1#32 none v hr0) zeroV
/-- The translate one row up: rotate by 351, then clear row 351. -/
def rowUV (v : FVec Ideal T2 .f32) : FVec Ideal T2 .f32 :=
  select (cmpi .slt (iota .tc T2 32 [0] hi0) (broadcast T2 (351#32))) (dynamicRotate 0 351#32 none v hr0) zeroV

/-- The sum of a picture over all its pixels, as a 1 × 1 array. -/
def sumAllV (x : FVec Ideal T2 .f32) : FVec Ideal T11 .f32 :=
  shapeCast T11 (multiReduction .add [0] ⟨1, ![1]⟩
    (shapeCast ⟨2, ![352, 1]⟩ (multiReduction .add [1] ⟨1, ![352]⟩ x 0x00000000#32 h1 (.inl rfl) rfl) c1)
    0x00000000#32 h0 (.inl rfl) rfl) c0

/-- One cross-entropy sum. -/
def termV (p t : FVec Ideal T2 .f32) : FVec Ideal T11 .f32 := sumAllV h1 c1 h0 c0 (negBceV p t)

variable (cs : Fin 8 → FVec Ideal T2 .f32) (ls : Fin 8 → IVec T2 32) (tg : FVec Ideal T2 .f32)

/-- Direction `i`'s probability picture. -/
def pV (i : Fin 8) : FVec Ideal T2 .f32 := logistic (cs i)
/-- Direction `i`'s label picture, as numbers. -/
def nV (i : Fin 8) : FVec Ideal T2 .f32 := sitofp .f32 (ls i)

/-- Direction `i`'s neighbour picture. -/
def nbV : Fin 8 → FVec Ideal T2 .f32 :=
  ![rowDV hr0 hi0 (colRV hr1 hi1 (pV cs 7)), rowDV hr0 hi0 (pV cs 6), rowDV hr0 hi0 (colLV hr1 hi1 (pV cs 5)),
    colRV hr1 hi1 (pV cs 4), colLV hr1 hi1 (pV cs 3),
    rowUV hr0 hi0 (colRV hr1 hi1 (pV cs 2)), rowUV hr0 hi0 (pV cs 1), rowUV hr0 hi0 (colLV hr1 hi1 (pV cs 0))]

/-- Direction `i`'s vote picture. -/
def voteV (i : Fin 8) : FVec Ideal T2 .f32 := mulf (pV cs i) (nbV hr1 hr0 hi1 hi0 cs i)

/-- The connectivity sums of the eight directions, added from the left. -/
def conAccV : FVec Ideal T11 .f32 :=
  addf (addf (addf (addf (addf (addf (addf (termV h1 c1 h0 c0 (pV cs 0) (nV ls 0)) (termV h1 c1 h0 c0 (pV cs 1) (nV ls 1))) (termV h1 c1 h0 c0 (pV cs 2) (nV ls 2))) (termV h1 c1 h0 c0 (pV cs 3) (nV ls 3))) (termV h1 c1 h0 c0 (pV cs 4) (nV ls 4))) (termV h1 c1 h0 c0 (pV cs 5) (nV ls 5))) (termV h1 c1 h0 c0 (pV cs 6) (nV ls 6))) (termV h1 c1 h0 c0 (pV cs 7) (nV ls 7))

/-- The bilateral sums of the eight directions, added from the left. -/
def biAccV : FVec Ideal T11 .f32 :=
  addf (addf (addf (addf (addf (addf (addf (termV h1 c1 h0 c0 (voteV hr1 hr0 hi1 hi0 cs 0) (nV ls 0)) (termV h1 c1 h0 c0 (voteV hr1 hr0 hi1 hi0 cs 1) (nV ls 1))) (termV h1 c1 h0 c0 (voteV hr1 hr0 hi1 hi0 cs 2) (nV ls 2))) (termV h1 c1 h0 c0 (voteV hr1 hr0 hi1 hi0 cs 3) (nV ls 3))) (termV h1 c1 h0 c0 (voteV hr1 hr0 hi1 hi0 cs 4) (nV ls 4))) (termV h1 c1 h0 c0 (voteV hr1 hr0 hi1 hi0 cs 5) (nV ls 5))) (termV h1 c1 h0 c0 (voteV hr1 hr0 hi1 hi0 cs 6) (nV ls 6))) (termV h1 c1 h0 c0 (voteV hr1 hr0 hi1 hi0 cs 7) (nV ls 7))

/-- The eight label pictures added from the left. -/
def sumConV : FVec Ideal T2 .f32 :=
  addf (addf (addf (addf (addf (addf (addf (nV ls 0) (nV ls 1)) (nV ls 2)) (nV ls 3)) (nV ls 4)) (nV ls 5)) (nV ls 6)) (nV ls 7)

/-- The largest vote at every pixel. -/
def gloV : FVec Ideal T2 .f32 :=
  maximumf (maximumf (maximumf (maximumf (maximumf (maximumf (maximumf (voteV hr1 hr0 hi1 hi0 cs 0) (voteV hr1 hr0 hi1 hi0 cs 1)) (voteV hr1 hr0 hi1 hi0 cs 2)) (voteV hr1 hr0 hi1 hi0 cs 3)) (voteV hr1 hr0 hi1 hi0 cs 4)) (voteV hr1 hr0 hi1 hi0 cs 5)) (voteV hr1 hr0 hi1 hi0 cs 6)) (voteV hr1 hr0 hi1 hi0 cs 7)

/-- The smallest vote at every pixel. -/
def minV : FVec Ideal T2 .f32 :=
  minimumf (minimumf (minimumf (minimumf (minimumf (minimumf (minimumf (voteV hr1 hr0 hi1 hi0 cs 0) (voteV hr1 hr0 hi1 hi0 cs 1)) (voteV hr1 hr0 hi1 hi0 cs 2)) (voteV hr1 hr0 hi1 hi0 cs 3)) (voteV hr1 hr0 hi1 hi0 cs 4)) (voteV hr1 hr0 hi1 hi0 cs 5)) (voteV hr1 hr0 hi1 hi0 cs 6)) (voteV hr1 hr0 hi1 hi0 cs 7)

/-- The edge indicator picture: the product of the two comparisons of the label sum, each read as a number. -/
def edgeV : FVec Ideal T2 .f32 :=
  mulf (sitofp .f32 (extui 32 (cmpf .olt (sumConV ls) (broadcast T2 (Scalar.ofBits (F := Ideal) .f32 0x41000000#32))) hlt))
    (sitofp .f32 (extui 32 (cmpf .ogt (sumConV ls) zeroV) hlt))

/-- The decoupled picture. -/
def decV : FVec Ideal T2 .f32 :=
  addf (mulf (gloV hr1 hr0 hi1 hi0 cs) (subf oneV (edgeV hlt ls)))
    (mulf (subf oneV (minV hr1 hr0 hi1 hi0 cs)) (edgeV hlt ls))

/-- The batch entry's share of the loss. -/
def ptV : FVec Ideal T11 .f32 :=
  addf (addf (mulf (broadcast T11 (Scalar.ofBits (F := Ideal) .f32 0x3F4CCCCD#32)) (conAccV h1 c1 h0 c0 cs ls))
      (termV h1 c1 h0 c0 (decV hr1 hr0 hi1 hi0 hlt cs ls) tg))
    (mulf (broadcast T11 (Scalar.ofBits (F := Ideal) .f32 0x3E4CCCCD#32)) (biAccV hr1 hr0 hi1 hi0 h1 c1 h0 c0 cs ls))

end Point

end Cert.Bicon

end
-- ==== Proof.KBlocks.lean ====
/-
  One grid point's three input blocks as pictures: a block of logits [1,8,352,352] gives eight logit
  pictures (direction `k` is the slab at offset `k` of the second axis, viewed 352 × 352), a block of
  labels likewise, a block of targets [1,1,352,352] one picture.  The point's addend is the kernel's
  work `ptV` on those pictures.
-/
import proofs.«131828_j61684320305394_2_alg».proof.Proof.Gen.KernelIdeal.Frame
import proofs.«131828_j61684320305394_2_alg».proof.Proof.KPoint
import Idealize.ShloMosaic.Lib.Pipeline.Value
import Idealize.ShloMosaic.Lib.Tactic

set_option maxRecDepth 16384

noncomputable section
open Idealize.ShloMosaic Idealize.ShloMosaic.TcCoe Idealize.SL.Sem
open Idealize.ShloMosaic.Pipeline (Dat)

namespace Cert.KernelIdeal.PointValue
open Cert.KernelIdeal Cert.KernelIdeal.Gen Cert.Bicon

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The eight logit pictures of one block of logits. -/
def chans (x0 : Vec Ideal S1x8x352x352 .f32) : Fin 8 → FVec Ideal T2 .f32 :=
  ![shapeCast S352x352 (View.ld x0 (Rect.unit (s := S1x8x352x352) ![0, 0, 0, 0] S1x1x352x352.size inb_S1x8x352x352_S1x1x352x352_0_0_0_0)) shapeCasts_S1x1x352x352_S352x352,
    shapeCast S352x352 (View.ld x0 (Rect.unit (s := S1x8x352x352) ![0, 1, 0, 0] S1x1x352x352.size inb_S1x8x352x352_S1x1x352x352_0_1_0_0)) shapeCasts_S1x1x352x352_S352x352,
    shapeCast S352x352 (View.ld x0 (Rect.unit (s := S1x8x352x352) ![0, 2, 0, 0] S1x1x352x352.size inb_S1x8x352x352_S1x1x352x352_0_2_0_0)) shapeCasts_S1x1x352x352_S352x352,
    shapeCast S352x352 (View.ld x0 (Rect.unit (s := S1x8x352x352) ![0, 3, 0, 0] S1x1x352x352.size inb_S1x8x352x352_S1x1x352x352_0_3_0_0)) shapeCasts_S1x1x352x352_S352x352,
    shapeCast S352x352 (View.ld x0 (Rect.unit (s := S1x8x352x352) ![0, 4, 0, 0] S1x1x352x352.size inb_S1x8x352x352_S1x1x352x352_0_4_0_0)) shapeCasts_S1x1x352x352_S352x352,
    shapeCast S352x352 (View.ld x0 (Rect.unit (s := S1x8x352x352) ![0, 5, 0, 0] S1x1x352x352.size inb_S1x8x352x352_S1x1x352x352_0_5_0_0)) shapeCasts_S1x1x352x352_S352x352,
    shapeCast S352x352 (View.ld x0 (Rect.unit (s := S1x8x352x352) ![0, 6, 0, 0] S1x1x352x352.size inb_S1x8x352x352_S1x1x352x352_0_6_0_0)) shapeCasts_S1x1x352x352_S352x352,
    shapeCast S352x352 (View.ld x0 (Rect.unit (s := S1x8x352x352) ![0, 7, 0, 0] S1x1x352x352.size inb_S1x8x352x352_S1x1x352x352_0_7_0_0)) shapeCasts_S1x1x352x352_S352x352]

/-- The eight label pictures of one block of labels. -/
def labs (x2 : Vec Ideal S1x8x352x352 .i32) : Fin 8 → IVec T2 32 :=
  ![shapeCast S352x352 (View.ld x2 (Rect.unit (s := S1x8x352x352) ![0, 0, 0, 0] S1x1x352x352.size inb_S1x8x352x352_S1x1x352x352_0_0_0_0)) shapeCasts_S1x1x352x352_S352x352,
    shapeCast S352x352 (View.ld x2 (Rect.unit (s := S1x8x352x352) ![0, 1, 0, 0] S1x1x352x352.size inb_S1x8x352x352_S1x1x352x352_0_1_0_0)) shapeCasts_S1x1x352x352_S352x352,
    shapeCast S352x352 (View.ld x2 (Rect.unit (s := S1x8x352x352) ![0, 2, 0, 0] S1x1x352x352.size inb_S1x8x352x352_S1x1x352x352_0_2_0_0)) shapeCasts_S1x1x352x352_S352x352,
    shapeCast S352x352 (View.ld x2 (Rect.unit (s := S1x8x352x352) ![0, 3, 0, 0] S1x1x352x352.size inb_S1x8x352x352_S1x1x352x352_0_3_0_0)) shapeCasts_S1x1x352x352_S352x352,
    shapeCast S352x352 (View.ld x2 (Rect.unit (s := S1x8x352x352) ![0, 4, 0, 0] S1x1x352x352.size inb_S1x8x352x352_S1x1x352x352_0_4_0_0)) shapeCasts_S1x1x352x352_S352x352,
    shapeCast S352x352 (View.ld x2 (Rect.unit (s := S1x8x352x352) ![0, 5, 0, 0] S1x1x352x352.size inb_S1x8x352x352_S1x1x352x352_0_5_0_0)) shapeCasts_S1x1x352x352_S352x352,
    shapeCast S352x352 (View.ld x2 (Rect.unit (s := S1x8x352x352) ![0, 6, 0, 0] S1x1x352x352.size inb_S1x8x352x352_S1x1x352x352_0_6_0_0)) shapeCasts_S1x1x352x352_S352x352,
    shapeCast S352x352 (View.ld x2 (Rect.unit (s := S1x8x352x352) ![0, 7, 0, 0] S1x1x352x352.size inb_S1x8x352x352_S1x1x352x352_0_7_0_0)) shapeCasts_S1x1x352x352_S352x352]

/-- The target picture of one block of targets. -/
def targ (x1 : Vec Ideal S1x1x352x352 .f32) : FVec Ideal T2 .f32 :=
  shapeCast S352x352 (View.ld x1 (Rect.unit (s := S1x1x352x352) ![0, 0, 0, 0] S1x1x352x352.size inb_S1x1x352x352_S1x1x352x352_0_0_0_0)) shapeCasts_S1x1x352x352_S352x352

/-- One grid point's addend: the share of the loss of the batch entry whose blocks are `x0`, `x1`, `x2`. -/
def addend (x0 : Vec Ideal S1x8x352x352 .f32) (x1 : Vec Ideal S1x1x352x352 .f32) (x2 : Vec Ideal S1x8x352x352 .i32) : FVec Ideal T11 .f32 :=
  ptV rotates_S352x352_d1 rotates_S352x352_d0 iota_S352x352_d1_w32 iota_S352x352_d0_w32 reduces_S352x352_S352 shapeCasts_S352_S352x1
    reduces_S352x1_S1 shapeCasts_S1_S1x1 natLt_1_32 (chans x0) (labs x2) (targ x1)

end Cert.KernelIdeal.PointValue
end
-- ==== Proof.KPointRead.lean ====
import proofs.«131828_j61684320305394_2_alg».proof.Proof.KPoint
import Mathlib.Tactic

noncomputable section

/-
  One grid point's work read at its one index: the 1 × 1 array the kernel's operations on whole pictures
  produce holds, at its only entry, the batch entry's share of the loss as the shared specification
  writes it, for the pictures read pixel by pixel.  Every picture-level definition is read at a pixel
  (or, for the sums, at the entry of the 1 × 1 array) and named by the specification's function of the
  pixel values; the last statement assembles them.
-/

namespace Cert.Bicon

open Idealize.ShloMosaic Idealize.ShloMosaic.ValueIdx

/-- The logits of one batch entry, as pictures, repeated over the batch. -/
def xP (cs : Fin 8 → FVec Ideal T2 .f32) : Fin 16 → Fin 8 → Img := fun _ i => img (cs i)
/-- The labels of one batch entry, as numbers, repeated over the batch. -/
def nP (ls : Fin 8 → IVec T2 32) : Fin 16 → Fin 8 → Img :=
  fun _ i h w => (((ls i (ix2 h w)).toInt : ℝ) : EReal)
/-- The target of one batch entry, as a picture, repeated over the batch. -/
def tP (tg : FVec Ideal T2 .f32) : Fin 16 → Img := fun _ => img tg

/-- A truth value widened to a word and read as a number is one or zero. -/
theorem ofBool_toReal (b : Bool) :
    (((((BitVec.ofBool b).setWidth 32).toInt : ℤ) : ℝ) : EReal) = if b then 1 else 0 := by
  cases b <;> simp

theorem cmp_olt (x y : EReal) : Ideal.cmp .olt x y = BitVec.ofBool (decide (x < y)) := rfl
theorem cmp_ogt (x y : EReal) : Ideal.cmp .ogt x y = BitVec.ofBool (decide (y < x)) := rfl

section Point

variable (hr1 : T2.Rotates 1 none) (hr0 : T2.Rotates 0 none) (hi1 : T2.Iotas .tc 32 [1]) (hi0 : T2.Iotas .tc 32 [0])
  (h1 : T2.Reduces [1] ⟨1, ![352]⟩) (c1 : (⟨1, ![352]⟩ : Shape).ShapeCasts ⟨2, ![352, 1]⟩)
  (h0 : (⟨2, ![352, 1]⟩ : Shape).Reduces [0] ⟨1, ![1]⟩) (c0 : (⟨1, ![1]⟩ : Shape).ShapeCasts T11) (hlt : 1 < 32)

/-! ### The translates -/

theorem img_colRV (v : FVec Ideal T2 .f32) : img (colRV hr1 hi1 v) = shR (img v) :=
  funext fun h => funext fun w => colR_apply v hr1 hi1 h w

theorem img_colLV (v : FVec Ideal T2 .f32) : img (colLV hr1 hi1 v) = shL (img v) :=
  funext fun h => funext fun w => colL_apply v hr1 hi1 h w

theorem img_rowDV (v : FVec Ideal T2 .f32) : img (rowDV hr0 hi0 v) = shD (img v) :=
  funext fun h => funext fun w => rowD_apply v hr0 hi0 h w

theorem img_rowUV (v : FVec Ideal T2 .f32) : img (rowUV hr0 hi0 v) = shU (img v) :=
  funext fun h => funext fun w => rowU_apply v hr0 hi0 h w

variable (cs : Fin 8 → FVec Ideal T2 .f32) (ls : Fin 8 → IVec T2 32) (tg : FVec Ideal T2 .f32)

/-- The probability pictures are the specification's probabilities. -/
theorem img_pV (i : Fin 8) : img (pV cs i) = prob (xP cs) 0 i := rfl

/-- The label pictures are the labels read as numbers. -/
theorem nV_apply (i : Fin 8) (h w : Fin 352) : nV ls i (ix2 h w) = nP ls 0 i h w := rfl

/-- Direction by direction, the neighbour pictures are the specification's. -/
theorem img_nbV (i : Fin 8) : img (nbV hr1 hr0 hi1 hi0 cs i) = nb (prob (xP cs) 0) i := by
  fin_cases i
  · exact (img_rowDV hr0 hi0 _).trans (congrArg shD (img_colRV hr1 hi1 _))
  · exact img_rowDV hr0 hi0 _
  · exact (img_rowDV hr0 hi0 _).trans (congrArg shD (img_colLV hr1 hi1 _))
  · exact img_colRV hr1 hi1 _
  · exact img_colLV hr1 hi1 _
  · exact (img_rowUV hr0 hi0 _).trans (congrArg shU (img_colRV hr1 hi1 _))
  · exact img_rowUV hr0 hi0 _
  · exact (img_rowUV hr0 hi0 _).trans (congrArg shU (img_colLV hr1 hi1 _))

/-- A vote picture at a pixel is the specification's vote. -/
theorem voteV_apply (i : Fin 8) (h w : Fin 352) :
    voteV hr1 hr0 hi1 hi0 cs i (ix2 h w) = vote (xP cs) 0 i h w := by
  show pV cs i (ix2 h w) * img (nbV hr1 hr0 hi1 hi0 cs i) h w = _
  rw [img_nbV]
  rfl

/-- The label sum at a pixel. -/
theorem sumConV_apply (h w : Fin 352) : sumConV ls (ix2 h w) = ∑ i, nP ls 0 i h w := by
  rw [Fin.sum_univ_eight]
  rfl

/-- The largest vote at a pixel. -/
theorem gloV_apply (h w : Fin 352) :
    gloV hr1 hr0 hi1 hi0 cs (ix2 h w) = max8 (fun i => vote (xP cs) 0 i h w) := by
  unfold gloV max8
  simp only [maximumf_apply, voteV_apply]

/-- The smallest vote at a pixel. -/
theorem minV_apply (h w : Fin 352) :
    minV hr1 hr0 hi1 hi0 cs (ix2 h w) = min8 (fun i => vote (xP cs) 0 i h w) := by
  unfold minV min8
  simp only [minimumf_apply, voteV_apply]

/-- The edge indicator at a pixel. -/
theorem edgeV_apply (h w : Fin 352) : edgeV hlt ls (ix2 h w) = edge (∑ i, nP ls 0 i h w) := by
  show (((((Ideal.cmp .olt (sumConV ls (ix2 h w)) (Ideal.ofBits .f32 0x41000000#32)).setWidth 32).toInt : ℤ) : ℝ) : EReal)
      * (((((Ideal.cmp .ogt (sumConV ls (ix2 h w)) (Scalar.ofBits (F := Ideal) .f32 0x00000000#32)).setWidth 32).toInt : ℤ) : ℝ) : EReal) = _
  rw [sumConV_apply, zero_word, cmp_olt, cmp_ogt, ofBool_toReal, ofBool_toReal]
  unfold edge eight
  simp only [decide_eq_true_eq]

/-- The decoupled picture at a pixel. -/
theorem decV_apply (h w : Fin 352) :
    decV hr1 hr0 hi1 hi0 hlt cs ls (ix2 h w) = dec (xP cs) (nP ls) 0 h w := by
  show gloV hr1 hr0 hi1 hi0 cs (ix2 h w) * (one - edgeV hlt ls (ix2 h w))
      + (one - minV hr1 hr0 hi1 hi0 cs (ix2 h w)) * edgeV hlt ls (ix2 h w) = _
  rw [gloV_apply, minV_apply, edgeV_apply]
  rfl

/-! ### The sums -/

/-- One cross-entropy sum, at the entry of the 1 × 1 array. -/
theorem termV_apply (p t : FVec Ideal T2 .f32) (j : T11.Idx) :
    termV h1 c1 h0 c0 p t j = ∑ h : Fin 352, ∑ w : Fin 352, -(bce (p (ix2 h w)) (t (ix2 h w))) :=
  (sumAll_apply (negBceV p t) h1 c1 h0 c0 j).trans
    (Finset.sum_congr rfl fun h _ => Finset.sum_congr rfl fun w _ => negBceV_apply p t (ix2 h w))

theorem termV_X (i : Fin 8) (j : T11.Idx) :
    termV h1 c1 h0 c0 (pV cs i) (nV ls i) j = ∑ h, ∑ w, -(X (xP cs) (nP ls) 0 i h w) :=
  termV_apply h1 c1 h0 c0 (pV cs i) (nV ls i) j

theorem termV_Z (i : Fin 8) (j : T11.Idx) :
    termV h1 c1 h0 c0 (voteV hr1 hr0 hi1 hi0 cs i) (nV ls i) j = ∑ h, ∑ w, -(Z (xP cs) (nP ls) 0 i h w) := by
  refine (termV_apply h1 c1 h0 c0 _ _ j).trans ?_
  refine Finset.sum_congr rfl fun h _ => Finset.sum_congr rfl fun w _ => ?_
  rw [voteV_apply]
  rfl

theorem termV_Y (j : T11.Idx) :
    termV h1 c1 h0 c0 (decV hr1 hr0 hi1 hi0 hlt cs ls) tg j = ∑ h, ∑ w, -(Y (xP cs) (nP ls) (tP tg) 0 h w) := by
  refine (termV_apply h1 c1 h0 c0 _ _ j).trans ?_
  refine Finset.sum_congr rfl fun h _ => Finset.sum_congr rfl fun w _ => ?_
  rw [decV_apply]
  rfl

/-- The connectivity sums of the eight directions. -/
theorem conAccV_apply (j : T11.Idx) :
    conAccV h1 c1 h0 c0 cs ls j = ∑ i, ∑ h, ∑ w, -(X (xP cs) (nP ls) 0 i h w) := by
  unfold conAccV
  simp only [addf_apply, termV_X]
  rw [Fin.sum_univ_eight]

/-- The bilateral sums of the eight directions. -/
theorem biAccV_apply (j : T11.Idx) :
    biAccV hr1 hr0 hi1 hi0 h1 c1 h0 c0 cs ls j = ∑ i, ∑ h, ∑ w, -(Z (xP cs) (nP ls) 0 i h w) := by
  unfold biAccV
  simp only [addf_apply, termV_Z]
  rw [Fin.sum_univ_eight]

/-- The grid point's result is the batch entry's share of the loss. -/
theorem ptV_apply (j : T11.Idx) :
    ptV hr1 hr0 hi1 hi0 h1 c1 h0 c0 hlt cs ls tg j
      = perBatch (fun _ i => img (cs i)) (fun _ i h w => (((ls i (ix2 h w)).toInt : ℝ) : EReal)) (fun _ => img tg) 0 := by
  show c08 * conAccV h1 c1 h0 c0 cs ls j + termV h1 c1 h0 c0 (decV hr1 hr0 hi1 hi0 hlt cs ls) tg j
      + c02 * biAccV hr1 hr0 hi1 hi0 h1 c1 h0 c0 cs ls j = _
  rw [conAccV_apply, termV_Y, biAccV_apply]
  rfl

end Point

end Cert.Bicon

end
-- ==== Proof.Finite.lean ====
/-
  From the printed precondition to real inputs.

  The precondition `jnp.all(jnp.abs(x) < inf)` prints as a reduction by `and`, from the constant `1`, of the
  comparison `|x| < 0x7F800000` taken entry by entry; the precondition of this certificate is the conjunction of
  two of them, one for the logits and one for the target. Over the extended reals the pattern `0x7F800000` is
  `+∞` and `|x|` is `max x (-x)`. If a reduction came out `1` then every comparison did, and
  `max x (-x) < +∞` says that `x` is neither `+∞` nor `-∞`: a real number.
-/
import Idealize.ShloMosaic.Lib.ReduceAll
import Idealize.ShloMosaic.Lib.ValueIdx
import Idealize.ShloMosaic.PureOps.Ideal.Laws
import proofs.«131828_j61684320305394_2_alg».proof.Pre_finite_inputs

noncomputable section

namespace Cert.Bicon

open Idealize.ShloMosaic Idealize.ShloMosaic.ValueIdx Cert.Pre_finite_inputs

/-- The f32 pattern `0x7F800000` denotes `+∞`. -/
theorem ofBits_inf_f32 : Ideal.ofBits .f32 0x7F800000#32 = ⊤ := by simp [Ideal.ofBits, Ideal.ieee]

/-- An extended real whose absolute value `max x (-x)` compares below `+∞` is a real number. -/
theorem real_of_abs_lt_top (x : EReal) (h : Ideal.cmp .olt (max x (-x)) ⊤ = 1#1) :
    ∃ r : ℝ, x = (r : EReal) := by
  have h' : max x (-x) < ⊤ := by
    by_contra hn
    simp [Ideal.cmp, hn] at h
  induction x using EReal.rec with
  | bot => simp at h'
  | coe r => exact ⟨r, rfl⟩
  | top => simp at h'

/-- `jnp.all(jnp.abs(x) < inf)` read back: if the printed reduction is `1`, every entry of `x` is a real number. -/
theorem real_of_all_abs_lt_inf {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ix0 = 1#1)
    (i : s.Idx) : ∃ r : ℝ, x i = (r : EReal) := by
  haveI : Subsingleton S_.Idx := ⟨fun _ _ => funext fun d => d.elim0⟩
  have h := Host.reduce_andi_all _ _ hr hu ix0 e i
  refine real_of_abs_lt_top (x i) ?_
  rw [← ofBits_inf_f32]
  exact h

/-- Under the printed precondition every logit and every target entry is a real number. -/
theorem real_of_pre [Facts] (a0 : FVec Ideal S16x8x352x352 .f32) (a1 : FVec Ideal S16x1x352x352 .f32)
    (a2 : IVec S16x8x352x352 32) (h : Cert.Pre_finite_inputs.fn (F := Ideal) a0 a1 a2 = fun _ => 1#1) :
    (∀ i, ∃ r : ℝ, a0 i = (r : EReal)) ∧ (∀ i, ∃ r : ℝ, a1 i = (r : EReal)) := by
  have h0 := congrFun h ix0
  dsimp only [Cert.Pre_finite_inputs.fn] at h0
  obtain ⟨h1, h2⟩ := IntOp.andi_eq_one.1 h0
  exact ⟨fun i => real_of_all_abs_lt_inf a0 _ _ _ h1 i, fun i => real_of_all_abs_lt_inf a1 _ _ _ h2 i⟩

end Cert.Bicon

end
-- ==== Proof.KBlockRead.lean ====
/-
  The blocks a grid point reads are slabs of the whole arrays, so the point's addend is the shared
  specification's share of the loss at that batch entry.

  A picture of a block is the slab at one offset of the block's second axis viewed 352 × 352: it reads the
  block at `(0, k, h, w)`.  Grid point `t` reads block `(t, 0, 0, 0)` of each array (decided over the grid),
  so its blocks read the arrays at batch entry `t`.  A batch entry's share of the loss looks at that entry's
  pictures only, which carries the point-level statement over to the arrays.  Under the precondition every
  logit and every target entry is a real number; a label read as a number always is.
-/
import proofs.«131828_j61684320305394_2_alg».proof.Proof.KBlocks
import proofs.«131828_j61684320305394_2_alg».proof.Proof.KPointRead
import proofs.«131828_j61684320305394_2_alg».proof.Proof.Gen.KernelIdeal.Frame
import proofs.«131828_j61684320305394_2_alg».proof.Proof.Finite
import proofs.«131828_j61684320305394_2_alg».proof.Defs
import Idealize.ShloMosaic.Lib.Pipeline.Value

set_option maxRecDepth 16384

noncomputable section

namespace Cert.KernelIdeal.PointValue
open Cert.KernelIdeal Cert.KernelIdeal.Gen Cert.Bicon Idealize.ShloMosaic Idealize.ShloMosaic.ValueIdx Idealize.SL.Sem

/-! ### A slab of a block, viewed as a picture -/

/-- The slab at offset `o` of the second axis of a `[1, 8, 352, 352]` block, viewed `352 × 352`, reads at pixel
    `(h, w)` the block's entry `(0, o, h, w)`. -/
theorem slab8_apply {e : EltTy} (x : Vec Ideal S1x8x352x352 e) (o : Nat) (ho : o < 8)
    (inb : ∀ a, (![0, o, 0, 0] : Fin 4 → Nat) a + S1x1x352x352.size a ≤ S1x8x352x352.size a)
    (hsc : S1x1x352x352.ShapeCasts S352x352) (h w : Fin 352) :
    shapeCast S352x352 (View.ld x (Rect.unit (s := S1x8x352x352) ![0, o, 0, 0] S1x1x352x352.size inb)) hsc (ix2 h w)
      = x (ix4 (0 : Fin 1) (⟨o, ho⟩ : Fin 8) h w) := by
  refine (shapeCast_apply _ hsc (ix2 h w) (ix4 (0 : Fin 1) (0 : Fin 1) h w) ?_).trans ?_
  · rw [Shape.rowMajor_val_four, Shape.rowMajor_val_two]
    show ((0 * 1 + 0) * 352 + h.val) * 352 + w.val = h.val * 352 + w.val
    omega
  · show x _ = x _
    refine congrArg x (funext fun a => Fin.ext ?_)
    match a with
    | ⟨0, _⟩ => rfl
    | ⟨1, _⟩ => show o + 1 * 0 = o; omega
    | ⟨2, _⟩ => show 0 + 1 * h.val = h.val; omega
    | ⟨3, _⟩ => show 0 + 1 * w.val = w.val; omega

end Cert.KernelIdeal.PointValue

namespace Cert.KernelIdeal.PointValue
open Cert.KernelIdeal Cert.KernelIdeal.Gen Cert.Bicon Idealize.ShloMosaic Idealize.ShloMosaic.ValueIdx Idealize.SL.Sem

theorem slab1_apply {e : EltTy} (x : Vec Ideal S1x1x352x352 e)
    (inb : ∀ a, (![0, 0, 0, 0] : Fin 4 → Nat) a + S1x1x352x352.size a ≤ S1x1x352x352.size a)
    (hsc : S1x1x352x352.ShapeCasts S352x352) (h w : Fin 352) :
    shapeCast S352x352 (View.ld x (Rect.unit (s := S1x1x352x352) ![0, 0, 0, 0] S1x1x352x352.size inb)) hsc (ix2 h w)
      = x (ix4 (0 : Fin 1) (0 : Fin 1) h w) := by
  refine (shapeCast_apply _ hsc (ix2 h w) (ix4 (0 : Fin 1) (0 : Fin 1) h w) ?_).trans ?_
  · rw [Shape.rowMajor_val_four, Shape.rowMajor_val_two]
    show ((0 * 1 + 0) * 352 + h.val) * 352 + w.val = h.val * 352 + w.val
    omega
  · show x _ = x _
    refine congrArg x (funext fun a => Fin.ext ?_)
    match a with
    | ⟨0, _⟩ => rfl
    | ⟨1, _⟩ => rfl
    | ⟨2, _⟩ => show 0 + 1 * h.val = h.val; omega
    | ⟨3, _⟩ => show 0 + 1 * w.val = w.val; omega

/-- The logit pictures of a block read the block. -/
theorem chans_apply (x0 : Vec Ideal S1x8x352x352 .f32) (k : Fin 8) (h w : Fin 352) :
    chans x0 k (ix2 h w) = x0 (ix4 (0 : Fin 1) k h w) := by
  fin_cases k <;> exact slab8_apply x0 _ (by decide) _ _ h w

/-- The label pictures of a block read the block. -/
theorem labs_apply (x2 : Vec Ideal S1x8x352x352 .i32) (k : Fin 8) (h w : Fin 352) :
    labs x2 k (ix2 h w) = x2 (ix4 (0 : Fin 1) k h w) := by
  fin_cases k <;> exact slab8_apply x2 _ (by decide) _ _ h w

/-- The target picture of a block reads the block. -/
theorem targ_apply (x1 : Vec Ideal S1x1x352x352 .f32) (h w : Fin 352) :
    targ x1 (ix2 h w) = x1 (ix4 (0 : Fin 1) (0 : Fin 1) h w) :=
  slab1_apply x1 _ _ h w

end Cert.KernelIdeal.PointValue

namespace Cert.KernelIdeal.PointValue
open Cert.KernelIdeal Cert.KernelIdeal.Gen Cert.Bicon Idealize.ShloMosaic Idealize.ShloMosaic.ValueIdx Idealize.SL.Sem

/-! ### The blocks are slabs of the arrays -/

/-- Grid point `t` reads block `(t, 0, 0, 0)` of the logits. -/
theorem index0 : ∀ t : Fin grid0.N,
    win0_0.index t 0 = t.val ∧ win0_0.index t 1 = 0 ∧ win0_0.index t 2 = 0 ∧ win0_0.index t 3 = 0 := by
  decide +kernel
/-- Grid point `t` reads block `(t, 0, 0, 0)` of the targets. -/
theorem index1 : ∀ t : Fin grid0.N,
    win0_1.index t 0 = t.val ∧ win0_1.index t 1 = 0 ∧ win0_1.index t 2 = 0 ∧ win0_1.index t 3 = 0 := by
  decide +kernel
/-- Grid point `t` reads block `(t, 0, 0, 0)` of the labels. -/
theorem index2 : ∀ t : Fin grid0.N,
    win0_2.index t 0 = t.val ∧ win0_2.index t 1 = 0 ∧ win0_2.index t 2 = 0 ∧ win0_2.index t 3 = 0 := by
  decide +kernel

variable (m : (ℓ : Loc nD τ sig) → Buf (Elt Ideal) ℓ)

/-- The logits as the specification indexes them. -/
def Xarr (c : Dev nD) : Fin 16 → Fin 8 → Img := fun b i h w => V m c main_arg0 (ix4 b i h w)
/-- The labels, read as numbers, as the specification indexes them. -/
def Narr (c : Dev nD) : Fin 16 → Fin 8 → Img :=
  fun b i h w => (((V m c main_arg2 (ix4 b i h w)).toInt : ℝ) : EReal)
/-- The targets as the specification indexes them. -/
def Tarr (c : Dev nD) : Fin 16 → Img := fun b h w => V m c main_arg1 (ix4 b (0 : Fin 1) h w)

/-- The block of logits of grid point `t` is batch entry `t` of the logits. -/
theorem iblk0_apply (c : Dev nD) (t : Fin cfg0.N) (ht : t.val < 16) (y : S1x8x352x352.Idx) :
    (iblk m c 0 t : Vec Ideal S1x8x352x352 .f32) y
      = V m c main_arg0 (ix4 (⟨t.val, ht⟩ : Fin 16) (y 1) (y 2) (y 3)) := by
  obtain ⟨i0, i1, i2, i3⟩ := index0 t
  have y0 : (y 0).val < 1 := (y 0).isLt
  unfold iblk
  rw [View.read_apply]
  show V m c main_arg0 _ = V m c main_arg0 _
  congr 1
  funext a
  apply Fin.ext
  match a with
  | ⟨0, _⟩ => show win0_0.index t 0 * 1 + 1 * (y 0).val = t.val; rw [i0]; omega
  | ⟨1, _⟩ => show win0_0.index t 1 * 8 + 1 * (y 1).val = (y 1).val; rw [i1]; omega
  | ⟨2, _⟩ => show win0_0.index t 2 * 352 + 1 * (y 2).val = (y 2).val; rw [i2]; omega
  | ⟨3, _⟩ => show win0_0.index t 3 * 352 + 1 * (y 3).val = (y 3).val; rw [i3]; omega

/-- The block of targets of grid point `t` is batch entry `t` of the targets. -/
theorem iblk1_apply (c : Dev nD) (t : Fin cfg0.N) (ht : t.val < 16) (y : S1x1x352x352.Idx) :
    (iblk m c 1 t : Vec Ideal S1x1x352x352 .f32) y
      = V m c main_arg1 (ix4 (⟨t.val, ht⟩ : Fin 16) (y 1) (y 2) (y 3)) := by
  obtain ⟨i0, i1, i2, i3⟩ := index1 t
  have y0 : (y 0).val < 1 := (y 0).isLt
  unfold iblk
  rw [View.read_apply]
  show V m c main_arg1 _ = V m c main_arg1 _
  congr 1
  funext a
  apply Fin.ext
  match a with
  | ⟨0, _⟩ => show win0_1.index t 0 * 1 + 1 * (y 0).val = t.val; rw [i0]; omega
  | ⟨1, _⟩ => show win0_1.index t 1 * 1 + 1 * (y 1).val = (y 1).val; rw [i1]; omega
  | ⟨2, _⟩ => show win0_1.index t 2 * 352 + 1 * (y 2).val = (y 2).val; rw [i2]; omega
  | ⟨3, _⟩ => show win0_1.index t 3 * 352 + 1 * (y 3).val = (y 3).val; rw [i3]; omega

/-- The block of labels of grid point `t` is batch entry `t` of the labels. -/
theorem iblk2_apply (c : Dev nD) (t : Fin cfg0.N) (ht : t.val < 16) (y : S1x8x352x352.Idx) :
    (iblk m c 2 t : Vec Ideal S1x8x352x352 .i32) y
      = V m c main_arg2 (ix4 (⟨t.val, ht⟩ : Fin 16) (y 1) (y 2) (y 3)) := by
  obtain ⟨i0, i1, i2, i3⟩ := index2 t
  have y0 : (y 0).val < 1 := (y 0).isLt
  unfold iblk
  rw [View.read_apply]
  show V m c main_arg2 _ = V m c main_arg2 _
  congr 1
  funext a
  apply Fin.ext
  match a with
  | ⟨0, _⟩ => show win0_2.index t 0 * 1 + 1 * (y 0).val = t.val; rw [i0]; omega
  | ⟨1, _⟩ => show win0_2.index t 1 * 8 + 1 * (y 1).val = (y 1).val; rw [i1]; omega
  | ⟨2, _⟩ => show win0_2.index t 2 * 352 + 1 * (y 2).val = (y 2).val; rw [i2]; omega
  | ⟨3, _⟩ => show win0_2.index t 3 * 352 + 1 * (y 3).val = (y 3).val; rw [i3]; omega

/-! ### The addend of a grid point -/

/-- A batch entry's share of the loss looks at that entry's pictures only. -/
theorem perBatch_eq_const (x n : Fin 16 → Fin 8 → Img) (t : Fin 16 → Img) (b : Fin 16) :
    perBatch x n t b = perBatch (fun _ => x b) (fun _ => n b) (fun _ => t b) 0 := rfl

theorem perBatch_congr (x x' n n' : Fin 16 → Fin 8 → Img) (t t' : Fin 16 → Img) (b b' : Fin 16)
    (hx : x b = x' b') (hn : n b = n' b') (ht : t b = t' b') : perBatch x n t b = perBatch x' n' t' b' := by
  rw [perBatch_eq_const x n t b, perBatch_eq_const x' n' t' b', hx, hn, ht]

/-- The addend of grid point `t` is batch entry `t`'s share of the loss. -/
theorem addend_iblk (c : Dev nD) (t : Fin cfg0.N) (j : T11.Idx) :
    addend (iblk m c 0 t) (iblk m c 1 t) (iblk m c 2 t) j
      = perBatch (Xarr m c) (Narr m c) (Tarr m c) ⟨t.val, by have := t.isLt; have h : cfg0.N = 16 := N_0; omega⟩ := by
  have hb : t.val < 16 := by have := t.isLt; have h : cfg0.N = 16 := N_0; omega
  refine (ptV_apply _ _ _ _ _ _ _ _ _ (chans (iblk m c 0 t)) (labs (iblk m c 2 t)) (targ (iblk m c 1 t)) j).trans ?_
  refine perBatch_congr _ _ _ _ _ _ 0 ⟨t.val, hb⟩ ?_ ?_ ?_
  · funext i h w
    exact (chans_apply (iblk m c 0 t) i h w).trans (iblk0_apply m c t hb (ix4 (0 : Fin 1) i h w))
  · funext i h w
    show (((labs (iblk m c 2 t) i (ix2 h w)).toInt : ℝ) : EReal) = (((V m c main_arg2 (ix4 (⟨t.val, hb⟩ : Fin 16) i h w)).toInt : ℝ) : EReal)
    rw [(labs_apply (iblk m c 2 t) i h w).trans (iblk2_apply m c t hb (ix4 (0 : Fin 1) i h w))]
  · funext h w
    exact (targ_apply (iblk m c 1 t) h w).trans (iblk1_apply m c t hb (ix4 (0 : Fin 1) (0 : Fin 1) h w))

end Cert.KernelIdeal.PointValue

namespace Cert.KernelIdeal.PointValue
open Cert.KernelIdeal Cert.KernelIdeal.Gen Cert.Bicon Idealize.ShloMosaic Idealize.ShloMosaic.ValueIdx Idealize.SL.Sem

/-! ### Under the precondition the three arrays are real -/

/-- Every label, read as a number, is a real number. -/
theorem real_Narr (m : (ℓ : Loc nD τ sig) → Buf (Elt Ideal) ℓ) (c : Dev nD) (b : Fin 16) (i : Fin 8) (h w : Fin 352) :
    ∃ r : ℝ, Narr m c b i h w = (r : EReal) := ⟨_, rfl⟩

section Real

variable (m : (ℓ : Loc nD τ sig) → Buf (Elt Ideal) ℓ) [Cert.Pre_finite_inputs.Facts]

/-- Every logit is a real number. -/
theorem real_Xarr (hp : Cert.Pre_KernelIdeal m) (c : Dev nD) (b : Fin 16) (i : Fin 8) (h w : Fin 352) :
    ∃ r : ℝ, Xarr m c b i h w = (r : EReal) :=
  (Cert.Bicon.real_of_pre _ _ _ (hp c)).1 (ix4 b i h w)

/-- Every target entry is a real number. -/
theorem real_Tarr (hp : Cert.Pre_KernelIdeal m) (c : Dev nD) (b : Fin 16) (h w : Fin 352) :
    ∃ r : ℝ, Tarr m c b h w = (r : EReal) :=
  (Cert.Bicon.real_of_pre _ _ _ (hp c)).2 (ix4 b (0 : Fin 1) h w)

end Real

end Cert.KernelIdeal.PointValue

end
-- ==== Proof.KPieces.lean ====
/-
  What one run of the kernel's body leaves behind, in each of its three control cases, as values:
  at the first point of a core the accumulator is reset and the point's addend added to the zero;
  at a later point the addend is added to what the point before left; at the last point of a core
  the same, and the output block receives a copy of the accumulator.
-/
import proofs.«131828_j61684320305394_2_alg».proof.Proof.KBlocks

set_option maxRecDepth 16384

noncomputable section
open Idealize.ShloMosaic Idealize.ShloMosaic.TcCoe Idealize.SL.Sem
open Idealize.ShloMosaic.Pipeline (Dat)

namespace Cert.KernelIdeal.PointValue
open Cert.KernelIdeal Cert.KernelIdeal.Gen Cert.Bicon

/-- The accumulator after its reset. -/
abbrev zero11 : FVec Ideal S1x1 .f32 := k0_pay3 (F := Ideal)

/-- The accumulator after a point that found `xs0` in it. -/
abbrev step (xs0 : Vec Ideal S1x1 .f32) (x0 : Vec Ideal S1x8x352x352 .f32) (x1 : Vec Ideal S1x1x352x352 .f32)
    (x2 : Vec Ideal S1x8x352x352 .i32) : FVec Ideal S1x1 .f32 :=
  shapeCast S1x1 (addf xs0 (addend x0 x1 x2)) shapeCasts_S1x1_S1x1

/-- Case B (a point that is neither first nor last on its core): the accumulator gains the addend. -/
theorem sout_B (c : Dev nD) (i : grid0.Coords) (arg2 : Memref sig .tc .vmem S1x8x352x352 .f32) (harg2 : arg2.IsWhole) (arg3 : Memref sig .tc .vmem S1x1x352x352 .f32) (harg3 : arg3.IsWhole) (arg4 : Memref sig .tc .vmem S1x8x352x352 .i32) (harg4 : arg4.IsWhole) (arg5 : Memref sig .tc .vmem S1x1x1 .f32) (harg5 : arg5.IsWhole) (arg6 : Memref sig .tc .vmem S1x1 .f32) (harg6 : arg6.IsWhole) (hc0 : ¬cond0_0 i) (hc1 : ¬cond0_1 i)
    (x0 : Vec Ideal S1x8x352x352 .f32) (x1 : Vec Ideal S1x1x352x352 .f32) (x2 : Vec Ideal S1x8x352x352 .i32) (xs0 : Vec Ideal S1x1 .f32) :
    sout0_B_0 (F := Ideal) c i arg2 harg2 arg3 harg3 arg4 harg4 arg5 harg5 arg6 harg6 hc0 hc1 x0 x1 x2 xs0 = step xs0 x0 x1 x2 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz2]
  simp only [View.readAt_eq_ld, harg2.read_unread, harg3.read_unread, harg4.read_unread, harg6.read_unread, View.ld_unit_zero (S := S1x1) hz2]
  rfl

/-- Case C (the last point on a core): the accumulator gains the addend, -/
theorem sout_C (c : Dev nD) (i : grid0.Coords) (arg2 : Memref sig .tc .vmem S1x8x352x352 .f32) (harg2 : arg2.IsWhole) (arg3 : Memref sig .tc .vmem S1x1x352x352 .f32) (harg3 : arg3.IsWhole) (arg4 : Memref sig .tc .vmem S1x8x352x352 .i32) (harg4 : arg4.IsWhole) (arg5 : Memref sig .tc .vmem S1x1x1 .f32) (harg5 : arg5.IsWhole) (arg6 : Memref sig .tc .vmem S1x1 .f32) (harg6 : arg6.IsWhole) (hc0 : ¬cond0_0 i) (hc1 : cond0_1 i)
    (x0 : Vec Ideal S1x8x352x352 .f32) (x1 : Vec Ideal S1x1x352x352 .f32) (x2 : Vec Ideal S1x8x352x352 .i32) (xs0 : Vec Ideal S1x1 .f32) :
    sout0_C_0 (F := Ideal) c i arg2 harg2 arg3 harg3 arg4 harg4 arg5 harg5 arg6 harg6 hc0 hc1 x0 x1 x2 xs0 = step xs0 x0 x1 x2 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg4.read_unread, harg6.read_unread, View.ld_unit_zero (S := S1x1) hz2]
  rfl

/-- and the output block receives the accumulator's new contents. -/
theorem out_C (c : Dev nD) (i : grid0.Coords) (arg2 : Memref sig .tc .vmem S1x8x352x352 .f32) (harg2 : arg2.IsWhole) (arg3 : Memref sig .tc .vmem S1x1x352x352 .f32) (harg3 : arg3.IsWhole) (arg4 : Memref sig .tc .vmem S1x8x352x352 .i32) (harg4 : arg4.IsWhole) (arg5 : Memref sig .tc .vmem S1x1x1 .f32) (harg5 : arg5.IsWhole) (arg6 : Memref sig .tc .vmem S1x1 .f32) (harg6 : arg6.IsWhole) (hc0 : ¬cond0_0 i) (hc1 : cond0_1 i)
    (x0 : Vec Ideal S1x8x352x352 .f32) (x1 : Vec Ideal S1x1x352x352 .f32) (x2 : Vec Ideal S1x8x352x352 .i32) (xs0 : Vec Ideal S1x1 .f32) :
    out0_C_3 (F := Ideal) c i arg2 harg2 arg3 harg3 arg4 harg4 arg5 harg5 arg6 harg6 hc0 hc1 x0 x1 x2 xs0
      = shapeCast S1x1x1 (step xs0 x0 x1 x2) shapeCasts_S1x1_S1x1x1 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz3, View.readCov_unit_zero (S := S1x1) _ hz2]
  simp only [View.readAt_eq_ld, harg2.read_unread, harg3.read_unread, harg4.read_unread, harg6.read_unread, View.ld_unit_zero (S := S1x1) hz2]
  rfl

/-- Case A (the first point on a core): the accumulator is reset, then gains the addend. -/
theorem sout_A (c : Dev nD) (i : grid0.Coords) (arg2 : Memref sig .tc .vmem S1x8x352x352 .f32) (harg2 : arg2.IsWhole) (arg3 : Memref sig .tc .vmem S1x1x352x352 .f32) (harg3 : arg3.IsWhole) (arg4 : Memref sig .tc .vmem S1x8x352x352 .i32) (harg4 : arg4.IsWhole) (arg5 : Memref sig .tc .vmem S1x1x1 .f32) (harg5 : arg5.IsWhole) (arg6 : Memref sig .tc .vmem S1x1 .f32) (harg6 : arg6.IsWhole) (hc0 : cond0_0 i) (hc1 : ¬cond0_1 i)
    (x0 : Vec Ideal S1x8x352x352 .f32) (x1 : Vec Ideal S1x1x352x352 .f32) (x2 : Vec Ideal S1x8x352x352 .i32) :
    sout0_A_0 (F := Ideal) c i arg2 harg2 arg3 harg3 arg4 harg4 arg5 harg5 arg6 harg6 hc0 hc1 x0 x1 x2 = step zero11 x0 x1 x2 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread]
  rfl

end Cert.KernelIdeal.PointValue
end
-- ==== Proof.KAccum.lean ====
/-
  The accumulator over a core's eight grid points, and the output array after the run.
  After point `n` the accumulator holds the sum of the addends of the points of `n`'s core up to `n`
  (it is reset at the core's first point); the last point of core `q` copies it into entry `q` of the
  output array, so that entry ends at the sum of the core's eight addends.
-/
import proofs.«131828_j61684320305394_2_alg».proof.Proof.KPieces

set_option maxRecDepth 16384

noncomputable section
open Idealize.ShloMosaic Idealize.ShloMosaic.TcCoe Idealize.SL.Sem
open Idealize.ShloMosaic.Pipeline (Dat)

namespace Cert.KernelIdeal.PointValue
open Cert.KernelIdeal Cert.KernelIdeal.Gen Cert.Bicon Idealize.ShloMosaic.ValueIdx

variable (m : (ℓ : Loc nD τ sig) → Buf (Elt Ideal) ℓ) (ρ : Dev nD → PrngReg)

/-- The accumulator after point `n`: reset before the first point of each core, then the point's addend added. -/
def acc (c : Dev nD) : (n : ℕ) → n < cfg0.N → FVec Ideal S1x1 .f32
  | 0, h => step zero11 (iblk m c 0 ⟨0, h⟩) (iblk m c 1 ⟨0, h⟩) (iblk m c 2 ⟨0, h⟩)
  | n + 1, h =>
    if (n + 1) % 8 = 0 then step zero11 (iblk m c 0 ⟨n + 1, h⟩) (iblk m c 1 ⟨n + 1, h⟩) (iblk m c 2 ⟨n + 1, h⟩)
    else step (acc c n (Nat.lt_of_succ_lt h)) (iblk m c 0 ⟨n + 1, h⟩) (iblk m c 1 ⟨n + 1, h⟩) (iblk m c 2 ⟨n + 1, h⟩)

/-- The scratch the generated run carries between points is that accumulator. -/
theorem outsAt_snd (c : Dev nD) : ∀ (n : ℕ) (h : n < cfg0.N), (outsAt0 m c n h).2 = acc m c n h
  | 0, h => by
    rw [outsAt0_A m c ⟨0, h⟩ rfl (show ¬(0 : ℕ) % 8 = 7 by decide), acc]
    dsimp only
    exact sout_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      (ms0_3 ⟨0, h⟩) (hs0_3 ⟨0, h⟩) scM0_0 (Memref.isWhole_whole _) _ _ (iblk m c 0 ⟨0, h⟩) (iblk m c 1 ⟨0, h⟩) (iblk m c 2 ⟨0, h⟩)
  | n + 1, h => by
    have hN : cfg0.N = 16 := N_0
    by_cases h0 : (n + 1) % 8 = 0
    · have h1 : ¬(n + 1) % 8 = 7 := by omega
      rw [outsAt0_A m c ⟨n + 1, h⟩ h0 h1]
      rw [acc, if_pos h0]
      dsimp only
      exact sout_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
        (ms0_3 ⟨n + 1, h⟩) (hs0_3 ⟨n + 1, h⟩) scM0_0 (Memref.isWhole_whole _) _ _ (iblk m c 0 ⟨n + 1, h⟩) (iblk m c 1 ⟨n + 1, h⟩) (iblk m c 2 ⟨n + 1, h⟩)
    · rw [acc, if_neg h0, ← outsAt_snd c n (Nat.lt_of_succ_lt h)]
      by_cases h1 : (n + 1) % 8 = 7
      · rw [outsAt0_C m c ⟨n + 1, h⟩ h0 h1]
        dsimp only
        exact sout_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
          (ms0_3 ⟨n + 1, h⟩) (hs0_3 ⟨n + 1, h⟩) scM0_0 (Memref.isWhole_whole _) _ _ (iblk m c 0 ⟨n + 1, h⟩) (iblk m c 1 ⟨n + 1, h⟩) (iblk m c 2 ⟨n + 1, h⟩)
          (outsAt0 m c n (Nat.lt_of_succ_lt h)).2
      · rw [outsAt0_B m c ⟨n + 1, h⟩ h0 h1]
        dsimp only
        exact sout_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
          (ms0_3 ⟨n + 1, h⟩) (hs0_3 ⟨n + 1, h⟩) scM0_0 (Memref.isWhole_whole _) _ _ (iblk m c 0 ⟨n + 1, h⟩) (iblk m c 1 ⟨n + 1, h⟩) (iblk m c 2 ⟨n + 1, h⟩)
          (outsAt0 m c n (Nat.lt_of_succ_lt h)).2

/-- At the last point of a core the output block holds the accumulator. -/
theorem outsAt_fst_C (c : Dev nD) (t : Fin cfg0.N) (h1 : t.val % 8 = 7) :
    (outsAt0 m c t.val t.isLt).1 = shapeCast S1x1x1 (acc m c t.val t.isLt) shapeCasts_S1x1_S1x1x1 := by
  obtain ⟨n, h⟩ := t
  cases n with
  | zero => exact absurd h1 (show ¬(0 : ℕ) % 8 = 7 by decide)
  | succ n =>
    have h0 : ¬(n + 1) % 8 = 0 := by dsimp only at h1; omega
    rw [outsAt0_C m c ⟨n + 1, h⟩ h0 h1]
    dsimp only
    rw [acc, if_neg h0, ← outsAt_snd m c n (Nat.lt_of_succ_lt h)]
    exact out_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
      (ms0_3 ⟨n + 1, h⟩) (hs0_3 ⟨n + 1, h⟩) scM0_0 (Memref.isWhole_whole _) _ _ (iblk m c 0 ⟨n + 1, h⟩) (iblk m c 1 ⟨n + 1, h⟩) (iblk m c 2 ⟨n + 1, h⟩)
      (outsAt0 m c n (Nat.lt_of_succ_lt h)).2

end Cert.KernelIdeal.PointValue
end
-- ==== Proof.LibUnitSum.lean ====
/-
  Sums over index sets with unit axes: a sum over every index of a shape whose axes all have size one but
  one is the sum over that axis's coordinate.
-/
import Idealize.ShloMosaic.Lib.ValueIdx

open scoped BigOperators

namespace Cert.Lib

open Idealize.ShloMosaic Idealize.ShloMosaic.ValueIdx

variable {M : Type*} [AddCommMonoid M]

/-- Over `[1, n]`: the sum over all indices is the sum over the second coordinate. -/
theorem sum_idx_1n {n : ℕ} (f : (⟨2, ![1, n]⟩ : Shape).Idx → M) :
    ∑ i, f i = ∑ l : Fin n, f (ix2 (0 : Fin 1) l) := by
  have hl : ∀ i : (⟨2, ![1, n]⟩ : Shape).Idx, ix2 (0 : Fin 1) (i 1) = i := fun i => by
    funext d
    match d with
    | ⟨0, _⟩ => exact Subsingleton.elim (α := Fin 1) _ _
    | ⟨1, _⟩ => rfl
  let e : (⟨2, ![1, n]⟩ : Shape).Idx ≃ Fin n :=
    { toFun := fun i => i 1, invFun := fun l => ix2 (0 : Fin 1) l, left_inv := hl, right_inv := fun _ => rfl }
  exact Fintype.sum_equiv e _ _ (fun i => congrArg f (hl i).symm)

/-- Over `[1, 1, n]`: the sum over all indices is the sum over the last coordinate. -/
theorem sum_idx_11n {n : ℕ} (f : (⟨3, ![1, 1, n]⟩ : Shape).Idx → M) :
    ∑ i, f i = ∑ l : Fin n, f (ix3 (0 : Fin 1) (0 : Fin 1) l) := by
  have hl : ∀ i : (⟨3, ![1, 1, n]⟩ : Shape).Idx, ix3 (0 : Fin 1) (0 : Fin 1) (i 2) = i := fun i => by
    funext d
    match d with
    | ⟨0, _⟩ => exact Subsingleton.elim (α := Fin 1) _ _
    | ⟨1, _⟩ => exact Subsingleton.elim (α := Fin 1) _ _
    | ⟨2, _⟩ => rfl
  let e : (⟨3, ![1, 1, n]⟩ : Shape).Idx ≃ Fin n :=
    { toFun := fun i => i 2, invFun := fun l => ix3 (0 : Fin 1) (0 : Fin 1) l, left_inv := hl, right_inv := fun _ => rfl }
  exact Fintype.sum_equiv e _ _ (fun i => congrArg f (hl i).symm)

/-- Over `[n, 1, 1]`: the sum over all indices is the sum over the first coordinate. -/
theorem sum_idx_n11 {n : ℕ} (f : (⟨3, ![n, 1, 1]⟩ : Shape).Idx → M) :
    ∑ i, f i = ∑ s : Fin n, f (ix3 s (0 : Fin 1) (0 : Fin 1)) := by
  have hl : ∀ i : (⟨3, ![n, 1, 1]⟩ : Shape).Idx, ix3 (i 0) (0 : Fin 1) (0 : Fin 1) = i := fun i => by
    funext d
    match d with
    | ⟨0, _⟩ => rfl
    | ⟨1, _⟩ => exact Subsingleton.elim (α := Fin 1) _ _
    | ⟨2, _⟩ => exact Subsingleton.elim (α := Fin 1) _ _
  let e : (⟨3, ![n, 1, 1]⟩ : Shape).Idx ≃ Fin n :=
    { toFun := fun i => i 0, invFun := fun s => ix3 s (0 : Fin 1) (0 : Fin 1), left_inv := hl, right_inv := fun _ => rfl }
  exact Fintype.sum_equiv e _ _ (fun i => congrArg f (hl i).symm)

end Cert.Lib
-- ==== Proof.LibBlockSum.lean ====
/-
  A sum over the first `J * B` natural numbers, taken block by block.
-/
import Mathlib.Algebra.BigOperators.Fin
import Mathlib.Data.Fintype.BigOperators
import Mathlib.Logic.Equiv.Fin.Basic

namespace Cert.Lib

/-- A sum over the first `J * B` naturals is the sum, over the `J` consecutive blocks of `B` naturals, of each
    block's own sum: `∑_{s < J} ∑_{l < B} f (B·s + l) = ∑_{k < J·B} f k`. It holds in any commutative additive monoid
    — only commutativity and associativity of `+` are used —, so also on the extended reals, where no cancellation or
    distributivity is available: the pairs `(s, l)` and the naturals `B·s + l` below `J·B` correspond one to one. -/
theorem sum_blocks {M : Type*} [AddCommMonoid M] (J B : ℕ) (f : ℕ → M) :
    ∑ s ∈ Finset.range J, ∑ l : Fin B, f (B * s + l.val) = ∑ k : Fin (J * B), f k.val := by
  rw [Finset.sum_range (fun s => ∑ l : Fin B, f (B * s + l.val))]
  rw [← Fintype.sum_prod_type' (fun (s : Fin J) (l : Fin B) => f (B * s.val + l.val))]
  refine Fintype.sum_equiv finProdFinEquiv _ _ (fun x => ?_)
  show f (B * x.1.val + x.2.val) = f (x.2.val + B * x.1.val)
  rw [Nat.add_comm]

end Cert.Lib
-- ==== Proof.KFinal.lean ====
/-
  From the accumulator to the program's result.  After point `n` the accumulator is the sum of the
  addends of the points of `n`'s core up to `n`; entry `q` of the output array ends at the sum of core
  `q`'s eight addends; the final sum over that array adds the two cores, and every addend is one batch
  entry's share of the loss, so the result is the loss taken batch entry by batch entry.
-/
import proofs.«131828_j61684320305394_2_alg».proof.Proof.KAccum
import proofs.«131828_j61684320305394_2_alg».proof.Proof.KBlockRead
import proofs.«131828_j61684320305394_2_alg».proof.Proof.LibUnitSum
import proofs.«131828_j61684320305394_2_alg».proof.Proof.LibBlockSum
import Idealize.ShloMosaic.PureOps.Ideal.Laws
import Idealize.ShloMosaic.Lib.StableHlo.Run

set_option maxRecDepth 16384

noncomputable section
open Idealize.ShloMosaic Idealize.ShloMosaic.TcCoe Idealize.SL.Sem
open Idealize.ShloMosaic.Pipeline (Dat)

namespace Cert.KernelIdeal.PointValue
open Cert.KernelIdeal Cert.KernelIdeal.Gen Cert.Bicon Idealize.ShloMosaic.ValueIdx

variable (m : (ℓ : Loc nD τ sig) → Buf (Elt Ideal) ℓ) (ρ : Dev nD → PrngReg)

/-- Point `k`'s addend, as a number (zero past the grid). -/
def adE (c : Dev nD) (k : ℕ) : EReal :=
  if h : k < cfg0.N then addend (iblk m c 0 ⟨k, h⟩) (iblk m c 1 ⟨k, h⟩) (iblk m c 2 ⟨k, h⟩) (ix2 (0 : Fin 1) (0 : Fin 1)) else 0

theorem zero11_apply (j : S1x1.Idx) : zero11 j = 0 := by
  show shapeCast S1x1 (broadcast S1x1 (Scalar.ofBits (F := Ideal) .f32 0x00000000#32)) shapeCasts_S1x1_S1x1 j = 0
  rw [shapeCast_self]
  exact zero_word

theorem step_apply (xs0 : Vec Ideal S1x1 .f32) (x0 : Vec Ideal S1x8x352x352 .f32) (x1 : Vec Ideal S1x1x352x352 .f32)
    (x2 : Vec Ideal S1x8x352x352 .i32) (j : S1x1.Idx) : step xs0 x0 x1 x2 j = xs0 j + addend x0 x1 x2 j := by
  show shapeCast S1x1 (addf xs0 (addend x0 x1 x2)) shapeCasts_S1x1_S1x1 j = _
  rw [shapeCast_self]
  rfl

/-- The accumulator after point `n` is the sum of the addends of the points of `n`'s core up to `n`. -/
theorem acc_apply (c : Dev nD) : ∀ (n : ℕ) (h : n < cfg0.N),
    acc m c n h (ix2 (0 : Fin 1) (0 : Fin 1)) = ∑ k ∈ Finset.range (n % 8 + 1), adE m c (8 * (n / 8) + k)
  | 0, h => by
    rw [acc, step_apply, zero11_apply, zero_add]
    show _ = ∑ k ∈ Finset.range 1, adE m c (8 * (0 / 8) + k)
    rw [Finset.sum_range_one, adE, dif_pos h]
  | n + 1, h => by
    rw [acc]
    by_cases h0 : (n + 1) % 8 = 0
    · rw [if_pos h0, step_apply, zero11_apply, zero_add, h0, Finset.sum_range_one]
      have e : 8 * ((n + 1) / 8) + 0 = n + 1 := by omega
      rw [e, adE, dif_pos h]
    · rw [if_neg h0, step_apply, acc_apply c n (Nat.lt_of_succ_lt h)]
      have e1 : (n + 1) % 8 = n % 8 + 1 := by omega
      have e2 : (n + 1) / 8 = n / 8 := by omega
      rw [e1, e2, Finset.sum_range_succ _ (n % 8 + 1)]
      have e3 : 8 * (n / 8) + (n % 8 + 1) = n + 1 := by omega
      rw [e3, adE, dif_pos h]

/-- The output array after the run: entry `q` holds the sum of core `q`'s eight addends. -/
def outArr (c : Dev nD) : S2x1x1.Idx → EReal := fun y => ∑ bi : Fin 8, adE m c (8 * (y 0).val + bi.val)

/-- The output's block index at point `t` is `(t / 8, 0, 0)`, decided over the grid. -/
theorem index3 : ∀ t : Fin cfg0.N, win0_3.index t (0 : Fin 3) = t.val / 8 ∧ win0_3.index t (1 : Fin 3) = 0 ∧ win0_3.index t (2 : Fin 3) = 0 :=
  (by decide +kernel : ∀ t : Fin grid0.N, win0_3.index t (0 : Fin 3) = t.val / 8 ∧ win0_3.index t (1 : Fin 3) = 0 ∧ win0_3.index t (2 : Fin 3) = 0)

/-- What a core's last point writes back is its entry of `outArr`. -/
theorem flushed3_eq (c : Dev nD) (t : Fin cfg0.N) (hf : (cfg0.win 3).flush t = true) :
    (dats m 0 c).flushed 3 t = ((cfg0.win 3).blk t).view.read (Elt Ideal) (outArr m c) := by
  have h1 : t.val % 8 = 7 := (flush0_3 t).mp hf
  show (cfg0.win 3).cut (grid0.coords t) ((dats m 0 c).after 3 t) = _
  rw [after0_3, outsAt_fst_C m c t h1]
  funext y
  rw [View.read_apply]
  show shapeCast S1x1x1 (acc m c t.val t.isLt) shapeCasts_S1x1_S1x1x1 y = outArr m c (((cfg0.win 3).blk t).view.emb y)
  have hy0 : (y 0).val < 1 := (y 0).isLt
  have hy1 : (y 1).val < 1 := (y 1).isLt
  have hy2 : (y 2).val < 1 := (y 2).isLt
  rw [shapeCast_apply (acc m c t.val t.isLt) shapeCasts_S1x1_S1x1x1 y (ix2 (0 : Fin 1) (0 : Fin 1)) (by
    rw [Shape.rowMajor_val_two, Shape.rowMajor_val_three]
    show (0 * 1 + 0) = ((y 0).val * 1 + (y 1).val) * 1 + (y 2).val
    omega)]
  rw [acc_apply m c t.val t.isLt, h1, Finset.sum_range]
  unfold outArr
  obtain ⟨e0, -, -⟩ := index3 t
  have he : ((((cfg0.win 3).blk t).view.emb y) 0).val = t.val / 8 := by
    show win0_3.index t (0 : Fin 3) * 1 + 1 * (y 0).val = t.val / 8
    omega
  rw [he]

/-- Every entry of the output array is written back by its core's last point. -/
theorem cover3 (c : Dev nD) (i : S2x1x1.Idx) :
    ∃ t : Fin cfg0.N, (cfg0.win 3).flush t = true ∧ i ∈ ((cfg0.win 3).blk t).view.set := by
  have hi0 : (i 0).val < 2 := (i 0).isLt
  have hi1 : (i 1).val < 1 := (i 1).isLt
  have hi2 : (i 2).val < 1 := (i 2).isLt
  have hn : 8 * (i 0).val + 7 < cfg0.N := lt_of_lt_of_eq (by omega : 8 * (i 0).val + 7 < 16) N_0.symm
  refine ⟨⟨8 * (i 0).val + 7, hn⟩, (flush0_3 _).mpr (by show (8 * (i 0).val + 7) % 8 = 7; omega), ?_⟩
  obtain ⟨e0, e1, e2⟩ := index3 ⟨8 * (i 0).val + 7, hn⟩
  have e0' : win0_3.index ⟨8 * (i 0).val + 7, hn⟩ (0 : Fin 3) = (i 0).val := by
    rw [e0]; show (8 * (i 0).val + 7) / 8 = (i 0).val; omega
  show i ∈ ((View.whole main_v0).slice (win0_3.rect ⟨8 * (i 0).val + 7, hn⟩)).set
  rw [View.set_slice_whole, Rect.mem_set_unit]
  intro a
  match a with
  | ⟨0, _⟩ =>
    show win0_3.index ⟨8 * (i 0).val + 7, hn⟩ (0 : Fin 3) * 1 ≤ (i 0).val ∧ (i 0).val < win0_3.index ⟨8 * (i 0).val + 7, hn⟩ (0 : Fin 3) * 1 + 1
    rw [e0']; omega
  | ⟨1, _⟩ =>
    show win0_3.index ⟨8 * (i 0).val + 7, hn⟩ (1 : Fin 3) * 1 ≤ (i 1).val ∧ (i 1).val < win0_3.index ⟨8 * (i 0).val + 7, hn⟩ (1 : Fin 3) * 1 + 1
    rw [e1]; omega
  | ⟨2, _⟩ =>
    show win0_3.index ⟨8 * (i 0).val + 7, hn⟩ (2 : Fin 3) * 1 ≤ (i 2).val ∧ (i 2).val < win0_3.index ⟨8 * (i 0).val + 7, hn⟩ (2 : Fin 3) * 1 + 1
    rw [e2]; omega

/-- So the output array ends at `outArr`. -/
theorem final3 (c : Dev nD) : (dats m 0 c).arrAt 3 cfg0.N = outArr m c :=
  (dats m 0 c).arrAt_eq_of_cover 3 (outArr m c) (fun t hf => flushed3_eq m c t hf) (cover3 c)

/-- The program's result: the final sum over the output array adds the two cores' entries. -/
theorem result_eq (c : Dev nD) :
    Pipeline.afterTail₀ cfgs (dats m) 0 (V0 m) [hostOps1] c main_v1 = fun _ => ∑ b : Fin 16, adE m c b.val := by
  unfold Pipeline.afterTail₀
  show StableHlo.after hostOps1 _ (Proc.devRef .tc main_v1) = _
  after_results
  have hw : Pipeline.withArrays (cfgs 0).spec c (V0 m c) (fun w => (dats m 0 c).arrAt w (cfgs 0).N) (Proc.devRef .tc main_v0)
      = outArr m c :=
    (Pipeline.withArrays_arr spec0 launch0.win.arr_inj c _ _ 3).trans (final3 m c)
  rw [hw]
  funext j
  show Ideal.hostReduceAdd reducesTo_S2x1x1_S_d0_1_2 (outArr m c) (constant (F := Ideal) S_ .f32 0x00000000#32 (Shape.Idx.first h_S_)) j = _
  rw [Ideal.hostReduceAdd_total _ (fun b => b.elim0)]
  rw [show (constant (F := Ideal) S_ .f32 0x00000000#32 (Shape.Idx.first h_S_) : EReal) = 0 from Ideal.ofBits_zero_f32, zero_add]
  rw [Cert.Lib.sum_idx_n11]
  show ∑ s : Fin 2, ∑ bi : Fin 8, adE m c (8 * s.val + bi.val) = _
  rw [← Finset.sum_range (fun s => ∑ bi : Fin 8, adE m c (8 * s + bi.val))]
  exact Cert.Lib.sum_blocks 2 8 (adE m c)

/-- Every addend is its batch entry's share of the loss, so the sixteen addends add up to the loss. -/
theorem total_eq (c : Dev nD) : ∑ b : Fin 16, adE m c b.val = kernelTotal (Xarr m c) (Narr m c) (Tarr m c) := by
  unfold kernelTotal
  refine Finset.sum_congr rfl fun b _ => ?_
  have hb : b.val < cfg0.N := lt_of_lt_of_eq b.isLt N_0.symm
  rw [adE, dif_pos hb]
  exact addend_iblk m c ⟨b.val, hb⟩ (ix2 (0 : Fin 1) (0 : Fin 1))

/-- The kernel's run, read: the result at the loss taken batch entry by batch entry, the arguments unchanged. -/
theorem run : θ_run defs (onTc (τ := τ) (main (F := Ideal))) ⟨m, fun _ => 0, ρ⟩ fun r => ∀ c : Dev nD,
      r.2.mem ((c.tc : Thread nD τ).loc main_v1) = (fun _ => kernelTotal (Xarr m c) (Narr m c) (Tarr m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v1 (by decide)).trans ((result_eq m c).trans (funext fun _ => total_eq m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.PointValue
end
-- ==== Proof.RefRunStaged.lean ====
/-
  The reference program's run, read back stage by stage.  Its straight line of host operations is cut into
  consecutive stages; after each stage the buffers that later operations still read hold the values the
  operation-by-operation reading gives them, whatever valuation the stage started from, provided the
  buffers it reads held theirs.  Chaining the stages gives the result buffer's value after the whole line, and
  the run of the program is the run of that line.
-/
import proofs.«131828_j61684320305394_2_alg».proof.Proof.RefReadP
import Idealize.ShloMosaic.Lib.StableHlo.Run

noncomputable section

namespace Cert.ReferenceIdeal.Staged

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- A result computed from eight operands named by a literal family, with each operand's contents at its own reference
    (the eight-operand form of the library's four-operand lemma). -/
theorem nary8_result' {x0 x1 x2 x3 x4 x5 x6 x7 y : Ref sig .tc}
    (f : ((k : Fin 8) → ((![x0, x1, x2, x3, x4, x5, x6, x7] : Fin 8 → Ref sig .tc) k).ty.Contents (Elt F)) → y.ty.Contents (Elt F)) (hxs hy)
    (W : Valuation τ sig (Elt F)) :
    (nary (τ := τ) ![x0, x1, x2, x3, x4, x5, x6, x7] y f hxs hy).result W (no_index (Proc.devRef .tc y))
      = f (Fin.cons (W (Proc.devRef .tc x0)) (Fin.cons (W (Proc.devRef .tc x1)) (Fin.cons (W (Proc.devRef .tc x2)) (Fin.cons (W (Proc.devRef .tc x3)) (Fin.cons (W (Proc.devRef .tc x4)) (Fin.cons (W (Proc.devRef .tc x5)) (Fin.cons (W (Proc.devRef .tc x6)) (Fin.cons (W (Proc.devRef .tc x7)) (fun i => i.elim0))))))))) := by
  rw [nary_result]; congr 1; funext k; fin_cases k <;> rfl

/-- The contents of one buffer after a line of operations, by one simplification pass, an eight-operand operation read by the lemma above. -/
macro "after_results_simp8" : tactic =>
  `(tactic| (simp (disch := decide) only [after_cons, after_nil,
      nullary_result', unary_result', binary_result', ternary_result', quaternary_result', reshape_result', nary8_result',
      unaryIndexed_result', binaryIndexed_result',
      nullary_result_ne', unary_result_ne', binary_result_ne', ternary_result_ne', quaternary_result_ne', reshape_result_ne',
      nary_result_ne', unaryIndexed_result_ne', binaryIndexed_result_ne']))

/-- The lookups the pass above leaves under an eight-operand operation, rewritten one at a time. -/
macro "results_rw" : tactic =>
  `(tactic| (repeat (first
      | rw [nullary_result] | rw [unary_result] | rw [binary_result] | rw [reshape_result]
      | (rw [nullary_result_ne]; rotate_left; decide)
      | (rw [unary_result_ne]; rotate_left; decide)
      | (rw [binary_result_ne]; rotate_left; decide)
      | (rw [reshape_result_ne]; rotate_left; decide)
      | (rw [nary_result_ne]; rotate_left; decide))))

/-- A property of every entry of two lists holds of every entry of their concatenation. -/
theorem forall_append {α : Type} {p : α → Prop} {l₁ l₂ : List α} (h₁ : l₁.Forall p) (h₂ : l₂.Forall p) : (l₁ ++ l₂).Forall p :=
  List.forall_iff_forall_mem.mpr fun x hx => (List.mem_append.mp hx).elim (List.forall_iff_forall_mem.mp h₁ x) (List.forall_iff_forall_mem.mp h₂ x)

theorem mem_append_of {α : Type} {p : α → Prop} {l₁ l₂ : List α} (h₁ : ∀ x ∈ l₁, p x) (h₂ : ∀ x ∈ l₂, p x) : ∀ x ∈ l₁ ++ l₂, p x :=
  fun x hx => (List.mem_append.mp hx).elim (h₁ x) (h₂ x)

/-- Operations 1 to 12. -/
abbrev stage0 : List (HloOp τ sig (Elt F)) :=
  [ unary main_arg0 main_v0 (Host.negf : (⟨S16x8x352x352, .f32⟩ : BufTy).Contents (Elt F) → (⟨S16x8x352x352, .f32⟩ : BufTy).Contents (Elt F)),
    unary main_v0 main_v1 (Host.exp : (⟨S16x8x352x352, .f32⟩ : BufTy).Contents (Elt F) → (⟨S16x8x352x352, .f32⟩ : BufTy).Contents (Elt F)),
    nullary main_cst (constant S_ .f32 0x3F800000#32),
    unary main_cst main_v2 (broadcastInDim S16x8x352x352 ![] bcast_S_S16x8x352x352 : (⟨S_, .f32⟩ : BufTy).Contents (Elt F) → (⟨S16x8x352x352, .f32⟩ : BufTy).Contents (Elt F)),
    binary main_v2 main_v1 main_v3 (addf : (⟨S16x8x352x352, .f32⟩ : BufTy).Contents (Elt F) → (⟨S16x8x352x352, .f32⟩ : BufTy).Contents (Elt F) → (⟨S16x8x352x352, .f32⟩ : BufTy).Contents (Elt F)),
    nullary main_cst_0 (constant S_ .f32 0x3F800000#32),
    unary main_cst_0 main_v4 (broadcastInDim S16x8x352x352 ![] bcast_S_S16x8x352x352 : (⟨S_, .f32⟩ : BufTy).Contents (Elt F) → (⟨S16x8x352x352, .f32⟩ : BufTy).Contents (Elt F)),
    binary main_v4 main_v3 main_v5 (Host.divf : (⟨S16x8x352x352, .f32⟩ : BufTy).Contents (Elt F) → (⟨S16x8x352x352, .f32⟩ : BufTy).Contents (Elt F) → (⟨S16x8x352x352, .f32⟩ : BufTy).Contents (Elt F)),
    unary main_arg2 main_v6 (sitofp .f32 : (⟨S16x8x352x352, .i32⟩ : BufTy).Contents (Elt F) → (⟨S16x8x352x352, .f32⟩ : BufTy).Contents (Elt F)),
    nullary main_cst_1 (constant S_ .f32 0x00000000#32),
    binary main_v6 main_cst_1 main_v7 ((fun x v => Host.reduceAdd x v reducesTo_S16x8x352x352_S16x352x352_d1 h_S_) : (⟨S16x8x352x352, .f32⟩ : BufTy).Contents (Elt F) → (⟨S_, .f32⟩ : BufTy).Contents (Elt F) → (⟨S16x352x352, .f32⟩ : BufTy).Contents (Elt F)),
    nullary main_cst_2 (constant S_ .f32 0x41000000#32) ]

/-- Operations 13 to 24. -/
abbrev stage1 : List (HloOp τ sig (Elt F)) :=
  [ unary main_cst_2 main_v8 (broadcastInDim S16x352x352 ![] bcast_S_S16x352x352 : (⟨S_, .f32⟩ : BufTy).Contents (Elt F) → (⟨S16x352x352, .f32⟩ : BufTy).Contents (Elt F)),
    binary main_v7 main_v8 main_v9 (cmpf .olt : (⟨S16x352x352, .f32⟩ : BufTy).Contents (Elt F) → (⟨S16x352x352, .f32⟩ : BufTy).Contents (Elt F) → (⟨S16x352x352, .i1⟩ : BufTy).Contents (Elt F)),
    nullary main_cst_3 (constant S_ .f32 0x00000000#32),
    unary main_cst_3 main_v10 (broadcastInDim S16x352x352 ![] bcast_S_S16x352x352 : (⟨S_, .f32⟩ : BufTy).Contents (Elt F) → (⟨S16x352x352, .f32⟩ : BufTy).Contents (Elt F)),
    binary main_v7 main_v10 main_v11 (cmpf .ogt : (⟨S16x352x352, .f32⟩ : BufTy).Contents (Elt F) → (⟨S16x352x352, .f32⟩ : BufTy).Contents (Elt F) → (⟨S16x352x352, .i1⟩ : BufTy).Contents (Elt F)),
    binary main_v9 main_v11 main_v12 (andi : (⟨S16x352x352, .i1⟩ : BufTy).Contents (Elt F) → (⟨S16x352x352, .i1⟩ : BufTy).Contents (Elt F) → (⟨S16x352x352, .i1⟩ : BufTy).Contents (Elt F)),
    unary main_v12 main_v13 (uitofp .f32 : (⟨S16x352x352, .i1⟩ : BufTy).Contents (Elt F) → (⟨S16x352x352, .f32⟩ : BufTy).Contents (Elt F)),
    unary main_v5 main_v14 ((extractStridedSlice S16x1x352x352 ![0, 7, 0, 0] · slices_S16x8x352x352_S16x1x352x352_0_7_0_0) : (⟨S16x8x352x352, .f32⟩ : BufTy).Contents (Elt F) → (⟨S16x1x352x352, .f32⟩ : BufTy).Contents (Elt F)),
    reshape main_v14 main_v15 rfl shapeCasts_S16x1x352x352_S16x352x352,
    nullary main_c (constantI S_ 32 0#32),
    TRef.unary (TRef.of (T := ⟨S_, .i32⟩) main_c) (TRef.of (T := ⟨S_, .f32⟩) main_call0_v0) (sitofp .f32),
    TRef.binary (TRef.of (T := ⟨S16x352x352, .f32⟩) main_v15) (TRef.of (T := ⟨S_, .f32⟩) main_call0_v0) (TRef.of (T := ⟨S16x352x353, .f32⟩) main_v16) (fun x v => pad S16x352x353 ![0, 0, 1] ![0, 0, 0] ![0, 0, 0] x v pads_S16x352x352_S16x352x353_000_000_100 h_S_) ]

/-- Operations 25 to 36. -/
abbrev stage2 : List (HloOp τ sig (Elt F)) :=
  [ unary main_v16 main_v17 ((extractStridedSlice S16x352x352 ![0, 0, 0] · slices_S16x352x353_S16x352x352_0_0_0) : (⟨S16x352x353, .f32⟩ : BufTy).Contents (Elt F) → (⟨S16x352x352, .f32⟩ : BufTy).Contents (Elt F)),
    nullary main_c_4 (constantI S_ 32 0#32),
    TRef.unary (TRef.of (T := ⟨S_, .i32⟩) main_c_4) (TRef.of (T := ⟨S_, .f32⟩) main_call1_v0) (sitofp .f32),
    TRef.binary (TRef.of (T := ⟨S16x352x352, .f32⟩) main_v17) (TRef.of (T := ⟨S_, .f32⟩) main_call1_v0) (TRef.of (T := ⟨S16x353x352, .f32⟩) main_v18) (fun x v => pad S16x353x352 ![0, 1, 0] ![0, 0, 0] ![0, 0, 0] x v pads_S16x352x352_S16x353x352_000_100_000 h_S_),
    unary main_v18 main_v19 ((extractStridedSlice S16x352x352 ![0, 0, 0] · slices_S16x353x352_S16x352x352_0_0_0) : (⟨S16x353x352, .f32⟩ : BufTy).Contents (Elt F) → (⟨S16x352x352, .f32⟩ : BufTy).Contents (Elt F)),
    unary main_v5 main_v20 ((extractStridedSlice S16x1x352x352 ![0, 6, 0, 0] · slices_S16x8x352x352_S16x1x352x352_0_6_0_0) : (⟨S16x8x352x352, .f32⟩ : BufTy).Contents (Elt F) → (⟨S16x1x352x352, .f32⟩ : BufTy).Contents (Elt F)),
    reshape main_v20 main_v21 rfl shapeCasts_S16x1x352x352_S16x352x352,
    nullary main_c_5 (constantI S_ 32 0#32),
    TRef.unary (TRef.of (T := ⟨S_, .i32⟩) main_c_5) (TRef.of (T := ⟨S_, .f32⟩) main_call2_v0) (sitofp .f32),
    TRef.binary (TRef.of (T := ⟨S16x352x352, .f32⟩) main_v21) (TRef.of (T := ⟨S_, .f32⟩) main_call2_v0) (TRef.of (T := ⟨S16x353x352, .f32⟩) main_v22) (fun x v => pad S16x353x352 ![0, 1, 0] ![0, 0, 0] ![0, 0, 0] x v pads_S16x352x352_S16x353x352_000_100_000 h_S_),
    unary main_v22 main_v23 ((extractStridedSlice S16x352x352 ![0, 0, 0] · slices_S16x353x352_S16x352x352_0_0_0) : (⟨S16x353x352, .f32⟩ : BufTy).Contents (Elt F) → (⟨S16x352x352, .f32⟩ : BufTy).Contents (Elt F)),
    unary main_v5 main_v24 ((extractStridedSlice S16x1x352x352 ![0, 5, 0, 0] · slices_S16x8x352x352_S16x1x352x352_0_5_0_0) : (⟨S16x8x352x352, .f32⟩ : BufTy).Contents (Elt F) → (⟨S16x1x352x352, .f32⟩ : BufTy).Contents (Elt F)) ]

/-- Operations 37 to 48. -/
abbrev stage3 : List (HloOp τ sig (Elt F)) :=
  [ reshape main_v24 main_v25 rfl shapeCasts_S16x1x352x352_S16x352x352,
    nullary main_c_6 (constantI S_ 32 0#32),
    TRef.unary (TRef.of (T := ⟨S_, .i32⟩) main_c_6) (TRef.of (T := ⟨S_, .f32⟩) main_call3_v0) (sitofp .f32),
    TRef.binary (TRef.of (T := ⟨S16x352x352, .f32⟩) main_v25) (TRef.of (T := ⟨S_, .f32⟩) main_call3_v0) (TRef.of (T := ⟨S16x352x353, .f32⟩) main_v26) (fun x v => pad S16x352x353 ![0, 0, 0] ![0, 0, 1] ![0, 0, 0] x v pads_S16x352x352_S16x352x353_000_000_010 h_S_),
    unary main_v26 main_v27 ((extractStridedSlice S16x352x352 ![0, 0, 1] · slices_S16x352x353_S16x352x352_0_0_1) : (⟨S16x352x353, .f32⟩ : BufTy).Contents (Elt F) → (⟨S16x352x352, .f32⟩ : BufTy).Contents (Elt F)),
    nullary main_c_7 (constantI S_ 32 0#32),
    TRef.unary (TRef.of (T := ⟨S_, .i32⟩) main_c_7) (TRef.of (T := ⟨S_, .f32⟩) main_call4_v0) (sitofp .f32),
    TRef.binary (TRef.of (T := ⟨S16x352x352, .f32⟩) main_v27) (TRef.of (T := ⟨S_, .f32⟩) main_call4_v0) (TRef.of (T := ⟨S16x353x352, .f32⟩) main_v28) (fun x v => pad S16x353x352 ![0, 1, 0] ![0, 0, 0] ![0, 0, 0] x v pads_S16x352x352_S16x353x352_000_100_000 h_S_),
    unary main_v28 main_v29 ((extractStridedSlice S16x352x352 ![0, 0, 0] · slices_S16x353x352_S16x352x352_0_0_0) : (⟨S16x353x352, .f32⟩ : BufTy).Contents (Elt F) → (⟨S16x352x352, .f32⟩ : BufTy).Contents (Elt F)),
    unary main_v5 main_v30 ((extractStridedSlice S16x1x352x352 ![0, 4, 0, 0] · slices_S16x8x352x352_S16x1x352x352_0_4_0_0) : (⟨S16x8x352x352, .f32⟩ : BufTy).Contents (Elt F) → (⟨S16x1x352x352, .f32⟩ : BufTy).Contents (Elt F)),
    reshape main_v30 main_v31 rfl shapeCasts_S16x1x352x352_S16x352x352,
    nullary main_c_8 (constantI S_ 32 0#32) ]

/-- Operations 49 to 60. -/
abbrev stage4 : List (HloOp τ sig (Elt F)) :=
  [ TRef.unary (TRef.of (T := ⟨S_, .i32⟩) main_c_8) (TRef.of (T := ⟨S_, .f32⟩) main_call5_v0) (sitofp .f32),
    TRef.binary (TRef.of (T := ⟨S16x352x352, .f32⟩) main_v31) (TRef.of (T := ⟨S_, .f32⟩) main_call5_v0) (TRef.of (T := ⟨S16x352x353, .f32⟩) main_v32) (fun x v => pad S16x352x353 ![0, 0, 1] ![0, 0, 0] ![0, 0, 0] x v pads_S16x352x352_S16x352x353_000_000_100 h_S_),
    unary main_v32 main_v33 ((extractStridedSlice S16x352x352 ![0, 0, 0] · slices_S16x352x353_S16x352x352_0_0_0) : (⟨S16x352x353, .f32⟩ : BufTy).Contents (Elt F) → (⟨S16x352x352, .f32⟩ : BufTy).Contents (Elt F)),
    unary main_v5 main_v34 ((extractStridedSlice S16x1x352x352 ![0, 3, 0, 0] · slices_S16x8x352x352_S16x1x352x352_0_3_0_0) : (⟨S16x8x352x352, .f32⟩ : BufTy).Contents (Elt F) → (⟨S16x1x352x352, .f32⟩ : BufTy).Contents (Elt F)),
    reshape main_v34 main_v35 rfl shapeCasts_S16x1x352x352_S16x352x352,
    nullary main_c_9 (constantI S_ 32 0#32),
    TRef.unary (TRef.of (T := ⟨S_, .i32⟩) main_c_9) (TRef.of (T := ⟨S_, .f32⟩) main_call6_v0) (sitofp .f32),
    TRef.binary (TRef.of (T := ⟨S16x352x352, .f32⟩) main_v35) (TRef.of (T := ⟨S_, .f32⟩) main_call6_v0) (TRef.of (T := ⟨S16x352x353, .f32⟩) main_v36) (fun x v => pad S16x352x353 ![0, 0, 0] ![0, 0, 1] ![0, 0, 0] x v pads_S16x352x352_S16x352x353_000_000_010 h_S_),
    unary main_v36 main_v37 ((extractStridedSlice S16x352x352 ![0, 0, 1] · slices_S16x352x353_S16x352x352_0_0_1) : (⟨S16x352x353, .f32⟩ : BufTy).Contents (Elt F) → (⟨S16x352x352, .f32⟩ : BufTy).Contents (Elt F)),
    unary main_v5 main_v38 ((extractStridedSlice S16x1x352x352 ![0, 2, 0, 0] · slices_S16x8x352x352_S16x1x352x352_0_2_0_0) : (⟨S16x8x352x352, .f32⟩ : BufTy).Contents (Elt F) → (⟨S16x1x352x352, .f32⟩ : BufTy).Contents (Elt F)),
    reshape main_v38 main_v39 rfl shapeCasts_S16x1x352x352_S16x352x352,
    nullary main_c_10 (constantI S_ 32 0#32) ]

/-- Operations 61 to 72. -/
abbrev stage5 : List (HloOp τ sig (Elt F)) :=
  [ TRef.unary (TRef.of (T := ⟨S_, .i32⟩) main_c_10) (TRef.of (T := ⟨S_, .f32⟩) main_call7_v0) (sitofp .f32),
    TRef.binary (TRef.of (T := ⟨S16x352x352, .f32⟩) main_v39) (TRef.of (T := ⟨S_, .f32⟩) main_call7_v0) (TRef.of (T := ⟨S16x352x353, .f32⟩) main_v40) (fun x v => pad S16x352x353 ![0, 0, 1] ![0, 0, 0] ![0, 0, 0] x v pads_S16x352x352_S16x352x353_000_000_100 h_S_),
    unary main_v40 main_v41 ((extractStridedSlice S16x352x352 ![0, 0, 0] · slices_S16x352x353_S16x352x352_0_0_0) : (⟨S16x352x353, .f32⟩ : BufTy).Contents (Elt F) → (⟨S16x352x352, .f32⟩ : BufTy).Contents (Elt F)),
    nullary main_c_11 (constantI S_ 32 0#32),
    TRef.unary (TRef.of (T := ⟨S_, .i32⟩) main_c_11) (TRef.of (T := ⟨S_, .f32⟩) main_call8_v0) (sitofp .f32),
    TRef.binary (TRef.of (T := ⟨S16x352x352, .f32⟩) main_v41) (TRef.of (T := ⟨S_, .f32⟩) main_call8_v0) (TRef.of (T := ⟨S16x353x352, .f32⟩) main_v42) (fun x v => pad S16x353x352 ![0, 0, 0] ![0, 1, 0] ![0, 0, 0] x v pads_S16x352x352_S16x353x352_000_010_000 h_S_),
    unary main_v42 main_v43 ((extractStridedSlice S16x352x352 ![0, 1, 0] · slices_S16x353x352_S16x352x352_0_1_0) : (⟨S16x353x352, .f32⟩ : BufTy).Contents (Elt F) → (⟨S16x352x352, .f32⟩ : BufTy).Contents (Elt F)),
    unary main_v5 main_v44 ((extractStridedSlice S16x1x352x352 ![0, 1, 0, 0] · slices_S16x8x352x352_S16x1x352x352_0_1_0_0) : (⟨S16x8x352x352, .f32⟩ : BufTy).Contents (Elt F) → (⟨S16x1x352x352, .f32⟩ : BufTy).Contents (Elt F)),
    reshape main_v44 main_v45 rfl shapeCasts_S16x1x352x352_S16x352x352,
    nullary main_c_12 (constantI S_ 32 0#32),
    TRef.unary (TRef.of (T := ⟨S_, .i32⟩) main_c_12) (TRef.of (T := ⟨S_, .f32⟩) main_call9_v0) (sitofp .f32),
    TRef.binary (TRef.of (T := ⟨S16x352x352, .f32⟩) main_v45) (TRef.of (T := ⟨S_, .f32⟩) main_call9_v0) (TRef.of (T := ⟨S16x353x352, .f32⟩) main_v46) (fun x v => pad S16x353x352 ![0, 0, 0] ![0, 1, 0] ![0, 0, 0] x v pads_S16x352x352_S16x353x352_000_010_000 h_S_) ]

/-- Operations 73 to 84. -/
abbrev stage6 : List (HloOp τ sig (Elt F)) :=
  [ unary main_v46 main_v47 ((extractStridedSlice S16x352x352 ![0, 1, 0] · slices_S16x353x352_S16x352x352_0_1_0) : (⟨S16x353x352, .f32⟩ : BufTy).Contents (Elt F) → (⟨S16x352x352, .f32⟩ : BufTy).Contents (Elt F)),
    unary main_v5 main_v48 ((extractStridedSlice S16x1x352x352 ![0, 0, 0, 0] · slices_S16x8x352x352_S16x1x352x352_0_0_0_0) : (⟨S16x8x352x352, .f32⟩ : BufTy).Contents (Elt F) → (⟨S16x1x352x352, .f32⟩ : BufTy).Contents (Elt F)),
    reshape main_v48 main_v49 rfl shapeCasts_S16x1x352x352_S16x352x352,
    nullary main_c_13 (constantI S_ 32 0#32),
    TRef.unary (TRef.of (T := ⟨S_, .i32⟩) main_c_13) (TRef.of (T := ⟨S_, .f32⟩) main_call10_v0) (sitofp .f32),
    TRef.binary (TRef.of (T := ⟨S16x352x352, .f32⟩) main_v49) (TRef.of (T := ⟨S_, .f32⟩) main_call10_v0) (TRef.of (T := ⟨S16x352x353, .f32⟩) main_v50) (fun x v => pad S16x352x353 ![0, 0, 0] ![0, 0, 1] ![0, 0, 0] x v pads_S16x352x352_S16x352x353_000_000_010 h_S_),
    unary main_v50 main_v51 ((extractStridedSlice S16x352x352 ![0, 0, 1] · slices_S16x352x353_S16x352x352_0_0_1) : (⟨S16x352x353, .f32⟩ : BufTy).Contents (Elt F) → (⟨S16x352x352, .f32⟩ : BufTy).Contents (Elt F)),
    nullary main_c_14 (constantI S_ 32 0#32),
    TRef.unary (TRef.of (T := ⟨S_, .i32⟩) main_c_14) (TRef.of (T := ⟨S_, .f32⟩) main_call11_v0) (sitofp .f32),
    TRef.binary (TRef.of (T := ⟨S16x352x352, .f32⟩) main_v51) (TRef.of (T := ⟨S_, .f32⟩) main_call11_v0) (TRef.of (T := ⟨S16x353x352, .f32⟩) main_v52) (fun x v => pad S16x353x352 ![0, 0, 0] ![0, 1, 0] ![0, 0, 0] x v pads_S16x352x352_S16x353x352_000_010_000 h_S_),
    unary main_v52 main_v53 ((extractStridedSlice S16x352x352 ![0, 1, 0] · slices_S16x353x352_S16x352x352_0_1_0) : (⟨S16x353x352, .f32⟩ : BufTy).Contents (Elt F) → (⟨S16x352x352, .f32⟩ : BufTy).Contents (Elt F)),
    unary main_v19 main_v54 (broadcastInDim S16x1x352x352 ![0, 2, 3] bcast_S16x352x352_S16x1x352x352_0_2_3 : (⟨S16x352x352, .f32⟩ : BufTy).Contents (Elt F) → (⟨S16x1x352x352, .f32⟩ : BufTy).Contents (Elt F)) ]

/-- Operations 85 to 96. -/
abbrev stage7 : List (HloOp τ sig (Elt F)) :=
  [ unary main_v23 main_v55 (broadcastInDim S16x1x352x352 ![0, 2, 3] bcast_S16x352x352_S16x1x352x352_0_2_3 : (⟨S16x352x352, .f32⟩ : BufTy).Contents (Elt F) → (⟨S16x1x352x352, .f32⟩ : BufTy).Contents (Elt F)),
    unary main_v29 main_v56 (broadcastInDim S16x1x352x352 ![0, 2, 3] bcast_S16x352x352_S16x1x352x352_0_2_3 : (⟨S16x352x352, .f32⟩ : BufTy).Contents (Elt F) → (⟨S16x1x352x352, .f32⟩ : BufTy).Contents (Elt F)),
    unary main_v33 main_v57 (broadcastInDim S16x1x352x352 ![0, 2, 3] bcast_S16x352x352_S16x1x352x352_0_2_3 : (⟨S16x352x352, .f32⟩ : BufTy).Contents (Elt F) → (⟨S16x1x352x352, .f32⟩ : BufTy).Contents (Elt F)),
    unary main_v37 main_v58 (broadcastInDim S16x1x352x352 ![0, 2, 3] bcast_S16x352x352_S16x1x352x352_0_2_3 : (⟨S16x352x352, .f32⟩ : BufTy).Contents (Elt F) → (⟨S16x1x352x352, .f32⟩ : BufTy).Contents (Elt F)),
    unary main_v43 main_v59 (broadcastInDim S16x1x352x352 ![0, 2, 3] bcast_S16x352x352_S16x1x352x352_0_2_3 : (⟨S16x352x352, .f32⟩ : BufTy).Contents (Elt F) → (⟨S16x1x352x352, .f32⟩ : BufTy).Contents (Elt F)),
    unary main_v47 main_v60 (broadcastInDim S16x1x352x352 ![0, 2, 3] bcast_S16x352x352_S16x1x352x352_0_2_3 : (⟨S16x352x352, .f32⟩ : BufTy).Contents (Elt F) → (⟨S16x1x352x352, .f32⟩ : BufTy).Contents (Elt F)),
    unary main_v53 main_v61 (broadcastInDim S16x1x352x352 ![0, 2, 3] bcast_S16x352x352_S16x1x352x352_0_2_3 : (⟨S16x352x352, .f32⟩ : BufTy).Contents (Elt F) → (⟨S16x1x352x352, .f32⟩ : BufTy).Contents (Elt F)),
    nary ![main_v54, main_v55, main_v56, main_v57, main_v58, main_v59, main_v60, main_v61] main_v62 (fun u => concatenate S16x8x352x352 1 [⟨S16x1x352x352, u 0⟩, ⟨S16x1x352x352, u 1⟩, ⟨S16x1x352x352, u 2⟩, ⟨S16x1x352x352, u 3⟩, ⟨S16x1x352x352, u 4⟩, ⟨S16x1x352x352, u 5⟩, ⟨S16x1x352x352, u 6⟩, ⟨S16x1x352x352, u 7⟩] concatenates_S16x1x352x352_S16x1x352x352_S16x1x352x352_S16x1x352x352_S16x1x352x352_S16x1x352x352_S16x1x352x352_S16x1x352x352_S16x8x352x352_d1),
    binary main_v5 main_v62 main_v63 (mulf : (⟨S16x8x352x352, .f32⟩ : BufTy).Contents (Elt F) → (⟨S16x8x352x352, .f32⟩ : BufTy).Contents (Elt F) → (⟨S16x8x352x352, .f32⟩ : BufTy).Contents (Elt F)),
    nullary main_cst_15 (constant S_ .f32 0xFF800000#32),
    binary main_v63 main_cst_15 main_v64 ((fun x v => Host.reduce FloatOps.maximumf x v reducesTo_S16x8x352x352_S16x352x352_d1 h_S_) : (⟨S16x8x352x352, .f32⟩ : BufTy).Contents (Elt F) → (⟨S_, .f32⟩ : BufTy).Contents (Elt F) → (⟨S16x352x352, .f32⟩ : BufTy).Contents (Elt F)),
    nullary main_cst_16 (constant S_ .f32 0x7F800000#32) ]

/-- Operations 97 to 108. -/
abbrev stage8 : List (HloOp τ sig (Elt F)) :=
  [ binary main_v63 main_cst_16 main_v65 ((fun x v => Host.reduce FloatOps.minimumf x v reducesTo_S16x8x352x352_S16x352x352_d1 h_S_) : (⟨S16x8x352x352, .f32⟩ : BufTy).Contents (Elt F) → (⟨S_, .f32⟩ : BufTy).Contents (Elt F) → (⟨S16x352x352, .f32⟩ : BufTy).Contents (Elt F)),
    nullary main_cst_17 (constant S_ .f32 0x3F800000#32),
    unary main_cst_17 main_v66 (broadcastInDim S16x352x352 ![] bcast_S_S16x352x352 : (⟨S_, .f32⟩ : BufTy).Contents (Elt F) → (⟨S16x352x352, .f32⟩ : BufTy).Contents (Elt F)),
    binary main_v66 main_v13 main_v67 (subf : (⟨S16x352x352, .f32⟩ : BufTy).Contents (Elt F) → (⟨S16x352x352, .f32⟩ : BufTy).Contents (Elt F) → (⟨S16x352x352, .f32⟩ : BufTy).Contents (Elt F)),
    binary main_v64 main_v67 main_v68 (mulf : (⟨S16x352x352, .f32⟩ : BufTy).Contents (Elt F) → (⟨S16x352x352, .f32⟩ : BufTy).Contents (Elt F) → (⟨S16x352x352, .f32⟩ : BufTy).Contents (Elt F)),
    nullary main_cst_18 (constant S_ .f32 0x3F800000#32),
    unary main_cst_18 main_v69 (broadcastInDim S16x352x352 ![] bcast_S_S16x352x352 : (⟨S_, .f32⟩ : BufTy).Contents (Elt F) → (⟨S16x352x352, .f32⟩ : BufTy).Contents (Elt F)),
    binary main_v69 main_v65 main_v70 (subf : (⟨S16x352x352, .f32⟩ : BufTy).Contents (Elt F) → (⟨S16x352x352, .f32⟩ : BufTy).Contents (Elt F) → (⟨S16x352x352, .f32⟩ : BufTy).Contents (Elt F)),
    binary main_v70 main_v13 main_v71 (mulf : (⟨S16x352x352, .f32⟩ : BufTy).Contents (Elt F) → (⟨S16x352x352, .f32⟩ : BufTy).Contents (Elt F) → (⟨S16x352x352, .f32⟩ : BufTy).Contents (Elt F)),
    binary main_v68 main_v71 main_v72 (addf : (⟨S16x352x352, .f32⟩ : BufTy).Contents (Elt F) → (⟨S16x352x352, .f32⟩ : BufTy).Contents (Elt F) → (⟨S16x352x352, .f32⟩ : BufTy).Contents (Elt F)),
    unary main_v72 main_v73 (broadcastInDim S16x1x352x352 ![0, 2, 3] bcast_S16x352x352_S16x1x352x352_0_2_3 : (⟨S16x352x352, .f32⟩ : BufTy).Contents (Elt F) → (⟨S16x1x352x352, .f32⟩ : BufTy).Contents (Elt F)),
    nullary main_cst_19 (constant S_ .f32 0x33D6BF95#32) ]

/-- Operations 109 to 120. -/
abbrev stage9 : List (HloOp τ sig (Elt F)) :=
  [ nullary main_cst_20 (constant S_ .f32 0x3F7FFFFE#32),
    TRef.unary (TRef.of (T := ⟨S_, .f32⟩) main_cst_19) (TRef.of (T := ⟨S_, .f32⟩) main_call12_v0) id,
    TRef.unary (TRef.of (T := ⟨S_, .f32⟩) main_call12_v0) (TRef.of (T := ⟨S16x1x352x352, .f32⟩) main_call12_v1) (broadcastInDim S16x1x352x352 ![] bcast_S_S16x1x352x352),
    TRef.binary (TRef.of (T := ⟨S16x1x352x352, .f32⟩) main_call12_v1) (TRef.of (T := ⟨S16x1x352x352, .f32⟩) main_v73) (TRef.of (T := ⟨S16x1x352x352, .f32⟩) main_call12_v2) maximumf,
    TRef.unary (TRef.of (T := ⟨S_, .f32⟩) main_cst_20) (TRef.of (T := ⟨S_, .f32⟩) main_call12_v3) id,
    TRef.unary (TRef.of (T := ⟨S_, .f32⟩) main_call12_v3) (TRef.of (T := ⟨S16x1x352x352, .f32⟩) main_call12_v4) (broadcastInDim S16x1x352x352 ![] bcast_S_S16x1x352x352),
    TRef.binary (TRef.of (T := ⟨S16x1x352x352, .f32⟩) main_call12_v4) (TRef.of (T := ⟨S16x1x352x352, .f32⟩) main_call12_v2) (TRef.of (T := ⟨S16x1x352x352, .f32⟩) main_v74) minimumf,
    unary main_v74 main_v75 (Host.log : (⟨S16x1x352x352, .f32⟩ : BufTy).Contents (Elt F) → (⟨S16x1x352x352, .f32⟩ : BufTy).Contents (Elt F)),
    binary main_arg1 main_v75 main_v76 (mulf : (⟨S16x1x352x352, .f32⟩ : BufTy).Contents (Elt F) → (⟨S16x1x352x352, .f32⟩ : BufTy).Contents (Elt F) → (⟨S16x1x352x352, .f32⟩ : BufTy).Contents (Elt F)),
    nullary main_cst_21 (constant S_ .f32 0x3F800000#32),
    unary main_cst_21 main_v77 (broadcastInDim S16x1x352x352 ![] bcast_S_S16x1x352x352 : (⟨S_, .f32⟩ : BufTy).Contents (Elt F) → (⟨S16x1x352x352, .f32⟩ : BufTy).Contents (Elt F)),
    binary main_v77 main_arg1 main_v78 (subf : (⟨S16x1x352x352, .f32⟩ : BufTy).Contents (Elt F) → (⟨S16x1x352x352, .f32⟩ : BufTy).Contents (Elt F) → (⟨S16x1x352x352, .f32⟩ : BufTy).Contents (Elt F)) ]

/-- Operations 121 to 132. -/
abbrev stage10 : List (HloOp τ sig (Elt F)) :=
  [ unary main_v74 main_v79 (Host.negf : (⟨S16x1x352x352, .f32⟩ : BufTy).Contents (Elt F) → (⟨S16x1x352x352, .f32⟩ : BufTy).Contents (Elt F)),
    unary main_v79 main_v80 (Host.log1p : (⟨S16x1x352x352, .f32⟩ : BufTy).Contents (Elt F) → (⟨S16x1x352x352, .f32⟩ : BufTy).Contents (Elt F)),
    binary main_v78 main_v80 main_v81 (mulf : (⟨S16x1x352x352, .f32⟩ : BufTy).Contents (Elt F) → (⟨S16x1x352x352, .f32⟩ : BufTy).Contents (Elt F) → (⟨S16x1x352x352, .f32⟩ : BufTy).Contents (Elt F)),
    binary main_v76 main_v81 main_v82 (addf : (⟨S16x1x352x352, .f32⟩ : BufTy).Contents (Elt F) → (⟨S16x1x352x352, .f32⟩ : BufTy).Contents (Elt F) → (⟨S16x1x352x352, .f32⟩ : BufTy).Contents (Elt F)),
    nullary main_cst_22 (constant S_ .f32 0x00000000#32),
    binary main_v82 main_cst_22 main_v83 ((fun x v => Host.reduceAdd x v reducesTo_S16x1x352x352_S_d0_1_2_3 h_S_) : (⟨S16x1x352x352, .f32⟩ : BufTy).Contents (Elt F) → (⟨S_, .f32⟩ : BufTy).Contents (Elt F) → (⟨S_, .f32⟩ : BufTy).Contents (Elt F)),
    unary main_v83 main_v84 (Host.negf : (⟨S_, .f32⟩ : BufTy).Contents (Elt F) → (⟨S_, .f32⟩ : BufTy).Contents (Elt F)),
    nullary main_cst_23 (constant S_ .f32 0x33D6BF95#32),
    nullary main_cst_24 (constant S_ .f32 0x3F7FFFFE#32),
    TRef.unary (TRef.of (T := ⟨S_, .f32⟩) main_cst_23) (TRef.of (T := ⟨S_, .f32⟩) main_call13_v0) id,
    TRef.unary (TRef.of (T := ⟨S_, .f32⟩) main_call13_v0) (TRef.of (T := ⟨S16x8x352x352, .f32⟩) main_call13_v1) (broadcastInDim S16x8x352x352 ![] bcast_S_S16x8x352x352),
    TRef.binary (TRef.of (T := ⟨S16x8x352x352, .f32⟩) main_call13_v1) (TRef.of (T := ⟨S16x8x352x352, .f32⟩) main_v5) (TRef.of (T := ⟨S16x8x352x352, .f32⟩) main_call13_v2) maximumf ]

/-- Operations 133 to 144. -/
abbrev stage11 : List (HloOp τ sig (Elt F)) :=
  [ TRef.unary (TRef.of (T := ⟨S_, .f32⟩) main_cst_24) (TRef.of (T := ⟨S_, .f32⟩) main_call13_v3) id,
    TRef.unary (TRef.of (T := ⟨S_, .f32⟩) main_call13_v3) (TRef.of (T := ⟨S16x8x352x352, .f32⟩) main_call13_v4) (broadcastInDim S16x8x352x352 ![] bcast_S_S16x8x352x352),
    TRef.binary (TRef.of (T := ⟨S16x8x352x352, .f32⟩) main_call13_v4) (TRef.of (T := ⟨S16x8x352x352, .f32⟩) main_call13_v2) (TRef.of (T := ⟨S16x8x352x352, .f32⟩) main_v85) minimumf,
    unary main_v85 main_v86 (Host.log : (⟨S16x8x352x352, .f32⟩ : BufTy).Contents (Elt F) → (⟨S16x8x352x352, .f32⟩ : BufTy).Contents (Elt F)),
    binary main_v6 main_v86 main_v87 (mulf : (⟨S16x8x352x352, .f32⟩ : BufTy).Contents (Elt F) → (⟨S16x8x352x352, .f32⟩ : BufTy).Contents (Elt F) → (⟨S16x8x352x352, .f32⟩ : BufTy).Contents (Elt F)),
    nullary main_cst_25 (constant S_ .f32 0x3F800000#32),
    unary main_cst_25 main_v88 (broadcastInDim S16x8x352x352 ![] bcast_S_S16x8x352x352 : (⟨S_, .f32⟩ : BufTy).Contents (Elt F) → (⟨S16x8x352x352, .f32⟩ : BufTy).Contents (Elt F)),
    binary main_v88 main_v6 main_v89 (subf : (⟨S16x8x352x352, .f32⟩ : BufTy).Contents (Elt F) → (⟨S16x8x352x352, .f32⟩ : BufTy).Contents (Elt F) → (⟨S16x8x352x352, .f32⟩ : BufTy).Contents (Elt F)),
    unary main_v85 main_v90 (Host.negf : (⟨S16x8x352x352, .f32⟩ : BufTy).Contents (Elt F) → (⟨S16x8x352x352, .f32⟩ : BufTy).Contents (Elt F)),
    unary main_v90 main_v91 (Host.log1p : (⟨S16x8x352x352, .f32⟩ : BufTy).Contents (Elt F) → (⟨S16x8x352x352, .f32⟩ : BufTy).Contents (Elt F)),
    binary main_v89 main_v91 main_v92 (mulf : (⟨S16x8x352x352, .f32⟩ : BufTy).Contents (Elt F) → (⟨S16x8x352x352, .f32⟩ : BufTy).Contents (Elt F) → (⟨S16x8x352x352, .f32⟩ : BufTy).Contents (Elt F)),
    binary main_v87 main_v92 main_v93 (addf : (⟨S16x8x352x352, .f32⟩ : BufTy).Contents (Elt F) → (⟨S16x8x352x352, .f32⟩ : BufTy).Contents (Elt F) → (⟨S16x8x352x352, .f32⟩ : BufTy).Contents (Elt F)) ]

/-- Operations 145 to 156. -/
abbrev stage12 : List (HloOp τ sig (Elt F)) :=
  [ nullary main_cst_26 (constant S_ .f32 0x00000000#32),
    binary main_v93 main_cst_26 main_v94 ((fun x v => Host.reduceAdd x v reducesTo_S16x8x352x352_S_d0_1_2_3 h_S_) : (⟨S16x8x352x352, .f32⟩ : BufTy).Contents (Elt F) → (⟨S_, .f32⟩ : BufTy).Contents (Elt F) → (⟨S_, .f32⟩ : BufTy).Contents (Elt F)),
    unary main_v94 main_v95 (Host.negf : (⟨S_, .f32⟩ : BufTy).Contents (Elt F) → (⟨S_, .f32⟩ : BufTy).Contents (Elt F)),
    nullary main_cst_27 (constant S_ .f32 0x33D6BF95#32),
    nullary main_cst_28 (constant S_ .f32 0x3F7FFFFE#32),
    TRef.unary (TRef.of (T := ⟨S_, .f32⟩) main_cst_27) (TRef.of (T := ⟨S_, .f32⟩) main_call14_v0) id,
    TRef.unary (TRef.of (T := ⟨S_, .f32⟩) main_call14_v0) (TRef.of (T := ⟨S16x8x352x352, .f32⟩) main_call14_v1) (broadcastInDim S16x8x352x352 ![] bcast_S_S16x8x352x352),
    TRef.binary (TRef.of (T := ⟨S16x8x352x352, .f32⟩) main_call14_v1) (TRef.of (T := ⟨S16x8x352x352, .f32⟩) main_v63) (TRef.of (T := ⟨S16x8x352x352, .f32⟩) main_call14_v2) maximumf,
    TRef.unary (TRef.of (T := ⟨S_, .f32⟩) main_cst_28) (TRef.of (T := ⟨S_, .f32⟩) main_call14_v3) id,
    TRef.unary (TRef.of (T := ⟨S_, .f32⟩) main_call14_v3) (TRef.of (T := ⟨S16x8x352x352, .f32⟩) main_call14_v4) (broadcastInDim S16x8x352x352 ![] bcast_S_S16x8x352x352),
    TRef.binary (TRef.of (T := ⟨S16x8x352x352, .f32⟩) main_call14_v4) (TRef.of (T := ⟨S16x8x352x352, .f32⟩) main_call14_v2) (TRef.of (T := ⟨S16x8x352x352, .f32⟩) main_v96) minimumf,
    unary main_v96 main_v97 (Host.log : (⟨S16x8x352x352, .f32⟩ : BufTy).Contents (Elt F) → (⟨S16x8x352x352, .f32⟩ : BufTy).Contents (Elt F)) ]

/-- Operations 157 to 168. -/
abbrev stage13 : List (HloOp τ sig (Elt F)) :=
  [ binary main_v6 main_v97 main_v98 (mulf : (⟨S16x8x352x352, .f32⟩ : BufTy).Contents (Elt F) → (⟨S16x8x352x352, .f32⟩ : BufTy).Contents (Elt F) → (⟨S16x8x352x352, .f32⟩ : BufTy).Contents (Elt F)),
    nullary main_cst_29 (constant S_ .f32 0x3F800000#32),
    unary main_cst_29 main_v99 (broadcastInDim S16x8x352x352 ![] bcast_S_S16x8x352x352 : (⟨S_, .f32⟩ : BufTy).Contents (Elt F) → (⟨S16x8x352x352, .f32⟩ : BufTy).Contents (Elt F)),
    binary main_v99 main_v6 main_v100 (subf : (⟨S16x8x352x352, .f32⟩ : BufTy).Contents (Elt F) → (⟨S16x8x352x352, .f32⟩ : BufTy).Contents (Elt F) → (⟨S16x8x352x352, .f32⟩ : BufTy).Contents (Elt F)),
    unary main_v96 main_v101 (Host.negf : (⟨S16x8x352x352, .f32⟩ : BufTy).Contents (Elt F) → (⟨S16x8x352x352, .f32⟩ : BufTy).Contents (Elt F)),
    unary main_v101 main_v102 (Host.log1p : (⟨S16x8x352x352, .f32⟩ : BufTy).Contents (Elt F) → (⟨S16x8x352x352, .f32⟩ : BufTy).Contents (Elt F)),
    binary main_v100 main_v102 main_v103 (mulf : (⟨S16x8x352x352, .f32⟩ : BufTy).Contents (Elt F) → (⟨S16x8x352x352, .f32⟩ : BufTy).Contents (Elt F) → (⟨S16x8x352x352, .f32⟩ : BufTy).Contents (Elt F)),
    binary main_v98 main_v103 main_v104 (addf : (⟨S16x8x352x352, .f32⟩ : BufTy).Contents (Elt F) → (⟨S16x8x352x352, .f32⟩ : BufTy).Contents (Elt F) → (⟨S16x8x352x352, .f32⟩ : BufTy).Contents (Elt F)),
    nullary main_cst_30 (constant S_ .f32 0x00000000#32),
    binary main_v104 main_cst_30 main_v105 ((fun x v => Host.reduceAdd x v reducesTo_S16x8x352x352_S_d0_1_2_3 h_S_) : (⟨S16x8x352x352, .f32⟩ : BufTy).Contents (Elt F) → (⟨S_, .f32⟩ : BufTy).Contents (Elt F) → (⟨S_, .f32⟩ : BufTy).Contents (Elt F)),
    unary main_v105 main_v106 (Host.negf : (⟨S_, .f32⟩ : BufTy).Contents (Elt F) → (⟨S_, .f32⟩ : BufTy).Contents (Elt F)),
    nullary main_cst_31 (constant S_ .f32 0x3F4CCCCD#32) ]

/-- Operations 169 to 173. -/
abbrev stage14 : List (HloOp τ sig (Elt F)) :=
  [ binary main_cst_31 main_v95 main_v107 (mulf : (⟨S_, .f32⟩ : BufTy).Contents (Elt F) → (⟨S_, .f32⟩ : BufTy).Contents (Elt F) → (⟨S_, .f32⟩ : BufTy).Contents (Elt F)),
    binary main_v107 main_v84 main_v108 (addf : (⟨S_, .f32⟩ : BufTy).Contents (Elt F) → (⟨S_, .f32⟩ : BufTy).Contents (Elt F) → (⟨S_, .f32⟩ : BufTy).Contents (Elt F)),
    nullary main_cst_32 (constant S_ .f32 0x3E4CCCCD#32),
    binary main_cst_32 main_v106 main_v109 (mulf : (⟨S_, .f32⟩ : BufTy).Contents (Elt F) → (⟨S_, .f32⟩ : BufTy).Contents (Elt F) → (⟨S_, .f32⟩ : BufTy).Contents (Elt F)),
    binary main_v108 main_v109 main_v110 (addf : (⟨S_, .f32⟩ : BufTy).Contents (Elt F) → (⟨S_, .f32⟩ : BufTy).Contents (Elt F) → (⟨S_, .f32⟩ : BufTy).Contents (Elt F)) ]

/-- @main's 173 operations, in order: the stages one after the other. -/
abbrev ops : List (HloOp τ sig (Elt F)) :=
  stage0 ++ stage1 ++ stage2 ++ stage3 ++ stage4 ++ stage5 ++ stage6 ++ stage7 ++ stage8 ++ stage9 ++ stage10 ++ stage11 ++ stage12 ++ stage13 ++ stage14

theorem stage0_sub : (stage0 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., unary_bufs_sub .., nullary_bufs_sub .., binary_bufs_sub .., nullary_bufs_sub ..⟩
theorem stage0_fresh : ∀ op ∈ (stage0 : List (HloOp τ sig (Elt F))), op.fresh = ∅ := by
  intro _ h; (repeat (cases h with | head => rfl | tail _ h => ?_)); exact nomatch h

theorem stage1_sub : (stage1 : List (HloOp τ sig (Elt F))).Forall fun op => op.bufs ⊆ tcRefs τ sig :=
  ⟨unary_bufs_sub .., binary_bufs_sub .., nullary_bufs_sub .., unary_bufs_sub .., binary_bufs_sub .., binary_bufs_sub .., unary_bufs_sub .., unary_bufs_sub .., reshape_bufs_sub .., nullary_bufs_sub .., unary_bufs_sub .., binary_bufs_sub ..⟩
theorem stage1_fresh : ∀ op ∈ (stage1 : List (HloOp τ sig (Elt F))), op.fresh = ∅ := by
  intro _ h; (repeat (cases h with | head => rfl | tail _ h => ?_)); exact nomatch h

theorem stage2_sub : (stage2 : List (HloOp τ sig (Elt F))).Forall fun op => op.bufs ⊆ tcRefs τ sig :=
  ⟨unary_bufs_sub .., nullary_bufs_sub .., unary_bufs_sub .., binary_bufs_sub .., unary_bufs_sub .., unary_bufs_sub .., reshape_bufs_sub .., nullary_bufs_sub .., unary_bufs_sub .., binary_bufs_sub .., unary_bufs_sub .., unary_bufs_sub ..⟩
theorem stage2_fresh : ∀ op ∈ (stage2 : List (HloOp τ sig (Elt F))), op.fresh = ∅ := by
  intro _ h; (repeat (cases h with | head => rfl | tail _ h => ?_)); exact nomatch h

theorem stage3_sub : (stage3 : List (HloOp τ sig (Elt F))).Forall fun op => op.bufs ⊆ tcRefs τ sig :=
  ⟨reshape_bufs_sub .., nullary_bufs_sub .., unary_bufs_sub .., binary_bufs_sub .., unary_bufs_sub .., nullary_bufs_sub .., unary_bufs_sub .., binary_bufs_sub .., unary_bufs_sub .., unary_bufs_sub .., reshape_bufs_sub .., nullary_bufs_sub ..⟩
theorem stage3_fresh : ∀ op ∈ (stage3 : List (HloOp τ sig (Elt F))), op.fresh = ∅ := by
  intro _ h; (repeat (cases h with | head => rfl | tail _ h => ?_)); exact nomatch h

theorem stage4_sub : (stage4 : List (HloOp τ sig (Elt F))).Forall fun op => op.bufs ⊆ tcRefs τ sig :=
  ⟨unary_bufs_sub .., binary_bufs_sub .., unary_bufs_sub .., unary_bufs_sub .., reshape_bufs_sub .., nullary_bufs_sub .., unary_bufs_sub .., binary_bufs_sub .., unary_bufs_sub .., unary_bufs_sub .., reshape_bufs_sub .., nullary_bufs_sub ..⟩
theorem stage4_fresh : ∀ op ∈ (stage4 : List (HloOp τ sig (Elt F))), op.fresh = ∅ := by
  intro _ h; (repeat (cases h with | head => rfl | tail _ h => ?_)); exact nomatch h

theorem stage5_sub : (stage5 : List (HloOp τ sig (Elt F))).Forall fun op => op.bufs ⊆ tcRefs τ sig :=
  ⟨unary_bufs_sub .., binary_bufs_sub .., unary_bufs_sub .., nullary_bufs_sub .., unary_bufs_sub .., binary_bufs_sub .., unary_bufs_sub .., unary_bufs_sub .., reshape_bufs_sub .., nullary_bufs_sub .., unary_bufs_sub .., binary_bufs_sub ..⟩
theorem stage5_fresh : ∀ op ∈ (stage5 : List (HloOp τ sig (Elt F))), op.fresh = ∅ := by
  intro _ h; (repeat (cases h with | head => rfl | tail _ h => ?_)); exact nomatch h

theorem stage6_sub : (stage6 : List (HloOp τ sig (Elt F))).Forall fun op => op.bufs ⊆ tcRefs τ sig :=
  ⟨unary_bufs_sub .., unary_bufs_sub .., reshape_bufs_sub .., nullary_bufs_sub .., unary_bufs_sub .., binary_bufs_sub .., unary_bufs_sub .., nullary_bufs_sub .., unary_bufs_sub .., binary_bufs_sub .., unary_bufs_sub .., unary_bufs_sub ..⟩
theorem stage6_fresh : ∀ op ∈ (stage6 : List (HloOp τ sig (Elt F))), op.fresh = ∅ := by
  intro _ h; (repeat (cases h with | head => rfl | tail _ h => ?_)); exact nomatch h

theorem stage7_sub : (stage7 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., nary_bufs_sub .., binary_bufs_sub .., nullary_bufs_sub .., binary_bufs_sub .., nullary_bufs_sub ..⟩
theorem stage7_fresh : ∀ op ∈ (stage7 : List (HloOp τ sig (Elt F))), op.fresh = ∅ := by
  intro _ h; (repeat (cases h with | head => rfl | tail _ h => ?_)); exact nomatch h

theorem stage8_sub : (stage8 : List (HloOp τ sig (Elt F))).Forall fun op => op.bufs ⊆ tcRefs τ sig :=
  ⟨binary_bufs_sub .., nullary_bufs_sub .., unary_bufs_sub .., binary_bufs_sub .., binary_bufs_sub .., nullary_bufs_sub .., unary_bufs_sub .., binary_bufs_sub .., binary_bufs_sub .., binary_bufs_sub .., unary_bufs_sub .., nullary_bufs_sub ..⟩
theorem stage8_fresh : ∀ op ∈ (stage8 : List (HloOp τ sig (Elt F))), op.fresh = ∅ := by
  intro _ h; (repeat (cases h with | head => rfl | tail _ h => ?_)); exact nomatch h

theorem stage9_sub : (stage9 : List (HloOp τ sig (Elt F))).Forall fun op => op.bufs ⊆ tcRefs τ sig :=
  ⟨nullary_bufs_sub .., unary_bufs_sub .., unary_bufs_sub .., binary_bufs_sub .., unary_bufs_sub .., unary_bufs_sub .., binary_bufs_sub .., unary_bufs_sub .., binary_bufs_sub .., nullary_bufs_sub .., unary_bufs_sub .., binary_bufs_sub ..⟩
theorem stage9_fresh : ∀ op ∈ (stage9 : List (HloOp τ sig (Elt F))), op.fresh = ∅ := by
  intro _ h; (repeat (cases h with | head => rfl | tail _ h => ?_)); exact nomatch h

theorem stage10_sub : (stage10 : List (HloOp τ sig (Elt F))).Forall fun op => op.bufs ⊆ tcRefs τ sig :=
  ⟨unary_bufs_sub .., unary_bufs_sub .., binary_bufs_sub .., binary_bufs_sub .., nullary_bufs_sub .., binary_bufs_sub .., unary_bufs_sub .., nullary_bufs_sub .., nullary_bufs_sub .., unary_bufs_sub .., unary_bufs_sub .., binary_bufs_sub ..⟩
theorem stage10_fresh : ∀ op ∈ (stage10 : List (HloOp τ sig (Elt F))), op.fresh = ∅ := by
  intro _ h; (repeat (cases h with | head => rfl | tail _ h => ?_)); exact nomatch h

theorem stage11_sub : (stage11 : List (HloOp τ sig (Elt F))).Forall fun op => op.bufs ⊆ tcRefs τ sig :=
  ⟨unary_bufs_sub .., unary_bufs_sub .., binary_bufs_sub .., unary_bufs_sub .., binary_bufs_sub .., nullary_bufs_sub .., unary_bufs_sub .., binary_bufs_sub .., unary_bufs_sub .., unary_bufs_sub .., binary_bufs_sub .., binary_bufs_sub ..⟩
theorem stage11_fresh : ∀ op ∈ (stage11 : List (HloOp τ sig (Elt F))), op.fresh = ∅ := by
  intro _ h; (repeat (cases h with | head => rfl | tail _ h => ?_)); exact nomatch h

theorem stage12_sub : (stage12 : List (HloOp τ sig (Elt F))).Forall fun op => op.bufs ⊆ tcRefs τ sig :=
  ⟨nullary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub ..⟩
theorem stage12_fresh : ∀ op ∈ (stage12 : List (HloOp τ sig (Elt F))), op.fresh = ∅ := by
  intro _ h; (repeat (cases h with | head => rfl | tail _ h => ?_)); exact nomatch h

theorem stage13_sub : (stage13 : List (HloOp τ sig (Elt F))).Forall fun op => op.bufs ⊆ tcRefs τ sig :=
  ⟨binary_bufs_sub .., nullary_bufs_sub .., unary_bufs_sub .., binary_bufs_sub .., unary_bufs_sub .., unary_bufs_sub .., binary_bufs_sub .., binary_bufs_sub .., nullary_bufs_sub .., binary_bufs_sub .., unary_bufs_sub .., nullary_bufs_sub ..⟩
theorem stage13_fresh : ∀ op ∈ (stage13 : List (HloOp τ sig (Elt F))), op.fresh = ∅ := by
  intro _ h; (repeat (cases h with | head => rfl | tail _ h => ?_)); exact nomatch h

theorem stage14_sub : (stage14 : List (HloOp τ sig (Elt F))).Forall fun op => op.bufs ⊆ tcRefs τ sig :=
  ⟨binary_bufs_sub .., binary_bufs_sub .., nullary_bufs_sub .., binary_bufs_sub .., binary_bufs_sub ..⟩
theorem stage14_fresh : ∀ op ∈ (stage14 : List (HloOp τ sig (Elt F))), op.fresh = ∅ := by
  intro _ h; (repeat (cases h with | head => rfl | tail _ h => ?_)); exact nomatch h

set_option maxHeartbeats 4000000 in
/-- After stage 0: its live results at their values, the live earlier ones kept. -/
theorem stage0_spec (W : Valuation τ sig (Elt F)) (x0 : (⟨S16x8x352x352, .f32⟩ : BufTy).Contents (Elt F)) (x1 : (⟨S16x1x352x352, .f32⟩ : BufTy).Contents (Elt F)) (x2 : (⟨S16x8x352x352, .i32⟩ : BufTy).Contents (Elt F))
    (h_arg0 : W (Proc.devRef .tc main_arg0) = x0)
    (h_arg2 : W (Proc.devRef .tc main_arg2) = x2)
    (h_arg1 : W (Proc.devRef .tc main_arg1) = x1) :
    (after stage0 W (Proc.devRef .tc main_arg1) = x1)
    ∧ (after stage0 W (Proc.devRef .tc main_v5) = val_main_v5 (F := F) x0)
    ∧ (after stage0 W (Proc.devRef .tc main_v6) = val_main_v6 (F := F) x2)
    ∧ (after stage0 W (Proc.devRef .tc main_v7) = val_main_v7 (F := F) x2)
    ∧ (after stage0 W (Proc.devRef .tc main_cst_2) = val_main_cst_2 (F := F)) := by
  refine ⟨?_, ?_, ?_, ?_, ?_⟩
  · after_results_simp
    exact h_arg1
  · after_results_simp
    rw [h_arg0]
    rfl
  · after_results_simp
    rw [h_arg2]
    rfl
  · after_results_simp
    rw [h_arg2]
    rfl
  · after_results_simp
    rfl

set_option maxHeartbeats 4000000 in
/-- After stage 1: its live results at their values, the live earlier ones kept. -/
theorem stage1_spec (W : Valuation τ sig (Elt F)) (x0 : (⟨S16x8x352x352, .f32⟩ : BufTy).Contents (Elt F)) (x1 : (⟨S16x1x352x352, .f32⟩ : BufTy).Contents (Elt F)) (x2 : (⟨S16x8x352x352, .i32⟩ : BufTy).Contents (Elt F))
    (h_cst_2 : W (Proc.devRef .tc main_cst_2) = val_main_cst_2 (F := F))
    (h_v7 : W (Proc.devRef .tc main_v7) = val_main_v7 (F := F) x2)
    (h_v5 : W (Proc.devRef .tc main_v5) = val_main_v5 (F := F) x0)
    (h_arg1 : W (Proc.devRef .tc main_arg1) = x1)
    (h_v6 : W (Proc.devRef .tc main_v6) = val_main_v6 (F := F) x2) :
    (after stage1 W (Proc.devRef .tc main_arg1) = x1)
    ∧ (after stage1 W (Proc.devRef .tc main_v5) = val_main_v5 (F := F) x0)
    ∧ (after stage1 W (Proc.devRef .tc main_v6) = val_main_v6 (F := F) x2)
    ∧ (after stage1 W (Proc.devRef .tc main_v13) = val_main_v13 (F := F) x2)
    ∧ (after stage1 W (Proc.devRef .tc main_v16) = val_main_v16 (F := F) x0) := by
  refine ⟨?_, ?_, ?_, ?_, ?_⟩
  · after_results_simp
    exact h_arg1
  · after_results_simp
    exact h_v5
  · after_results_simp
    exact h_v6
  · after_results_simp
    rw [h_v7, h_cst_2]
    rfl
  · after_results_simp
    rw [h_v5]
    rfl

set_option maxHeartbeats 4000000 in
/-- After stage 2: its live results at their values, the live earlier ones kept. -/
theorem stage2_spec (W : Valuation τ sig (Elt F)) (x0 : (⟨S16x8x352x352, .f32⟩ : BufTy).Contents (Elt F)) (x1 : (⟨S16x1x352x352, .f32⟩ : BufTy).Contents (Elt F)) (x2 : (⟨S16x8x352x352, .i32⟩ : BufTy).Contents (Elt F))
    (h_v16 : W (Proc.devRef .tc main_v16) = val_main_v16 (F := F) x0)
    (h_v5 : W (Proc.devRef .tc main_v5) = val_main_v5 (F := F) x0)
    (h_arg1 : W (Proc.devRef .tc main_arg1) = x1)
    (h_v6 : W (Proc.devRef .tc main_v6) = val_main_v6 (F := F) x2)
    (h_v13 : W (Proc.devRef .tc main_v13) = val_main_v13 (F := F) x2) :
    (after stage2 W (Proc.devRef .tc main_arg1) = x1)
    ∧ (after stage2 W (Proc.devRef .tc main_v5) = val_main_v5 (F := F) x0)
    ∧ (after stage2 W (Proc.devRef .tc main_v6) = val_main_v6 (F := F) x2)
    ∧ (after stage2 W (Proc.devRef .tc main_v13) = val_main_v13 (F := F) x2)
    ∧ (after stage2 W (Proc.devRef .tc main_v19) = val_main_v19 (F := F) x0)
    ∧ (after stage2 W (Proc.devRef .tc main_v23) = val_main_v23 (F := F) x0)
    ∧ (after stage2 W (Proc.devRef .tc main_v24) = val_main_v24 (F := F) x0) := by
  refine ⟨?_, ?_, ?_, ?_, ?_, ?_, ?_⟩
  · after_results_simp
    exact h_arg1
  · after_results_simp
    exact h_v5
  · after_results_simp
    exact h_v6
  · after_results_simp
    exact h_v13
  · after_results_simp
    rw [h_v16]
    rfl
  · after_results_simp
    rw [h_v5]
    rfl
  · after_results_simp
    rw [h_v5]
    rfl

set_option maxHeartbeats 4000000 in
/-- After stage 3: its live results at their values, the live earlier ones kept. -/
theorem stage3_spec (W : Valuation τ sig (Elt F)) (x0 : (⟨S16x8x352x352, .f32⟩ : BufTy).Contents (Elt F)) (x1 : (⟨S16x1x352x352, .f32⟩ : BufTy).Contents (Elt F)) (x2 : (⟨S16x8x352x352, .i32⟩ : BufTy).Contents (Elt F))
    (h_v24 : W (Proc.devRef .tc main_v24) = val_main_v24 (F := F) x0)
    (h_v5 : W (Proc.devRef .tc main_v5) = val_main_v5 (F := F) x0)
    (h_arg1 : W (Proc.devRef .tc main_arg1) = x1)
    (h_v6 : W (Proc.devRef .tc main_v6) = val_main_v6 (F := F) x2)
    (h_v13 : W (Proc.devRef .tc main_v13) = val_main_v13 (F := F) x2)
    (h_v19 : W (Proc.devRef .tc main_v19) = val_main_v19 (F := F) x0)
    (h_v23 : W (Proc.devRef .tc main_v23) = val_main_v23 (F := F) x0) :
    (after stage3 W (Proc.devRef .tc main_arg1) = x1)
    ∧ (after stage3 W (Proc.devRef .tc main_v5) = val_main_v5 (F := F) x0)
    ∧ (after stage3 W (Proc.devRef .tc main_v6) = val_main_v6 (F := F) x2)
    ∧ (after stage3 W (Proc.devRef .tc main_v13) = val_main_v13 (F := F) x2)
    ∧ (after stage3 W (Proc.devRef .tc main_v19) = val_main_v19 (F := F) x0)
    ∧ (after stage3 W (Proc.devRef .tc main_v23) = val_main_v23 (F := F) x0)
    ∧ (after stage3 W (Proc.devRef .tc main_v29) = val_main_v29 (F := F) x0)
    ∧ (after stage3 W (Proc.devRef .tc main_v31) = val_main_v31 (F := F) x0)
    ∧ (after stage3 W (Proc.devRef .tc main_c_8) = val_main_c_8 (F := F)) := by
  refine ⟨?_, ?_, ?_, ?_, ?_, ?_, ?_, ?_, ?_⟩
  · after_results_simp
    exact h_arg1
  · after_results_simp
    exact h_v5
  · after_results_simp
    exact h_v6
  · after_results_simp
    exact h_v13
  · after_results_simp
    exact h_v19
  · after_results_simp
    exact h_v23
  · after_results_simp
    rw [h_v24]
    rfl
  · after_results_simp
    rw [h_v5]
    rfl
  · after_results_simp
    rfl

set_option maxHeartbeats 4000000 in
/-- After stage 4: its live results at their values, the live earlier ones kept. -/
theorem stage4_spec (W : Valuation τ sig (Elt F)) (x0 : (⟨S16x8x352x352, .f32⟩ : BufTy).Contents (Elt F)) (x1 : (⟨S16x1x352x352, .f32⟩ : BufTy).Contents (Elt F)) (x2 : (⟨S16x8x352x352, .i32⟩ : BufTy).Contents (Elt F))
    (h_c_8 : W (Proc.devRef .tc main_c_8) = val_main_c_8 (F := F))
    (h_v31 : W (Proc.devRef .tc main_v31) = val_main_v31 (F := F) x0)
    (h_v5 : W (Proc.devRef .tc main_v5) = val_main_v5 (F := F) x0)
    (h_arg1 : W (Proc.devRef .tc main_arg1) = x1)
    (h_v6 : W (Proc.devRef .tc main_v6) = val_main_v6 (F := F) x2)
    (h_v13 : W (Proc.devRef .tc main_v13) = val_main_v13 (F := F) x2)
    (h_v19 : W (Proc.devRef .tc main_v19) = val_main_v19 (F := F) x0)
    (h_v23 : W (Proc.devRef .tc main_v23) = val_main_v23 (F := F) x0)
    (h_v29 : W (Proc.devRef .tc main_v29) = val_main_v29 (F := F) x0) :
    (after stage4 W (Proc.devRef .tc main_arg1) = x1)
    ∧ (after stage4 W (Proc.devRef .tc main_v5) = val_main_v5 (F := F) x0)
    ∧ (after stage4 W (Proc.devRef .tc main_v6) = val_main_v6 (F := F) x2)
    ∧ (after stage4 W (Proc.devRef .tc main_v13) = val_main_v13 (F := F) x2)
    ∧ (after stage4 W (Proc.devRef .tc main_v19) = val_main_v19 (F := F) x0)
    ∧ (after stage4 W (Proc.devRef .tc main_v23) = val_main_v23 (F := F) x0)
    ∧ (after stage4 W (Proc.devRef .tc main_v29) = val_main_v29 (F := F) x0)
    ∧ (after stage4 W (Proc.devRef .tc main_v33) = val_main_v33 (F := F) x0)
    ∧ (after stage4 W (Proc.devRef .tc main_v37) = val_main_v37 (F := F) x0)
    ∧ (after stage4 W (Proc.devRef .tc main_v39) = val_main_v39 (F := F) x0)
    ∧ (after stage4 W (Proc.devRef .tc main_c_10) = val_main_c_10 (F := F)) := by
  refine ⟨?_, ?_, ?_, ?_, ?_, ?_, ?_, ?_, ?_, ?_, ?_⟩
  · after_results_simp
    exact h_arg1
  · after_results_simp
    exact h_v5
  · after_results_simp
    exact h_v6
  · after_results_simp
    exact h_v13
  · after_results_simp
    exact h_v19
  · after_results_simp
    exact h_v23
  · after_results_simp
    exact h_v29
  · after_results_simp
    rw [h_v31, h_c_8]
    rfl
  · after_results_simp
    rw [h_v5]
    rfl
  · after_results_simp
    rw [h_v5]
    rfl
  · after_results_simp
    rfl

set_option maxHeartbeats 4000000 in
/-- After stage 5: its live results at their values, the live earlier ones kept. -/
theorem stage5_spec (W : Valuation τ sig (Elt F)) (x0 : (⟨S16x8x352x352, .f32⟩ : BufTy).Contents (Elt F)) (x1 : (⟨S16x1x352x352, .f32⟩ : BufTy).Contents (Elt F)) (x2 : (⟨S16x8x352x352, .i32⟩ : BufTy).Contents (Elt F))
    (h_c_10 : W (Proc.devRef .tc main_c_10) = val_main_c_10 (F := F))
    (h_v39 : W (Proc.devRef .tc main_v39) = val_main_v39 (F := F) x0)
    (h_v5 : W (Proc.devRef .tc main_v5) = val_main_v5 (F := F) x0)
    (h_arg1 : W (Proc.devRef .tc main_arg1) = x1)
    (h_v6 : W (Proc.devRef .tc main_v6) = val_main_v6 (F := F) x2)
    (h_v13 : W (Proc.devRef .tc main_v13) = val_main_v13 (F := F) x2)
    (h_v19 : W (Proc.devRef .tc main_v19) = val_main_v19 (F := F) x0)
    (h_v23 : W (Proc.devRef .tc main_v23) = val_main_v23 (F := F) x0)
    (h_v29 : W (Proc.devRef .tc main_v29) = val_main_v29 (F := F) x0)
    (h_v33 : W (Proc.devRef .tc main_v33) = val_main_v33 (F := F) x0)
    (h_v37 : W (Proc.devRef .tc main_v37) = val_main_v37 (F := F) x0) :
    (after stage5 W (Proc.devRef .tc main_arg1) = x1)
    ∧ (after stage5 W (Proc.devRef .tc main_v5) = val_main_v5 (F := F) x0)
    ∧ (after stage5 W (Proc.devRef .tc main_v6) = val_main_v6 (F := F) x2)
    ∧ (after stage5 W (Proc.devRef .tc main_v13) = val_main_v13 (F := F) x2)
    ∧ (after stage5 W (Proc.devRef .tc main_v19) = val_main_v19 (F := F) x0)
    ∧ (after stage5 W (Proc.devRef .tc main_v23) = val_main_v23 (F := F) x0)
    ∧ (after stage5 W (Proc.devRef .tc main_v29) = val_main_v29 (F := F) x0)
    ∧ (after stage5 W (Proc.devRef .tc main_v33) = val_main_v33 (F := F) x0)
    ∧ (after stage5 W (Proc.devRef .tc main_v37) = val_main_v37 (F := F) x0)
    ∧ (after stage5 W (Proc.devRef .tc main_v43) = val_main_v43 (F := F) x0)
    ∧ (after stage5 W (Proc.devRef .tc main_v46) = val_main_v46 (F := F) x0) := by
  refine ⟨?_, ?_, ?_, ?_, ?_, ?_, ?_, ?_, ?_, ?_, ?_⟩
  · after_results_simp
    exact h_arg1
  · after_results_simp
    exact h_v5
  · after_results_simp
    exact h_v6
  · after_results_simp
    exact h_v13
  · after_results_simp
    exact h_v19
  · after_results_simp
    exact h_v23
  · after_results_simp
    exact h_v29
  · after_results_simp
    exact h_v33
  · after_results_simp
    exact h_v37
  · after_results_simp
    rw [h_v39, h_c_10]
    rfl
  · after_results_simp
    rw [h_v5]
    rfl

set_option maxHeartbeats 4000000 in
/-- After stage 6: its live results at their values, the live earlier ones kept. -/
theorem stage6_spec (W : Valuation τ sig (Elt F)) (x0 : (⟨S16x8x352x352, .f32⟩ : BufTy).Contents (Elt F)) (x1 : (⟨S16x1x352x352, .f32⟩ : BufTy).Contents (Elt F)) (x2 : (⟨S16x8x352x352, .i32⟩ : BufTy).Contents (Elt F))
    (h_v46 : W (Proc.devRef .tc main_v46) = val_main_v46 (F := F) x0)
    (h_v5 : W (Proc.devRef .tc main_v5) = val_main_v5 (F := F) x0)
    (h_v19 : W (Proc.devRef .tc main_v19) = val_main_v19 (F := F) x0)
    (h_arg1 : W (Proc.devRef .tc main_arg1) = x1)
    (h_v6 : W (Proc.devRef .tc main_v6) = val_main_v6 (F := F) x2)
    (h_v13 : W (Proc.devRef .tc main_v13) = val_main_v13 (F := F) x2)
    (h_v23 : W (Proc.devRef .tc main_v23) = val_main_v23 (F := F) x0)
    (h_v29 : W (Proc.devRef .tc main_v29) = val_main_v29 (F := F) x0)
    (h_v33 : W (Proc.devRef .tc main_v33) = val_main_v33 (F := F) x0)
    (h_v37 : W (Proc.devRef .tc main_v37) = val_main_v37 (F := F) x0)
    (h_v43 : W (Proc.devRef .tc main_v43) = val_main_v43 (F := F) x0) :
    (after stage6 W (Proc.devRef .tc main_arg1) = x1)
    ∧ (after stage6 W (Proc.devRef .tc main_v5) = val_main_v5 (F := F) x0)
    ∧ (after stage6 W (Proc.devRef .tc main_v6) = val_main_v6 (F := F) x2)
    ∧ (after stage6 W (Proc.devRef .tc main_v13) = val_main_v13 (F := F) x2)
    ∧ (after stage6 W (Proc.devRef .tc main_v23) = val_main_v23 (F := F) x0)
    ∧ (after stage6 W (Proc.devRef .tc main_v29) = val_main_v29 (F := F) x0)
    ∧ (after stage6 W (Proc.devRef .tc main_v33) = val_main_v33 (F := F) x0)
    ∧ (after stage6 W (Proc.devRef .tc main_v37) = val_main_v37 (F := F) x0)
    ∧ (after stage6 W (Proc.devRef .tc main_v43) = val_main_v43 (F := F) x0)
    ∧ (after stage6 W (Proc.devRef .tc main_v47) = val_main_v47 (F := F) x0)
    ∧ (after stage6 W (Proc.devRef .tc main_v53) = val_main_v53 (F := F) x0)
    ∧ (after stage6 W (Proc.devRef .tc main_v54) = val_main_v54 (F := F) x0) := by
  refine ⟨?_, ?_, ?_, ?_, ?_, ?_, ?_, ?_, ?_, ?_, ?_, ?_⟩
  · after_results_simp
    exact h_arg1
  · after_results_simp
    exact h_v5
  · after_results_simp
    exact h_v6
  · after_results_simp
    exact h_v13
  · after_results_simp
    exact h_v23
  · after_results_simp
    exact h_v29
  · after_results_simp
    exact h_v33
  · after_results_simp
    exact h_v37
  · after_results_simp
    exact h_v43
  · after_results_simp
    rw [h_v46]
    rfl
  · after_results_simp
    rw [h_v5]
    rfl
  · after_results_simp
    rw [h_v19]
    rfl

set_option maxHeartbeats 4000000 in
/-- After stage 7: its live results at their values, the live earlier ones kept. -/
theorem stage7_spec (W : Valuation τ sig (Elt F)) (x0 : (⟨S16x8x352x352, .f32⟩ : BufTy).Contents (Elt F)) (x1 : (⟨S16x1x352x352, .f32⟩ : BufTy).Contents (Elt F)) (x2 : (⟨S16x8x352x352, .i32⟩ : BufTy).Contents (Elt F))
    (h_v23 : W (Proc.devRef .tc main_v23) = val_main_v23 (F := F) x0)
    (h_v29 : W (Proc.devRef .tc main_v29) = val_main_v29 (F := F) x0)
    (h_v33 : W (Proc.devRef .tc main_v33) = val_main_v33 (F := F) x0)
    (h_v37 : W (Proc.devRef .tc main_v37) = val_main_v37 (F := F) x0)
    (h_v43 : W (Proc.devRef .tc main_v43) = val_main_v43 (F := F) x0)
    (h_v47 : W (Proc.devRef .tc main_v47) = val_main_v47 (F := F) x0)
    (h_v53 : W (Proc.devRef .tc main_v53) = val_main_v53 (F := F) x0)
    (h_v54 : W (Proc.devRef .tc main_v54) = val_main_v54 (F := F) x0)
    (h_v5 : W (Proc.devRef .tc main_v5) = val_main_v5 (F := F) x0)
    (h_arg1 : W (Proc.devRef .tc main_arg1) = x1)
    (h_v6 : W (Proc.devRef .tc main_v6) = val_main_v6 (F := F) x2)
    (h_v13 : W (Proc.devRef .tc main_v13) = val_main_v13 (F := F) x2) :
    (after stage7 W (Proc.devRef .tc main_arg1) = x1)
    ∧ (after stage7 W (Proc.devRef .tc main_v5) = val_main_v5 (F := F) x0)
    ∧ (after stage7 W (Proc.devRef .tc main_v6) = val_main_v6 (F := F) x2)
    ∧ (after stage7 W (Proc.devRef .tc main_v13) = val_main_v13 (F := F) x2)
    ∧ (after stage7 W (Proc.devRef .tc main_v63) = val_main_v63 (F := F) x0)
    ∧ (after stage7 W (Proc.devRef .tc main_v64) = val_main_v64 (F := F) x0)
    ∧ (after stage7 W (Proc.devRef .tc main_cst_16) = val_main_cst_16 (F := F)) := by
  refine ⟨?_, ?_, ?_, ?_, ?_, ?_, ?_⟩
  · after_results_simp
    exact h_arg1
  · after_results_simp
    exact h_v5
  · after_results_simp
    exact h_v6
  · after_results_simp
    exact h_v13
  · after_results_simp8
    results_rw
    rw [h_v5, h_v54, h_v23, h_v29, h_v33, h_v37, h_v43, h_v47, h_v53]
    rfl
  · after_results_simp8
    results_rw
    rw [h_v5, h_v54, h_v23, h_v29, h_v33, h_v37, h_v43, h_v47, h_v53]
    rfl
  · after_results_simp8
    results_rw
    rfl

set_option maxHeartbeats 4000000 in
/-- After stage 8: its live results at their values, the live earlier ones kept. -/
theorem stage8_spec (W : Valuation τ sig (Elt F)) (x0 : (⟨S16x8x352x352, .f32⟩ : BufTy).Contents (Elt F)) (x1 : (⟨S16x1x352x352, .f32⟩ : BufTy).Contents (Elt F)) (x2 : (⟨S16x8x352x352, .i32⟩ : BufTy).Contents (Elt F))
    (h_v63 : W (Proc.devRef .tc main_v63) = val_main_v63 (F := F) x0)
    (h_cst_16 : W (Proc.devRef .tc main_cst_16) = val_main_cst_16 (F := F))
    (h_v13 : W (Proc.devRef .tc main_v13) = val_main_v13 (F := F) x2)
    (h_v64 : W (Proc.devRef .tc main_v64) = val_main_v64 (F := F) x0)
    (h_arg1 : W (Proc.devRef .tc main_arg1) = x1)
    (h_v5 : W (Proc.devRef .tc main_v5) = val_main_v5 (F := F) x0)
    (h_v6 : W (Proc.devRef .tc main_v6) = val_main_v6 (F := F) x2) :
    (after stage8 W (Proc.devRef .tc main_arg1) = x1)
    ∧ (after stage8 W (Proc.devRef .tc main_v5) = val_main_v5 (F := F) x0)
    ∧ (after stage8 W (Proc.devRef .tc main_v6) = val_main_v6 (F := F) x2)
    ∧ (after stage8 W (Proc.devRef .tc main_v63) = val_main_v63 (F := F) x0)
    ∧ (after stage8 W (Proc.devRef .tc main_v73) = val_main_v73 (F := F) x0 x2)
    ∧ (after stage8 W (Proc.devRef .tc main_cst_19) = val_main_cst_19 (F := F)) := by
  refine ⟨?_, ?_, ?_, ?_, ?_, ?_⟩
  · after_results_simp
    exact h_arg1
  · after_results_simp
    exact h_v5
  · after_results_simp
    exact h_v6
  · after_results_simp
    exact h_v63
  · after_results_simp
    rw [h_v64, h_v13, h_v63, h_cst_16]
    rfl
  · after_results_simp
    rfl

set_option maxHeartbeats 4000000 in
/-- After stage 9: its live results at their values, the live earlier ones kept. -/
theorem stage9_spec (W : Valuation τ sig (Elt F)) (x0 : (⟨S16x8x352x352, .f32⟩ : BufTy).Contents (Elt F)) (x1 : (⟨S16x1x352x352, .f32⟩ : BufTy).Contents (Elt F)) (x2 : (⟨S16x8x352x352, .i32⟩ : BufTy).Contents (Elt F))
    (h_cst_19 : W (Proc.devRef .tc main_cst_19) = val_main_cst_19 (F := F))
    (h_v73 : W (Proc.devRef .tc main_v73) = val_main_v73 (F := F) x0 x2)
    (h_arg1 : W (Proc.devRef .tc main_arg1) = x1)
    (h_v5 : W (Proc.devRef .tc main_v5) = val_main_v5 (F := F) x0)
    (h_v6 : W (Proc.devRef .tc main_v6) = val_main_v6 (F := F) x2)
    (h_v63 : W (Proc.devRef .tc main_v63) = val_main_v63 (F := F) x0) :
    (after stage9 W (Proc.devRef .tc main_v5) = val_main_v5 (F := F) x0)
    ∧ (after stage9 W (Proc.devRef .tc main_v6) = val_main_v6 (F := F) x2)
    ∧ (after stage9 W (Proc.devRef .tc main_v63) = val_main_v63 (F := F) x0)
    ∧ (after stage9 W (Proc.devRef .tc main_v74) = val_main_v74 (F := F) x0 x2)
    ∧ (after stage9 W (Proc.devRef .tc main_v76) = val_main_v76 (F := F) x0 x1 x2)
    ∧ (after stage9 W (Proc.devRef .tc main_v78) = val_main_v78 (F := F) x1) := by
  refine ⟨?_, ?_, ?_, ?_, ?_, ?_⟩
  · after_results_simp
    exact h_v5
  · after_results_simp
    exact h_v6
  · after_results_simp
    exact h_v63
  · after_results_simp
    rw [h_cst_19, h_v73]
    rfl
  · after_results_simp
    rw [h_arg1, h_cst_19, h_v73]
    rfl
  · after_results_simp
    rw [h_arg1]
    rfl

set_option maxHeartbeats 4000000 in
/-- After stage 10: its live results at their values, the live earlier ones kept. -/
theorem stage10_spec (W : Valuation τ sig (Elt F)) (x0 : (⟨S16x8x352x352, .f32⟩ : BufTy).Contents (Elt F)) (x1 : (⟨S16x1x352x352, .f32⟩ : BufTy).Contents (Elt F)) (x2 : (⟨S16x8x352x352, .i32⟩ : BufTy).Contents (Elt F))
    (h_v74 : W (Proc.devRef .tc main_v74) = val_main_v74 (F := F) x0 x2)
    (h_v78 : W (Proc.devRef .tc main_v78) = val_main_v78 (F := F) x1)
    (h_v76 : W (Proc.devRef .tc main_v76) = val_main_v76 (F := F) x0 x1 x2)
    (h_v5 : W (Proc.devRef .tc main_v5) = val_main_v5 (F := F) x0)
    (h_v6 : W (Proc.devRef .tc main_v6) = val_main_v6 (F := F) x2)
    (h_v63 : W (Proc.devRef .tc main_v63) = val_main_v63 (F := F) x0) :
    (after stage10 W (Proc.devRef .tc main_v6) = val_main_v6 (F := F) x2)
    ∧ (after stage10 W (Proc.devRef .tc main_v63) = val_main_v63 (F := F) x0)
    ∧ (after stage10 W (Proc.devRef .tc main_v84) = val_main_v84 (F := F) x0 x1 x2)
    ∧ (after stage10 W (Proc.devRef .tc main_cst_24) = val_main_cst_24 (F := F))
    ∧ (after stage10 W (Proc.devRef .tc main_call13_v2) = val_main_call13_v2 (F := F) x0) := by
  refine ⟨?_, ?_, ?_, ?_, ?_⟩
  · after_results_simp
    exact h_v6
  · after_results_simp
    exact h_v63
  · after_results_simp
    rw [h_v76, h_v78, h_v74]
    rfl
  · after_results_simp
    rfl
  · after_results_simp
    rw [h_v5]
    rfl

set_option maxHeartbeats 4000000 in
/-- After stage 11: its live results at their values, the live earlier ones kept. -/
theorem stage11_spec (W : Valuation τ sig (Elt F)) (x0 : (⟨S16x8x352x352, .f32⟩ : BufTy).Contents (Elt F)) (x1 : (⟨S16x1x352x352, .f32⟩ : BufTy).Contents (Elt F)) (x2 : (⟨S16x8x352x352, .i32⟩ : BufTy).Contents (Elt F))
    (h_cst_24 : W (Proc.devRef .tc main_cst_24) = val_main_cst_24 (F := F))
    (h_call13_v2 : W (Proc.devRef .tc main_call13_v2) = val_main_call13_v2 (F := F) x0)
    (h_v6 : W (Proc.devRef .tc main_v6) = val_main_v6 (F := F) x2)
    (h_v63 : W (Proc.devRef .tc main_v63) = val_main_v63 (F := F) x0)
    (h_v84 : W (Proc.devRef .tc main_v84) = val_main_v84 (F := F) x0 x1 x2) :
    (after stage11 W (Proc.devRef .tc main_v6) = val_main_v6 (F := F) x2)
    ∧ (after stage11 W (Proc.devRef .tc main_v63) = val_main_v63 (F := F) x0)
    ∧ (after stage11 W (Proc.devRef .tc main_v84) = val_main_v84 (F := F) x0 x1 x2)
    ∧ (after stage11 W (Proc.devRef .tc main_v93) = val_main_v93 (F := F) x0 x2) := by
  refine ⟨?_, ?_, ?_, ?_⟩
  · after_results_simp
    exact h_v6
  · after_results_simp
    exact h_v63
  · after_results_simp
    exact h_v84
  · after_results_simp
    rw [h_v6, h_cst_24, h_call13_v2]
    rfl

set_option maxHeartbeats 4000000 in
/-- After stage 12: its live results at their values, the live earlier ones kept. -/
theorem stage12_spec (W : Valuation τ sig (Elt F)) (x0 : (⟨S16x8x352x352, .f32⟩ : BufTy).Contents (Elt F)) (x1 : (⟨S16x1x352x352, .f32⟩ : BufTy).Contents (Elt F)) (x2 : (⟨S16x8x352x352, .i32⟩ : BufTy).Contents (Elt F))
    (h_v93 : W (Proc.devRef .tc main_v93) = val_main_v93 (F := F) x0 x2)
    (h_v63 : W (Proc.devRef .tc main_v63) = val_main_v63 (F := F) x0)
    (h_v6 : W (Proc.devRef .tc main_v6) = val_main_v6 (F := F) x2)
    (h_v84 : W (Proc.devRef .tc main_v84) = val_main_v84 (F := F) x0 x1 x2) :
    (after stage12 W (Proc.devRef .tc main_v6) = val_main_v6 (F := F) x2)
    ∧ (after stage12 W (Proc.devRef .tc main_v84) = val_main_v84 (F := F) x0 x1 x2)
    ∧ (after stage12 W (Proc.devRef .tc main_v95) = val_main_v95 (F := F) x0 x2)
    ∧ (after stage12 W (Proc.devRef .tc main_v96) = val_main_v96 (F := F) x0)
    ∧ (after stage12 W (Proc.devRef .tc main_v97) = val_main_v97 (F := F) x0) := by
  refine ⟨?_, ?_, ?_, ?_, ?_⟩
  · after_results_simp
    exact h_v6
  · after_results_simp
    exact h_v84
  · after_results_simp
    rw [h_v93]
    rfl
  · after_results_simp
    rw [h_v63]
    rfl
  · after_results_simp
    rw [h_v63]
    rfl

set_option maxHeartbeats 4000000 in
/-- After stage 13: its live results at their values, the live earlier ones kept. -/
theorem stage13_spec (W : Valuation τ sig (Elt F)) (x0 : (⟨S16x8x352x352, .f32⟩ : BufTy).Contents (Elt F)) (x1 : (⟨S16x1x352x352, .f32⟩ : BufTy).Contents (Elt F)) (x2 : (⟨S16x8x352x352, .i32⟩ : BufTy).Contents (Elt F))
    (h_v6 : W (Proc.devRef .tc main_v6) = val_main_v6 (F := F) x2)
    (h_v97 : W (Proc.devRef .tc main_v97) = val_main_v97 (F := F) x0)
    (h_v96 : W (Proc.devRef .tc main_v96) = val_main_v96 (F := F) x0)
    (h_v84 : W (Proc.devRef .tc main_v84) = val_main_v84 (F := F) x0 x1 x2)
    (h_v95 : W (Proc.devRef .tc main_v95) = val_main_v95 (F := F) x0 x2) :
    (after stage13 W (Proc.devRef .tc main_v84) = val_main_v84 (F := F) x0 x1 x2)
    ∧ (after stage13 W (Proc.devRef .tc main_v95) = val_main_v95 (F := F) x0 x2)
    ∧ (after stage13 W (Proc.devRef .tc main_v106) = val_main_v106 (F := F) x0 x2)
    ∧ (after stage13 W (Proc.devRef .tc main_cst_31) = val_main_cst_31 (F := F)) := by
  refine ⟨?_, ?_, ?_, ?_⟩
  · after_results_simp
    exact h_v84
  · after_results_simp
    exact h_v95
  · after_results_simp
    rw [h_v6, h_v97, h_v96]
    rfl
  · after_results_simp
    rfl

set_option maxHeartbeats 4000000 in
/-- After stage 14: its live results at their values, the live earlier ones kept. -/
theorem stage14_spec (W : Valuation τ sig (Elt F)) (x0 : (⟨S16x8x352x352, .f32⟩ : BufTy).Contents (Elt F)) (x1 : (⟨S16x1x352x352, .f32⟩ : BufTy).Contents (Elt F)) (x2 : (⟨S16x8x352x352, .i32⟩ : BufTy).Contents (Elt F))
    (h_cst_31 : W (Proc.devRef .tc main_cst_31) = val_main_cst_31 (F := F))
    (h_v95 : W (Proc.devRef .tc main_v95) = val_main_v95 (F := F) x0 x2)
    (h_v84 : W (Proc.devRef .tc main_v84) = val_main_v84 (F := F) x0 x1 x2)
    (h_v106 : W (Proc.devRef .tc main_v106) = val_main_v106 (F := F) x0 x2) :
    (after stage14 W (Proc.devRef .tc main_v110) = val_main_v110 (F := F) x0 x1 x2) := by
  · after_results_simp
    rw [h_cst_31, h_v95, h_v84, h_v106]
    rfl

/-- After the whole line the result buffer holds the value read operation by operation. -/
theorem after_ops (V : Valuation τ sig (Elt F)) :
    after ops V (Proc.devRef .tc main_v110) = val_main_v110 (F := F) (V (Proc.devRef .tc main_arg0)) (V (Proc.devRef .tc main_arg1)) (V (Proc.devRef .tc main_arg2)) := by
  simp only [ops, after_append]
  generalize h_arg0 : V (Proc.devRef .tc main_arg0) = x0
  generalize h_arg1 : V (Proc.devRef .tc main_arg1) = x1
  generalize h_arg2 : V (Proc.devRef .tc main_arg2) = x2
  obtain ⟨h_arg1, h_v5, h_v6, h_v7, h_cst_2⟩ := stage0_spec V x0 x1 x2 h_arg0 h_arg2 h_arg1
  generalize after stage0 V = W1 at *
  obtain ⟨h_arg1, h_v5, h_v6, h_v13, h_v16⟩ := stage1_spec W1 x0 x1 x2 h_cst_2 h_v7 h_v5 h_arg1 h_v6
  generalize after stage1 W1 = W2 at *
  obtain ⟨h_arg1, h_v5, h_v6, h_v13, h_v19, h_v23, h_v24⟩ := stage2_spec W2 x0 x1 x2 h_v16 h_v5 h_arg1 h_v6 h_v13
  generalize after stage2 W2 = W3 at *
  obtain ⟨h_arg1, h_v5, h_v6, h_v13, h_v19, h_v23, h_v29, h_v31, h_c_8⟩ := stage3_spec W3 x0 x1 x2 h_v24 h_v5 h_arg1 h_v6 h_v13 h_v19 h_v23
  generalize after stage3 W3 = W4 at *
  obtain ⟨h_arg1, h_v5, h_v6, h_v13, h_v19, h_v23, h_v29, h_v33, h_v37, h_v39, h_c_10⟩ := stage4_spec W4 x0 x1 x2 h_c_8 h_v31 h_v5 h_arg1 h_v6 h_v13 h_v19 h_v23 h_v29
  generalize after stage4 W4 = W5 at *
  obtain ⟨h_arg1, h_v5, h_v6, h_v13, h_v19, h_v23, h_v29, h_v33, h_v37, h_v43, h_v46⟩ := stage5_spec W5 x0 x1 x2 h_c_10 h_v39 h_v5 h_arg1 h_v6 h_v13 h_v19 h_v23 h_v29 h_v33 h_v37
  generalize after stage5 W5 = W6 at *
  obtain ⟨h_arg1, h_v5, h_v6, h_v13, h_v23, h_v29, h_v33, h_v37, h_v43, h_v47, h_v53, h_v54⟩ := stage6_spec W6 x0 x1 x2 h_v46 h_v5 h_v19 h_arg1 h_v6 h_v13 h_v23 h_v29 h_v33 h_v37 h_v43
  generalize after stage6 W6 = W7 at *
  obtain ⟨h_arg1, h_v5, h_v6, h_v13, h_v63, h_v64, h_cst_16⟩ := stage7_spec W7 x0 x1 x2 h_v23 h_v29 h_v33 h_v37 h_v43 h_v47 h_v53 h_v54 h_v5 h_arg1 h_v6 h_v13
  generalize after stage7 W7 = W8 at *
  obtain ⟨h_arg1, h_v5, h_v6, h_v63, h_v73, h_cst_19⟩ := stage8_spec W8 x0 x1 x2 h_v63 h_cst_16 h_v13 h_v64 h_arg1 h_v5 h_v6
  generalize after stage8 W8 = W9 at *
  obtain ⟨h_v5, h_v6, h_v63, h_v74, h_v76, h_v78⟩ := stage9_spec W9 x0 x1 x2 h_cst_19 h_v73 h_arg1 h_v5 h_v6 h_v63
  generalize after stage9 W9 = W10 at *
  obtain ⟨h_v6, h_v63, h_v84, h_cst_24, h_call13_v2⟩ := stage10_spec W10 x0 x1 x2 h_v74 h_v78 h_v76 h_v5 h_v6 h_v63
  generalize after stage10 W10 = W11 at *
  obtain ⟨h_v6, h_v63, h_v84, h_v93⟩ := stage11_spec W11 x0 x1 x2 h_cst_24 h_call13_v2 h_v6 h_v63 h_v84
  generalize after stage11 W11 = W12 at *
  obtain ⟨h_v6, h_v84, h_v95, h_v96, h_v97⟩ := stage12_spec W12 x0 x1 x2 h_v93 h_v63 h_v6 h_v84
  generalize after stage12 W12 = W13 at *
  obtain ⟨h_v84, h_v95, h_v106, h_cst_31⟩ := stage13_spec W13 x0 x1 x2 h_v6 h_v97 h_v96 h_v84 h_v95
  generalize after stage13 W13 = W14 at *
  have h_v110 := stage14_spec W14 x0 x1 x2 h_cst_31 h_v95 h_v84 h_v106
  exact h_v110

set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  forall_append (forall_append (forall_append (forall_append (forall_append (forall_append (forall_append (forall_append (forall_append (forall_append (forall_append (forall_append (forall_append (forall_append (stage0_sub) stage1_sub) stage2_sub) stage3_sub) stage4_sub) stage5_sub) stage6_sub) stage7_sub) stage8_sub) stage9_sub) stage10_sub) stage11_sub) stage12_sub) stage13_sub) stage14_sub
theorem ops_fresh : ∀ op ∈ (ops : List (HloOp τ sig (Elt F))), op.fresh = ∅ :=
  mem_append_of (mem_append_of (mem_append_of (mem_append_of (mem_append_of (mem_append_of (mem_append_of (mem_append_of (mem_append_of (mem_append_of (mem_append_of (mem_append_of (mem_append_of (mem_append_of (stage0_fresh) stage1_fresh) stage2_fresh) stage3_fresh) stage4_fresh) stage5_fresh) stage6_fresh) stage7_fresh) stage8_fresh) stage9_fresh) stage10_fresh) stage11_fresh) stage12_fresh) stage13_fresh) stage14_fresh

set_option maxHeartbeats 4000000 in
/-- On every device, from any memory with zero counters: every weakly fair execution of @main terminates with the result
    at the value read operation by operation from the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v110) = val_main_v110 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v110).trans (after_ops _),
      (h c main_arg0).trans (by simp only [ops, after_append]; after_results_simp <;> rfl),
      (h c main_arg1).trans (by simp only [ops, after_append]; after_results_simp <;> rfl),
      (h c main_arg2).trans (by simp only [ops, after_append]; after_results_simp <;> rfl)⟩)
    (run_seq scopedRefs_eq scopedSems_eq defs main (fun _ => ops) main_eq (fun _ => ops_sub) m ρ (hfresh := fun _ => ops_fresh))

end Cert.ReferenceIdeal.Staged

end
-- ==== Proof.RefLib.lean ====
/-
  Readings of array operations at their coordinates, for arrays of the shapes this loss is computed on.

  A sum over a rank-4 index set is the fourfold sum over its coordinates.  A rank-3 array padded by one entry, in front
  of or behind one of its last two axes, reads the array at the shifted coordinate where that is inside it and the
  padding value at the one new position.  Eight arrays of extent one along the second axis laid end to end along it
  read, at second coordinate i, the i-th of them.  A left fold of maxima (minima) from the least (greatest) element
  over eight entries is their explicitly nested maximum (minimum).
-/
import Idealize.ShloMosaic.PureOps
import Idealize.ShloMosaic.Lib.ValueIdx
import Idealize.ShloMosaic.Lib.KernelVsHost
import Idealize.ShloMosaic.Lib.Pipeline.Value
import Idealize.ShloMosaic.PureOps.Ideal.Laws
import proofs.«131828_j61684320305394_2_alg».proof.Proof.Spec

noncomputable section

open scoped BigOperators

namespace Cert.Bicon.Ref

open Idealize.ShloMosaic Idealize.ShloMosaic.ValueIdx

/-! ## Sums over a rank-4 index set -/

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- With a second axis of extent one, the sum over that axis is its one term. -/
theorem sum_idx4_unit {M : Type*} [AddCommMonoid M] {n0 n2 n3 : Nat} (f : (⟨4, ![n0, 1, n2, n3]⟩ : Shape).Idx → M) :
    ∑ i, f i = ∑ a : Fin n0, ∑ c : Fin n2, ∑ d : Fin n3, f (ix4 a 0 c d) := by
  rw [sum_idx4]
  refine Finset.sum_congr rfl fun a _ => ?_
  rw [Fin.sum_univ_one]

/-! ## A rank-3 array padded by one entry on one of its last two axes -/

variable {α : Type}

/-- One new first column: the array one column to the left, the padding value in the new column. -/
theorem pad_low_col_apply {A B C C' : Nat} (hC : C' = C + 1) (x : (⟨3, ![A, B, C]⟩ : Shape).Idx → α) {u : Shape} (v : u.Idx → α)
    (h : (⟨3, ![A, B, C]⟩ : Shape).Pads ![0, 0, 1] ![0, 0, 0] ![0, 0, 0] ⟨3, ![A, B, C']⟩) (hu : 0 < u.numel)
    (p : Fin A) (q : Fin B) (r : Fin C') :
    pad ⟨3, ![A, B, C']⟩ ![0, 0, 1] ![0, 0, 0] ![0, 0, 0] x v h hu (ix3 p q r)
      = if hr : 0 < r.val then x (ix3 p q ⟨r.val - 1, by have := r.isLt; omega⟩) else v (Shape.Idx.first hu) := by
  by_cases hr : 0 < r.val
  · rw [dif_pos hr]
    refine pad_apply_of_inside _ _ _ x v h hu (ix3 p q r) (ix3 p q ⟨r.val - 1, by have := r.isLt; omega⟩) fun a => ?_
    match a with
    | ⟨0, _⟩ => show p.val = 0 + p.val * (0 + 1); omega
    | ⟨1, _⟩ => show q.val = 0 + q.val * (0 + 1); omega
    | ⟨2, _⟩ => show r.val = 1 + (r.val - 1) * (0 + 1); omega
  · rw [dif_neg hr]
    refine pad_apply_of_not_inside _ _ _ x v h hu (ix3 p q r) (2 : Fin 3) ?_
    show ¬(1 ≤ r.val ∧ (r.val - 1) % (0 + 1) = 0 ∧ (r.val - 1) / (0 + 1) < C)
    rintro ⟨h1, _, _⟩
    exact hr h1

/-- One new last column: the array itself, the padding value in the new column. -/
theorem pad_high_col_apply {A B C C' : Nat} (x : (⟨3, ![A, B, C]⟩ : Shape).Idx → α) {u : Shape} (v : u.Idx → α)
    (h : (⟨3, ![A, B, C]⟩ : Shape).Pads ![0, 0, 0] ![0, 0, 1] ![0, 0, 0] ⟨3, ![A, B, C']⟩) (hu : 0 < u.numel)
    (p : Fin A) (q : Fin B) (r : Fin C') :
    pad ⟨3, ![A, B, C']⟩ ![0, 0, 0] ![0, 0, 1] ![0, 0, 0] x v h hu (ix3 p q r)
      = if hr : r.val < C then x (ix3 p q ⟨r.val, hr⟩) else v (Shape.Idx.first hu) := by
  by_cases hr : r.val < C
  · rw [dif_pos hr]
    refine pad_apply_of_inside _ _ _ x v h hu (ix3 p q r) (ix3 p q ⟨r.val, hr⟩) fun a => ?_
    match a with
    | ⟨0, _⟩ => show p.val = 0 + p.val * (0 + 1); omega
    | ⟨1, _⟩ => show q.val = 0 + q.val * (0 + 1); omega
    | ⟨2, _⟩ => show r.val = 0 + r.val * (0 + 1); omega
  · rw [dif_neg hr]
    refine pad_apply_of_not_inside _ _ _ x v h hu (ix3 p q r) (2 : Fin 3) ?_
    show ¬(0 ≤ r.val ∧ (r.val - 0) % (0 + 1) = 0 ∧ (r.val - 0) / (0 + 1) < C)
    rintro ⟨_, _, h3⟩
    rw [Nat.zero_add, Nat.div_one, Nat.sub_zero] at h3
    exact hr h3

/-- One new first row: the array one row up, the padding value in the new row. -/
theorem pad_low_row_apply {A B B' C : Nat} (hB : B' = B + 1) (x : (⟨3, ![A, B, C]⟩ : Shape).Idx → α) {u : Shape} (v : u.Idx → α)
    (h : (⟨3, ![A, B, C]⟩ : Shape).Pads ![0, 1, 0] ![0, 0, 0] ![0, 0, 0] ⟨3, ![A, B', C]⟩) (hu : 0 < u.numel)
    (p : Fin A) (q : Fin B') (r : Fin C) :
    pad ⟨3, ![A, B', C]⟩ ![0, 1, 0] ![0, 0, 0] ![0, 0, 0] x v h hu (ix3 p q r)
      = if hq : 0 < q.val then x (ix3 p ⟨q.val - 1, by have := q.isLt; omega⟩ r) else v (Shape.Idx.first hu) := by
  by_cases hq : 0 < q.val
  · rw [dif_pos hq]
    refine pad_apply_of_inside _ _ _ x v h hu (ix3 p q r) (ix3 p ⟨q.val - 1, by have := q.isLt; omega⟩ r) fun a => ?_
    match a with
    | ⟨0, _⟩ => show p.val = 0 + p.val * (0 + 1); omega
    | ⟨1, _⟩ => show q.val = 1 + (q.val - 1) * (0 + 1); omega
    | ⟨2, _⟩ => show r.val = 0 + r.val * (0 + 1); omega
  · rw [dif_neg hq]
    refine pad_apply_of_not_inside _ _ _ x v h hu (ix3 p q r) (1 : Fin 3) ?_
    show ¬(1 ≤ q.val ∧ (q.val - 1) % (0 + 1) = 0 ∧ (q.val - 1) / (0 + 1) < B)
    rintro ⟨h1, _, _⟩
    exact hq h1

/-- One new last row: the array itself, the padding value in the new row. -/
theorem pad_high_row_apply {A B B' C : Nat} (x : (⟨3, ![A, B, C]⟩ : Shape).Idx → α) {u : Shape} (v : u.Idx → α)
    (h : (⟨3, ![A, B, C]⟩ : Shape).Pads ![0, 0, 0] ![0, 1, 0] ![0, 0, 0] ⟨3, ![A, B', C]⟩) (hu : 0 < u.numel)
    (p : Fin A) (q : Fin B') (r : Fin C) :
    pad ⟨3, ![A, B', C]⟩ ![0, 0, 0] ![0, 1, 0] ![0, 0, 0] x v h hu (ix3 p q r)
      = if hq : q.val < B then x (ix3 p ⟨q.val, hq⟩ r) else v (Shape.Idx.first hu) := by
  by_cases hq : q.val < B
  · rw [dif_pos hq]
    refine pad_apply_of_inside _ _ _ x v h hu (ix3 p q r) (ix3 p ⟨q.val, hq⟩ r) fun a => ?_
    match a with
    | ⟨0, _⟩ => show p.val = 0 + p.val * (0 + 1); omega
    | ⟨1, _⟩ => show q.val = 0 + q.val * (0 + 1); omega
    | ⟨2, _⟩ => show r.val = 0 + r.val * (0 + 1); omega
  · rw [dif_neg hq]
    refine pad_apply_of_not_inside _ _ _ x v h hu (ix3 p q r) (1 : Fin 3) ?_
    show ¬(0 ≤ q.val ∧ (q.val - 0) % (0 + 1) = 0 ∧ (q.val - 0) / (0 + 1) < B)
    rintro ⟨_, _, h3⟩
    rw [Nat.zero_add, Nat.div_one, Nat.sub_zero] at h3
    exact hq h3

/-! ## Eight arrays laid end to end along an axis of extent one -/

/-- Eight arrays of shape [A, 1, B, C] concatenated along the second axis, read at second coordinate i: the i-th. -/
theorem concat8_apply {A B C : Nat} (f0 f1 f2 f3 f4 f5 f6 f7 : (⟨4, ![A, 1, B, C]⟩ : Shape).Idx → α)
    (h : Shape.Concatenates (([⟨⟨4, ![A, 1, B, C]⟩, f0⟩, ⟨⟨4, ![A, 1, B, C]⟩, f1⟩, ⟨⟨4, ![A, 1, B, C]⟩, f2⟩, ⟨⟨4, ![A, 1, B, C]⟩, f3⟩,
      ⟨⟨4, ![A, 1, B, C]⟩, f4⟩, ⟨⟨4, ![A, 1, B, C]⟩, f5⟩, ⟨⟨4, ![A, 1, B, C]⟩, f6⟩, ⟨⟨4, ![A, 1, B, C]⟩, f7⟩] :
        List ((s : Shape) × (s.Idx → α))).map (·.1)) ⟨4, ![A, 8, B, C]⟩ 1)
    (p : Fin A) (i : Fin 8) (q : Fin B) (r : Fin C) :
    concatenate ⟨4, ![A, 8, B, C]⟩ 1 [⟨⟨4, ![A, 1, B, C]⟩, f0⟩, ⟨⟨4, ![A, 1, B, C]⟩, f1⟩, ⟨⟨4, ![A, 1, B, C]⟩, f2⟩, ⟨⟨4, ![A, 1, B, C]⟩, f3⟩,
      ⟨⟨4, ![A, 1, B, C]⟩, f4⟩, ⟨⟨4, ![A, 1, B, C]⟩, f5⟩, ⟨⟨4, ![A, 1, B, C]⟩, f6⟩, ⟨⟨4, ![A, 1, B, C]⟩, f7⟩] h (ix4 p i q r)
      = (![f0, f1, f2, f3, f4, f5, f6, f7] : Fin 8 → _) i (ix4 p 0 q r) := by
  exact concatenate_ofFn_unit_apply (t := ⟨4, ![A, 8, B, C]⟩) (s₁ := ⟨4, ![A, 1, B, C]⟩) 1
    (![f0, f1, f2, f3, f4, f5, f6, f7] : Fin 8 → _) h rfl rfl (ix4 p i q r) i rfl (ix4 p 0 q r) (fun b hb => by
      match b with
      | ⟨0, _⟩ => rfl
      | ⟨1, _⟩ => exact absurd rfl hb
      | ⟨2, _⟩ => rfl
      | ⟨3, _⟩ => rfl)

/-! ## Folds of maxima and minima over eight entries -/

theorem sup_univ_eq_max8 (g : Fin 8 → EReal) : Finset.univ.sup g = max8 g := by
  apply le_antisymm
  · refine Finset.sup_le fun k _ => ?_
    fin_cases k <;> simp [max8, le_max_iff]
  · have hk : ∀ k, g k ≤ Finset.univ.sup g := fun k => Finset.le_sup (Finset.mem_univ k)
    simp only [max8, max_le_iff, hk, and_self]

theorem inf_univ_eq_min8 (g : Fin 8 → EReal) : Finset.univ.inf g = min8 g := by
  apply le_antisymm
  · have hk : ∀ k, Finset.univ.inf g ≤ g k := fun k => Finset.inf_le (Finset.mem_univ k)
    simp only [min8, le_min_iff, hk, and_self]
  · refine Finset.le_inf fun k _ => ?_
    fin_cases k <;> simp [min8, min_le_iff]

end Cert.Bicon.Ref

end
-- ==== Proof.RefElem.lean ====
/-
  The printed elementwise formulas as the specification's functions: the logistic function written as a quotient, the
  edge indicator written as the conjunction of two comparisons converted to a number, and the coordinates of a pixel
  recovered from its row-major position.
-/
import proofs.«131828_j61684320305394_2_alg».proof.Proof.RefLib
import Idealize.ShloMosaic.Lib.IdealHost

noncomputable section

open scoped BigOperators

namespace Cert.Bicon.Ref

open Idealize.ShloMosaic Idealize.ShloMosaic.ValueIdx

/-- One over one plus the exponential of the negated argument is the logistic function. -/
theorem logistic_printed (x : EReal) :
    Ideal.div (Ideal.ofBits .f32 0x3F800000#32) (Ideal.ofBits .f32 0x3F800000#32 + Ideal.exp (-x)) = Ideal.logistic x := by
  rw [Ideal.ofBits_one_f32]; rfl

/-- The conjunction of "s < 8" and "s > 0", as one bit read as a number, is the edge indicator. -/
theorem edge_printed (s : EReal) :
    (((IntOp.andi (Ideal.cmp .olt s (Ideal.ofBits .f32 0x41000000#32))
        (Ideal.cmp .ogt s (Ideal.ofBits .f32 0x00000000#32))).toNat : ℝ) : EReal) = edge s := by
  rw [Ideal.ofBits_zero_f32]
  unfold edge eight Ideal.cmp IntOp.andi
  by_cases h1 : s < Ideal.ofBits .f32 0x41000000#32 <;> by_cases h2 : (0 : EReal) < s <;> simp [h1, h2]

/-- The integer zero converted to a float is the extended real zero. -/
theorem sitofp_zero32 : (((0#32 : BitVec 32).toInt : ℝ) : EReal) = 0 := by
  rw [BitVec.toInt_zero, Int.cast_zero, EReal.coe_zero]

/-- The batch entry, row and column of a pixel from its row-major position in a [16, 352, 352] array. -/
theorem pixel_of_pos (b : Fin 16) (h w : Fin 352) :
    ((b.val * 352 + h.val) * 352 + w.val) / 123904 = b.val
      ∧ ((b.val * 352 + h.val) * 352 + w.val) / 352 % 352 = h.val
      ∧ ((b.val * 352 + h.val) * 352 + w.val) % 352 = w.val := by
  have := b.isLt; have := h.isLt; have := w.isLt
  omega

end Cert.Bicon.Ref

end
-- ==== Proof.RefFold.lean ====
/-
  A maximum (minimum) taken over the direction axis of a [16, 8, 352, 352] array by folding from the least (greatest)
  extended real: at a pixel it is the nested maximum (minimum) of the eight entries over that pixel.
-/
import proofs.«131828_j61684320305394_2_alg».proof.Proof.RefLib
import Idealize.ShloMosaic.PureOps.Reduce

noncomputable section

open scoped BigOperators

namespace Cert.Bicon.Ref

open Idealize.ShloMosaic Idealize.ShloMosaic.ValueIdx

/-- The pattern of minus infinity is the least extended real. -/
theorem ofBits_neg_inf_f32 : Ideal.ofBits .f32 0xFF800000#32 = ⊥ := by
  simp [Ideal.ofBits, Ideal.ieee]

/-- The pattern of plus infinity is the greatest extended real. -/
theorem ofBits_pos_inf_f32 : Ideal.ofBits .f32 0x7F800000#32 = ⊤ := by
  simp [Ideal.ofBits, Ideal.ieee]

/-- The index over pixel (b, h, w) with direction k inserted. -/
theorem lift_ix3 (hR : (⟨4, ![16, 8, 352, 352]⟩ : Shape).Reduces [1] ⟨3, ![16, 352, 352]⟩) (b : Fin 16) (h w : Fin 352)
    (k : Fin 8) : hR.lift (ix3 b h w) k = ix4 b k h w :=
  funext fun c => Fin.ext (by match c with | ⟨0, _⟩ => rfl | ⟨1, _⟩ => rfl | ⟨2, _⟩ => rfl | ⟨3, _⟩ => rfl)

/-- The maximum over the direction axis, folded from the least element. -/
theorem reduce_max8 (x : (⟨4, ![16, 8, 352, 352]⟩ : Shape).Idx → EReal) {u : Shape} (init : u.Idx → EReal)
    (h' : (⟨4, ![16, 8, 352, 352]⟩ : Shape).ReducesTo [1] ⟨3, ![16, 352, 352]⟩) (hu : 0 < u.numel)
    (hinit : init (Shape.Idx.first hu) = ⊥) (b : Fin 16) (h w : Fin 352) :
    Host.reduce (FloatOps.maximumf (F := Ideal) (φ := .f32)) x init h' hu (ix3 b h w)
      = max8 fun i => x (ix4 b i h w) := by
  have hR : (⟨4, ![16, 8, 352, 352]⟩ : Shape).Reduces [1] ⟨3, ![16, 352, 352]⟩ := by decide
  rw [Host.reduce_eq_fold_single (FloatOps.maximumf (F := Ideal) (φ := .f32)) x init h' hR hu (ix3 b h w), hinit]
  have hg : (x ∘ hR.lift (ix3 b h w)) = fun k : Fin 8 => x (ix4 b k h w) :=
    funext fun k => congrArg x (lift_ix3 hR b h w k)
  rw [hg]
  exact sup_univ_eq_max8 _

/-- The minimum over the direction axis, folded from the greatest element. -/
theorem reduce_min8 (x : (⟨4, ![16, 8, 352, 352]⟩ : Shape).Idx → EReal) {u : Shape} (init : u.Idx → EReal)
    (h' : (⟨4, ![16, 8, 352, 352]⟩ : Shape).ReducesTo [1] ⟨3, ![16, 352, 352]⟩) (hu : 0 < u.numel)
    (hinit : init (Shape.Idx.first hu) = ⊤) (b : Fin 16) (h w : Fin 352) :
    Host.reduce (FloatOps.minimumf (F := Ideal) (φ := .f32)) x init h' hu (ix3 b h w)
      = min8 fun i => x (ix4 b i h w) := by
  have hR : (⟨4, ![16, 8, 352, 352]⟩ : Shape).Reduces [1] ⟨3, ![16, 352, 352]⟩ := by decide
  rw [Host.reduce_eq_fold_single (FloatOps.minimumf (F := Ideal) (φ := .f32)) x init h' hR hu (ix3 b h w), hinit]
  have hg : (x ∘ hR.lift (ix3 b h w)) = fun k : Fin 8 => x (ix4 b k h w) :=
    funext fun k => congrArg x (lift_ix3 hR b h w k)
  rw [hg]
  exact inf_univ_eq_min8 _

end Cert.Bicon.Ref

end
-- ==== Proof.RefPics.lean ====
/-
  A picture translated by one position, the way the reference writes it: pad the [16, 352, 352] array by one entry
  of zero on one side of a picture axis, then cut a [16, 352, 352] window out of the padded array.  Padding in front and
  keeping the first 352 entries moves the picture forward (right, down); padding behind and dropping the first entry
  moves it back (left, up).
-/
import proofs.«131828_j61684320305394_2_alg».proof.Proof.RefLib

noncomputable section

open scoped BigOperators

namespace Cert.Bicon.Ref

open Idealize.ShloMosaic Idealize.ShloMosaic.ValueIdx

/-- A zero column in front, the last column dropped: each picture one column to the right. -/
theorem shR_read (x : (⟨3, ![16, 352, 352]⟩ : Shape).Idx → EReal) {u : Shape} (v : u.Idx → EReal)
    (hp : (⟨3, ![16, 352, 352]⟩ : Shape).Pads ![0, 0, 1] ![0, 0, 0] ![0, 0, 0] ⟨3, ![16, 352, 353]⟩) (hu : 0 < u.numel)
    (hs : (⟨3, ![16, 352, 353]⟩ : Shape).Slices ![0, 0, 0] ⟨3, ![16, 352, 352]⟩) (hv : v (Shape.Idx.first hu) = 0)
    (b : Fin 16) (h w : Fin 352) :
    extractStridedSlice ⟨3, ![16, 352, 352]⟩ ![0, 0, 0]
        (pad ⟨3, ![16, 352, 353]⟩ ![0, 0, 1] ![0, 0, 0] ![0, 0, 0] x v hp hu) hs (ix3 b h w)
      = shR (fun h w => x (ix3 b h w)) h w := by
  rw [extractStridedSlice_apply _ _ hs (ix3 b h w) (ix3 b h ⟨w.val, by have := w.isLt; omega⟩) (fun a => by
    match a with
    | ⟨0, _⟩ => show b.val = 0 + b.val; omega
    | ⟨1, _⟩ => show h.val = 0 + h.val; omega
    | ⟨2, _⟩ => show w.val = 0 + w.val; omega)]
  rw [pad_low_col_apply rfl, hv]
  rfl

/-- A zero column behind, the first column dropped: each picture one column to the left. -/
theorem shL_read (x : (⟨3, ![16, 352, 352]⟩ : Shape).Idx → EReal) {u : Shape} (v : u.Idx → EReal)
    (hp : (⟨3, ![16, 352, 352]⟩ : Shape).Pads ![0, 0, 0] ![0, 0, 1] ![0, 0, 0] ⟨3, ![16, 352, 353]⟩) (hu : 0 < u.numel)
    (hs : (⟨3, ![16, 352, 353]⟩ : Shape).Slices ![0, 0, 1] ⟨3, ![16, 352, 352]⟩) (hv : v (Shape.Idx.first hu) = 0)
    (b : Fin 16) (h w : Fin 352) :
    extractStridedSlice ⟨3, ![16, 352, 352]⟩ ![0, 0, 1]
        (pad ⟨3, ![16, 352, 353]⟩ ![0, 0, 0] ![0, 0, 1] ![0, 0, 0] x v hp hu) hs (ix3 b h w)
      = shL (fun h w => x (ix3 b h w)) h w := by
  rw [extractStridedSlice_apply _ _ hs (ix3 b h w) (ix3 b h ⟨w.val + 1, by have := w.isLt; omega⟩) (fun a => by
    match a with
    | ⟨0, _⟩ => show b.val = 0 + b.val; omega
    | ⟨1, _⟩ => show h.val = 0 + h.val; omega
    | ⟨2, _⟩ => show w.val + 1 = 1 + w.val; omega)]
  rw [pad_high_col_apply, hv]
  unfold shL
  by_cases hw : w.val < 351
  · rw [dif_pos hw, dif_pos (show w.val + 1 < 352 by omega)]
  · rw [dif_neg hw, dif_neg (show ¬ w.val + 1 < 352 by omega)]

/-- A zero row in front, the last row dropped: each picture one row down. -/
theorem shD_read (x : (⟨3, ![16, 352, 352]⟩ : Shape).Idx → EReal) {u : Shape} (v : u.Idx → EReal)
    (hp : (⟨3, ![16, 352, 352]⟩ : Shape).Pads ![0, 1, 0] ![0, 0, 0] ![0, 0, 0] ⟨3, ![16, 353, 352]⟩) (hu : 0 < u.numel)
    (hs : (⟨3, ![16, 353, 352]⟩ : Shape).Slices ![0, 0, 0] ⟨3, ![16, 352, 352]⟩) (hv : v (Shape.Idx.first hu) = 0)
    (b : Fin 16) (h w : Fin 352) :
    extractStridedSlice ⟨3, ![16, 352, 352]⟩ ![0, 0, 0]
        (pad ⟨3, ![16, 353, 352]⟩ ![0, 1, 0] ![0, 0, 0] ![0, 0, 0] x v hp hu) hs (ix3 b h w)
      = shD (fun h w => x (ix3 b h w)) h w := by
  rw [extractStridedSlice_apply _ _ hs (ix3 b h w) (ix3 b ⟨h.val, by have := h.isLt; omega⟩ w) (fun a => by
    match a with
    | ⟨0, _⟩ => show b.val = 0 + b.val; omega
    | ⟨1, _⟩ => show h.val = 0 + h.val; omega
    | ⟨2, _⟩ => show w.val = 0 + w.val; omega)]
  rw [pad_low_row_apply rfl, hv]
  rfl

/-- A zero row behind, the first row dropped: each picture one row up. -/
theorem shU_read (x : (⟨3, ![16, 352, 352]⟩ : Shape).Idx → EReal) {u : Shape} (v : u.Idx → EReal)
    (hp : (⟨3, ![16, 352, 352]⟩ : Shape).Pads ![0, 0, 0] ![0, 1, 0] ![0, 0, 0] ⟨3, ![16, 353, 352]⟩) (hu : 0 < u.numel)
    (hs : (⟨3, ![16, 353, 352]⟩ : Shape).Slices ![0, 1, 0] ⟨3, ![16, 352, 352]⟩) (hv : v (Shape.Idx.first hu) = 0)
    (b : Fin 16) (h w : Fin 352) :
    extractStridedSlice ⟨3, ![16, 352, 352]⟩ ![0, 1, 0]
        (pad ⟨3, ![16, 353, 352]⟩ ![0, 0, 0] ![0, 1, 0] ![0, 0, 0] x v hp hu) hs (ix3 b h w)
      = shU (fun h w => x (ix3 b h w)) h w := by
  rw [extractStridedSlice_apply _ _ hs (ix3 b h w) (ix3 b ⟨h.val + 1, by have := h.isLt; omega⟩ w) (fun a => by
    match a with
    | ⟨0, _⟩ => show b.val = 0 + b.val; omega
    | ⟨1, _⟩ => show h.val + 1 = 1 + h.val; omega
    | ⟨2, _⟩ => show w.val = 0 + w.val; omega)]
  rw [pad_high_row_apply, hv]
  unfold shU
  by_cases hh : h.val < 351
  · rw [dif_pos hh, dif_pos (show h.val + 1 < 352 by omega)]
  · rw [dif_neg hh, dif_neg (show ¬ h.val + 1 < 352 by omega)]

end Cert.Bicon.Ref

end
-- ==== Proof.RefLeaves.lean ====
/-
  The reference's elementwise leaves at a pixel: the probabilities are the logistic function of the logits, the
  labels are read as numbers, their sum over the eight directions and the edge indicator of that sum, and the two
  clipped cross-entropy integrands over the whole [16, 8, 352, 352] arrays.
-/
import proofs.«131828_j61684320305394_2_alg».proof.Proof.RefReadP
import proofs.«131828_j61684320305394_2_alg».proof.Proof.RefElem
import proofs.«131828_j61684320305394_2_alg».proof.Proof.RefFold
import proofs.«131828_j61684320305394_2_alg».proof.Proof.RefPics

noncomputable section

open scoped BigOperators

namespace Cert.Bicon.Ref

open Cert.ReferenceIdeal Cert.ReferenceIdeal.Gen Cert.ReferenceIdeal.ReadP Idealize.ShloMosaic Idealize.ShloMosaic.ValueIdx
  Idealize.ShloMosaic.StableHlo

/-- The three arguments of the reference at the extended reals. -/
abbrev X0 : Type := (⟨S16x8x352x352, .f32⟩ : BufTy).Contents (Elt Ideal)
abbrev X1 : Type := (⟨S16x1x352x352, .f32⟩ : BufTy).Contents (Elt Ideal)
abbrev X2 : Type := (⟨S16x8x352x352, .i32⟩ : BufTy).Contents (Elt Ideal)

/-- The logits by coordinates. -/
abbrev xs (x0 : X0) : Fin 16 → Fin 8 → Img := fun b i h w => x0 (ix4 b i h w)
/-- The labels by coordinates, read as numbers. -/
abbrev ns (x2 : X2) : Fin 16 → Fin 8 → Img := fun b i h w => (((x2 (ix4 b i h w)).toInt : ℝ) : EReal)
/-- The target by coordinates. -/
abbrev ts (x1 : X1) : Fin 16 → Img := fun b h w => x1 (ix4 b 0 h w)

/-- The probability at an index is the logistic function of the logit there. -/
theorem v5_at (x0 : X0) (i : S16x8x352x352.Idx) : val_main_v5 (F := Ideal) x0 i = Ideal.logistic (x0 i) := by
  rw [val_main_v5_apply, val_main_v4_apply, val_main_cst_0_apply, val_main_v3_apply, val_main_v2_apply,
    val_main_cst_apply, val_main_v1_apply, val_main_v0_apply]
  exact logistic_printed (x0 i)

theorem v5_ix4 (x0 : X0) (b : Fin 16) (i : Fin 8) (h w : Fin 352) :
    val_main_v5 (F := Ideal) x0 (ix4 b i h w) = prob (xs x0) b i h w := v5_at x0 _

theorem v6_ix4 (x2 : X2) (b : Fin 16) (i : Fin 8) (h w : Fin 352) :
    val_main_v6 (F := Ideal) x2 (ix4 b i h w) = ns x2 b i h w := rfl

/-- The labels' sum over the eight directions at a pixel. -/
theorem v7_ix3 (x2 : X2) (b : Fin 16) (h w : Fin 352) :
    val_main_v7 (F := Ideal) x2 (ix3 b h w) = ∑ i, ns x2 b i h w := by
  rw [val_main_v7_apply, val_main_cst_1_apply]
  show Ideal.ofBits .f32 0x00000000#32 + _ = _
  rw [Ideal.ofBits_zero_f32, zero_add]
  refine Finset.sum_congr rfl fun k _ => ?_
  have e : idx_main_v7 (ix3 b h w) k = ix4 b k h w := funext fun a => by
    match a with
    | ⟨0, _⟩ => rfl
    | ⟨1, _⟩ => rfl
    | ⟨2, _⟩ => rfl
    | ⟨3, _⟩ => rfl
  rw [e]
  rfl

/-- The edge indicator at a pixel. -/
theorem v13_ix3 (x2 : X2) (b : Fin 16) (h w : Fin 352) :
    val_main_v13 (F := Ideal) x2 (ix3 b h w) = edge (∑ i, ns x2 b i h w) := by
  rw [val_main_v13_apply, val_main_v12_apply, val_main_v9_apply, val_main_v11_apply, val_main_v8_apply,
    val_main_cst_2_apply, val_main_v10_apply, val_main_cst_3_apply, v7_ix3]
  exact edge_printed _

/-- The printed clipping — a maximum with the lower bound, then a minimum with the upper — is the specification's. -/
theorem clip_printed (p : Ideal .f32) :
    FloatOps.minimumf (FloatOps.ofBits (F := Ideal) .f32 0x3F7FFFFE#32)
      (FloatOps.maximumf (FloatOps.ofBits (F := Ideal) .f32 0x33D6BF95#32) p) = clip p := rfl

/-- The printed cross-entropy integrand at a clipped probability is the specification's. -/
theorem bce_printed (c t : Ideal .f32) :
    FloatOps.addf (FloatOps.mulf t (FloatOps.hostUnary .log c))
      (FloatOps.mulf (FloatOps.subf (FloatOps.ofBits (F := Ideal) .f32 0x3F800000#32) t)
        (FloatOps.hostUnary .log1p (FloatOps.hostNegf c)))
      = t * Ideal.log c + (one - t) * Ideal.log1p (-c) := rfl

/-- The clipped probability. -/
theorem v85_at (x0 : X0) (i : S16x8x352x352.Idx) : val_main_v85 (F := Ideal) x0 i = clip (val_main_v5 (F := Ideal) x0 i) := by
  rw [val_main_v85_apply, val_main_call13_v4_apply, val_main_call13_v3_apply, val_main_cst_24_apply,
    val_main_call13_v2_apply, val_main_call13_v1_apply, val_main_call13_v0_apply, val_main_cst_23_apply]
  exact clip_printed _

/-- The connectivity term's integrand. -/
theorem v93_at (x0 : X0) (x2 : X2) (i : S16x8x352x352.Idx) :
    val_main_v93 (F := Ideal) x0 x2 i = bce (val_main_v5 (F := Ideal) x0 i) (val_main_v6 (F := Ideal) x2 i) := by
  rw [val_main_v93_apply, val_main_v87_apply, val_main_v86_apply, val_main_v92_apply, val_main_v89_apply,
    val_main_v88_apply, val_main_cst_25_apply, val_main_v91_apply, val_main_v90_apply, v85_at]
  exact bce_printed _ _

/-- The clipped vote. -/
theorem v96_at (x0 : X0) (i : S16x8x352x352.Idx) : val_main_v96 (F := Ideal) x0 i = clip (val_main_v63 (F := Ideal) x0 i) := by
  rw [val_main_v96_apply, val_main_call14_v4_apply, val_main_call14_v3_apply, val_main_cst_28_apply,
    val_main_call14_v2_apply, val_main_call14_v1_apply, val_main_call14_v0_apply, val_main_cst_27_apply]
  exact clip_printed _

/-- The bilateral term's integrand. -/
theorem v104_at (x0 : X0) (x2 : X2) (i : S16x8x352x352.Idx) :
    val_main_v104 (F := Ideal) x0 x2 i = bce (val_main_v63 (F := Ideal) x0 i) (val_main_v6 (F := Ideal) x2 i) := by
  rw [val_main_v104_apply, val_main_v98_apply, val_main_v97_apply, val_main_v103_apply, val_main_v100_apply,
    val_main_v99_apply, val_main_cst_29_apply, val_main_v102_apply, val_main_v101_apply, v96_at]
  exact bce_printed _ _

/-- The clipped decoupled map. -/
theorem v74_at (x0 : X0) (x2 : X2) (i : S16x1x352x352.Idx) :
    val_main_v74 (F := Ideal) x0 x2 i = clip (val_main_v73 (F := Ideal) x0 x2 i) := by
  rw [val_main_v74_apply, val_main_call12_v4_apply, val_main_call12_v3_apply, val_main_cst_20_apply,
    val_main_call12_v2_apply, val_main_call12_v1_apply, val_main_call12_v0_apply, val_main_cst_19_apply]
  exact clip_printed _

/-- The decoupled term's integrand. -/
theorem v82_at (x0 : X0) (x1 : X1) (x2 : X2) (i : S16x1x352x352.Idx) :
    val_main_v82 (F := Ideal) x0 x1 x2 i = bce (val_main_v73 (F := Ideal) x0 x2 i) (x1 i) := by
  rw [val_main_v82_apply, val_main_v76_apply, val_main_v75_apply, val_main_v81_apply, val_main_v78_apply,
    val_main_v77_apply, val_main_cst_21_apply, val_main_v80_apply, val_main_v79_apply, v74_at]
  exact bce_printed _ _

end Cert.Bicon.Ref

end
-- ==== Proof.RefShift.lean ====
/-
  The eight neighbour pictures of the reference at a pixel.  Direction i's picture is cut out of the probabilities at
  direction 7 - i (a slice of extent one along the direction axis, the unit axis dropped), then translated by the
  direction's offset: columns first, then rows, each translation a padding by one zero followed by a window.
-/
import proofs.«131828_j61684320305394_2_alg».proof.Proof.RefLeaves

noncomputable section

open scoped BigOperators

namespace Cert.Bicon.Ref

open Cert.ReferenceIdeal Cert.ReferenceIdeal.Gen Cert.ReferenceIdeal.ReadP Idealize.ShloMosaic Idealize.ShloMosaic.ValueIdx
  Idealize.ShloMosaic.StableHlo

/-- The probabilities of direction 7 as a [16, 352, 352] array. -/
theorem v15_ix3 (x0 : X0) (b : Fin 16) (h w : Fin 352) :
    val_main_v15 (F := Ideal) x0 (ix3 b h w) = prob (xs x0) b 7 h w := by
  rw [val_main_v15_apply, val_main_v14_apply]
  have e : idx_main_v14 (idx_main_v15 (ix3 b h w)) = ix4 b 7 h w := funext fun a => Fin.ext (by
    match a with
    | ⟨0, _⟩ => exact (pixel_of_pos b h w).1
    | ⟨1, _⟩ => rfl
    | ⟨2, _⟩ => exact (pixel_of_pos b h w).2.1
    | ⟨3, _⟩ => exact (pixel_of_pos b h w).2.2)
  rw [e]
  exact v5_ix4 x0 b 7 h w

/-- The probabilities of direction 6 as a [16, 352, 352] array. -/
theorem v21_ix3 (x0 : X0) (b : Fin 16) (h w : Fin 352) :
    val_main_v21 (F := Ideal) x0 (ix3 b h w) = prob (xs x0) b 6 h w := by
  rw [val_main_v21_apply, val_main_v20_apply]
  have e : idx_main_v20 (idx_main_v21 (ix3 b h w)) = ix4 b 6 h w := funext fun a => Fin.ext (by
    match a with
    | ⟨0, _⟩ => exact (pixel_of_pos b h w).1
    | ⟨1, _⟩ => rfl
    | ⟨2, _⟩ => exact (pixel_of_pos b h w).2.1
    | ⟨3, _⟩ => exact (pixel_of_pos b h w).2.2)
  rw [e]
  exact v5_ix4 x0 b 6 h w

/-- The probabilities of direction 5 as a [16, 352, 352] array. -/
theorem v25_ix3 (x0 : X0) (b : Fin 16) (h w : Fin 352) :
    val_main_v25 (F := Ideal) x0 (ix3 b h w) = prob (xs x0) b 5 h w := by
  rw [val_main_v25_apply, val_main_v24_apply]
  have e : idx_main_v24 (idx_main_v25 (ix3 b h w)) = ix4 b 5 h w := funext fun a => Fin.ext (by
    match a with
    | ⟨0, _⟩ => exact (pixel_of_pos b h w).1
    | ⟨1, _⟩ => rfl
    | ⟨2, _⟩ => exact (pixel_of_pos b h w).2.1
    | ⟨3, _⟩ => exact (pixel_of_pos b h w).2.2)
  rw [e]
  exact v5_ix4 x0 b 5 h w

/-- The probabilities of direction 4 as a [16, 352, 352] array. -/
theorem v31_ix3 (x0 : X0) (b : Fin 16) (h w : Fin 352) :
    val_main_v31 (F := Ideal) x0 (ix3 b h w) = prob (xs x0) b 4 h w := by
  rw [val_main_v31_apply, val_main_v30_apply]
  have e : idx_main_v30 (idx_main_v31 (ix3 b h w)) = ix4 b 4 h w := funext fun a => Fin.ext (by
    match a with
    | ⟨0, _⟩ => exact (pixel_of_pos b h w).1
    | ⟨1, _⟩ => rfl
    | ⟨2, _⟩ => exact (pixel_of_pos b h w).2.1
    | ⟨3, _⟩ => exact (pixel_of_pos b h w).2.2)
  rw [e]
  exact v5_ix4 x0 b 4 h w

/-- The probabilities of direction 3 as a [16, 352, 352] array. -/
theorem v35_ix3 (x0 : X0) (b : Fin 16) (h w : Fin 352) :
    val_main_v35 (F := Ideal) x0 (ix3 b h w) = prob (xs x0) b 3 h w := by
  rw [val_main_v35_apply, val_main_v34_apply]
  have e : idx_main_v34 (idx_main_v35 (ix3 b h w)) = ix4 b 3 h w := funext fun a => Fin.ext (by
    match a with
    | ⟨0, _⟩ => exact (pixel_of_pos b h w).1
    | ⟨1, _⟩ => rfl
    | ⟨2, _⟩ => exact (pixel_of_pos b h w).2.1
    | ⟨3, _⟩ => exact (pixel_of_pos b h w).2.2)
  rw [e]
  exact v5_ix4 x0 b 3 h w

/-- The probabilities of direction 2 as a [16, 352, 352] array. -/
theorem v39_ix3 (x0 : X0) (b : Fin 16) (h w : Fin 352) :
    val_main_v39 (F := Ideal) x0 (ix3 b h w) = prob (xs x0) b 2 h w := by
  rw [val_main_v39_apply, val_main_v38_apply]
  have e : idx_main_v38 (idx_main_v39 (ix3 b h w)) = ix4 b 2 h w := funext fun a => Fin.ext (by
    match a with
    | ⟨0, _⟩ => exact (pixel_of_pos b h w).1
    | ⟨1, _⟩ => rfl
    | ⟨2, _⟩ => exact (pixel_of_pos b h w).2.1
    | ⟨3, _⟩ => exact (pixel_of_pos b h w).2.2)
  rw [e]
  exact v5_ix4 x0 b 2 h w

/-- The probabilities of direction 1 as a [16, 352, 352] array. -/
theorem v45_ix3 (x0 : X0) (b : Fin 16) (h w : Fin 352) :
    val_main_v45 (F := Ideal) x0 (ix3 b h w) = prob (xs x0) b 1 h w := by
  rw [val_main_v45_apply, val_main_v44_apply]
  have e : idx_main_v44 (idx_main_v45 (ix3 b h w)) = ix4 b 1 h w := funext fun a => Fin.ext (by
    match a with
    | ⟨0, _⟩ => exact (pixel_of_pos b h w).1
    | ⟨1, _⟩ => rfl
    | ⟨2, _⟩ => exact (pixel_of_pos b h w).2.1
    | ⟨3, _⟩ => exact (pixel_of_pos b h w).2.2)
  rw [e]
  exact v5_ix4 x0 b 1 h w

/-- The probabilities of direction 0 as a [16, 352, 352] array. -/
theorem v49_ix3 (x0 : X0) (b : Fin 16) (h w : Fin 352) :
    val_main_v49 (F := Ideal) x0 (ix3 b h w) = prob (xs x0) b 0 h w := by
  rw [val_main_v49_apply, val_main_v48_apply]
  have e : idx_main_v48 (idx_main_v49 (ix3 b h w)) = ix4 b 0 h w := funext fun a => Fin.ext (by
    match a with
    | ⟨0, _⟩ => exact (pixel_of_pos b h w).1
    | ⟨1, _⟩ => rfl
    | ⟨2, _⟩ => exact (pixel_of_pos b h w).2.1
    | ⟨3, _⟩ => exact (pixel_of_pos b h w).2.2)
  rw [e]
  exact v5_ix4 x0 b 0 h w

theorem call0_zero : val_main_call0_v0 (F := Ideal) (Shape.Idx.first h_S_) = 0 := sitofp_zero32
theorem call1_zero : val_main_call1_v0 (F := Ideal) (Shape.Idx.first h_S_) = 0 := sitofp_zero32
theorem call2_zero : val_main_call2_v0 (F := Ideal) (Shape.Idx.first h_S_) = 0 := sitofp_zero32
theorem call3_zero : val_main_call3_v0 (F := Ideal) (Shape.Idx.first h_S_) = 0 := sitofp_zero32
theorem call4_zero : val_main_call4_v0 (F := Ideal) (Shape.Idx.first h_S_) = 0 := sitofp_zero32
theorem call5_zero : val_main_call5_v0 (F := Ideal) (Shape.Idx.first h_S_) = 0 := sitofp_zero32
theorem call6_zero : val_main_call6_v0 (F := Ideal) (Shape.Idx.first h_S_) = 0 := sitofp_zero32
theorem call7_zero : val_main_call7_v0 (F := Ideal) (Shape.Idx.first h_S_) = 0 := sitofp_zero32
theorem call8_zero : val_main_call8_v0 (F := Ideal) (Shape.Idx.first h_S_) = 0 := sitofp_zero32
theorem call9_zero : val_main_call9_v0 (F := Ideal) (Shape.Idx.first h_S_) = 0 := sitofp_zero32
theorem call10_zero : val_main_call10_v0 (F := Ideal) (Shape.Idx.first h_S_) = 0 := sitofp_zero32
theorem call11_zero : val_main_call11_v0 (F := Ideal) (Shape.Idx.first h_S_) = 0 := sitofp_zero32

/-- Translated one column to the right. -/
theorem v17_ix3 (x0 : X0) (b : Fin 16) (h w : Fin 352) :
    val_main_v17 (F := Ideal) x0 (ix3 b h w) = shR (prob (xs x0) b 7) h w := by
  have e : (fun h w => val_main_v15 (F := Ideal) x0 (ix3 b h w)) = prob (xs x0) b 7 :=
    funext fun h => funext fun w => v15_ix3 x0 b h w
  rw [← e]
  unfold val_main_v17 val_main_v16
  exact shR_read _ _ _ _ _ call0_zero b h w

/-- Translated one row down. -/
theorem v19_ix3 (x0 : X0) (b : Fin 16) (h w : Fin 352) :
    val_main_v19 (F := Ideal) x0 (ix3 b h w) = shD (shR (prob (xs x0) b 7)) h w := by
  have e : (fun h w => val_main_v17 (F := Ideal) x0 (ix3 b h w)) = shR (prob (xs x0) b 7) :=
    funext fun h => funext fun w => v17_ix3 x0 b h w
  rw [← e]
  unfold val_main_v19 val_main_v18
  exact shD_read _ _ _ _ _ call1_zero b h w

/-- Translated one row down. -/
theorem v23_ix3 (x0 : X0) (b : Fin 16) (h w : Fin 352) :
    val_main_v23 (F := Ideal) x0 (ix3 b h w) = shD (prob (xs x0) b 6) h w := by
  have e : (fun h w => val_main_v21 (F := Ideal) x0 (ix3 b h w)) = prob (xs x0) b 6 :=
    funext fun h => funext fun w => v21_ix3 x0 b h w
  rw [← e]
  unfold val_main_v23 val_main_v22
  exact shD_read _ _ _ _ _ call2_zero b h w

/-- Translated one column to the left. -/
theorem v27_ix3 (x0 : X0) (b : Fin 16) (h w : Fin 352) :
    val_main_v27 (F := Ideal) x0 (ix3 b h w) = shL (prob (xs x0) b 5) h w := by
  have e : (fun h w => val_main_v25 (F := Ideal) x0 (ix3 b h w)) = prob (xs x0) b 5 :=
    funext fun h => funext fun w => v25_ix3 x0 b h w
  rw [← e]
  unfold val_main_v27 val_main_v26
  exact shL_read _ _ _ _ _ call3_zero b h w

/-- Translated one row down. -/
theorem v29_ix3 (x0 : X0) (b : Fin 16) (h w : Fin 352) :
    val_main_v29 (F := Ideal) x0 (ix3 b h w) = shD (shL (prob (xs x0) b 5)) h w := by
  have e : (fun h w => val_main_v27 (F := Ideal) x0 (ix3 b h w)) = shL (prob (xs x0) b 5) :=
    funext fun h => funext fun w => v27_ix3 x0 b h w
  rw [← e]
  unfold val_main_v29 val_main_v28
  exact shD_read _ _ _ _ _ call4_zero b h w

/-- Translated one column to the right. -/
theorem v33_ix3 (x0 : X0) (b : Fin 16) (h w : Fin 352) :
    val_main_v33 (F := Ideal) x0 (ix3 b h w) = shR (prob (xs x0) b 4) h w := by
  have e : (fun h w => val_main_v31 (F := Ideal) x0 (ix3 b h w)) = prob (xs x0) b 4 :=
    funext fun h => funext fun w => v31_ix3 x0 b h w
  rw [← e]
  unfold val_main_v33 val_main_v32
  exact shR_read _ _ _ _ _ call5_zero b h w

/-- Translated one column to the left. -/
theorem v37_ix3 (x0 : X0) (b : Fin 16) (h w : Fin 352) :
    val_main_v37 (F := Ideal) x0 (ix3 b h w) = shL (prob (xs x0) b 3) h w := by
  have e : (fun h w => val_main_v35 (F := Ideal) x0 (ix3 b h w)) = prob (xs x0) b 3 :=
    funext fun h => funext fun w => v35_ix3 x0 b h w
  rw [← e]
  unfold val_main_v37 val_main_v36
  exact shL_read _ _ _ _ _ call6_zero b h w

/-- Translated one column to the right. -/
theorem v41_ix3 (x0 : X0) (b : Fin 16) (h w : Fin 352) :
    val_main_v41 (F := Ideal) x0 (ix3 b h w) = shR (prob (xs x0) b 2) h w := by
  have e : (fun h w => val_main_v39 (F := Ideal) x0 (ix3 b h w)) = prob (xs x0) b 2 :=
    funext fun h => funext fun w => v39_ix3 x0 b h w
  rw [← e]
  unfold val_main_v41 val_main_v40
  exact shR_read _ _ _ _ _ call7_zero b h w

/-- Translated one row up. -/
theorem v43_ix3 (x0 : X0) (b : Fin 16) (h w : Fin 352) :
    val_main_v43 (F := Ideal) x0 (ix3 b h w) = shU (shR (prob (xs x0) b 2)) h w := by
  have e : (fun h w => val_main_v41 (F := Ideal) x0 (ix3 b h w)) = shR (prob (xs x0) b 2) :=
    funext fun h => funext fun w => v41_ix3 x0 b h w
  rw [← e]
  unfold val_main_v43 val_main_v42
  exact shU_read _ _ _ _ _ call8_zero b h w

/-- Translated one row up. -/
theorem v47_ix3 (x0 : X0) (b : Fin 16) (h w : Fin 352) :
    val_main_v47 (F := Ideal) x0 (ix3 b h w) = shU (prob (xs x0) b 1) h w := by
  have e : (fun h w => val_main_v45 (F := Ideal) x0 (ix3 b h w)) = prob (xs x0) b 1 :=
    funext fun h => funext fun w => v45_ix3 x0 b h w
  rw [← e]
  unfold val_main_v47 val_main_v46
  exact shU_read _ _ _ _ _ call9_zero b h w

/-- Translated one column to the left. -/
theorem v51_ix3 (x0 : X0) (b : Fin 16) (h w : Fin 352) :
    val_main_v51 (F := Ideal) x0 (ix3 b h w) = shL (prob (xs x0) b 0) h w := by
  have e : (fun h w => val_main_v49 (F := Ideal) x0 (ix3 b h w)) = prob (xs x0) b 0 :=
    funext fun h => funext fun w => v49_ix3 x0 b h w
  rw [← e]
  unfold val_main_v51 val_main_v50
  exact shL_read _ _ _ _ _ call10_zero b h w

/-- Translated one row up. -/
theorem v53_ix3 (x0 : X0) (b : Fin 16) (h w : Fin 352) :
    val_main_v53 (F := Ideal) x0 (ix3 b h w) = shU (shL (prob (xs x0) b 0)) h w := by
  have e : (fun h w => val_main_v51 (F := Ideal) x0 (ix3 b h w)) = shL (prob (xs x0) b 0) :=
    funext fun h => funext fun w => v51_ix3 x0 b h w
  rw [← e]
  unfold val_main_v53 val_main_v52
  exact shU_read _ _ _ _ _ call11_zero b h w

end Cert.Bicon.Ref

end
-- ==== Proof.RefVote.lean ====
/-
  The votes of the reference at a pixel and what is made of them: the eight neighbour pictures stacked along the
  direction axis are the specification's neighbour table, a vote is a probability times its neighbour, the maximum and
  the minimum over the direction axis are the nested maximum and minimum of the eight votes, and the decoupled map
  mixes them by the edge indicator.
-/
import proofs.«131828_j61684320305394_2_alg».proof.Proof.RefShift

noncomputable section

open scoped BigOperators

namespace Cert.Bicon.Ref

open Cert.ReferenceIdeal Cert.ReferenceIdeal.Gen Cert.ReferenceIdeal.ReadP Idealize.ShloMosaic Idealize.ShloMosaic.ValueIdx
  Idealize.ShloMosaic.StableHlo

/-- Direction 0's neighbour picture with its unit direction axis. -/
theorem v54_ix4 (x0 : X0) (b : Fin 16) (h w : Fin 352) :
    val_main_v54 (F := Ideal) x0 (ix4 b 0 h w) = shD (shR (prob (xs x0) b 7)) h w := by
  rw [val_main_v54_apply]
  have e : idx_main_v54 (ix4 b (0 : Fin 1) h w) = ix3 b h w := funext fun a => by
    match a with
    | ⟨0, _⟩ => rfl
    | ⟨1, _⟩ => rfl
    | ⟨2, _⟩ => rfl
  rw [e]
  exact v19_ix3 x0 b h w

/-- Direction 1's neighbour picture with its unit direction axis. -/
theorem v55_ix4 (x0 : X0) (b : Fin 16) (h w : Fin 352) :
    val_main_v55 (F := Ideal) x0 (ix4 b 0 h w) = shD (prob (xs x0) b 6) h w := by
  rw [val_main_v55_apply]
  have e : idx_main_v55 (ix4 b (0 : Fin 1) h w) = ix3 b h w := funext fun a => by
    match a with
    | ⟨0, _⟩ => rfl
    | ⟨1, _⟩ => rfl
    | ⟨2, _⟩ => rfl
  rw [e]
  exact v23_ix3 x0 b h w

/-- Direction 2's neighbour picture with its unit direction axis. -/
theorem v56_ix4 (x0 : X0) (b : Fin 16) (h w : Fin 352) :
    val_main_v56 (F := Ideal) x0 (ix4 b 0 h w) = shD (shL (prob (xs x0) b 5)) h w := by
  rw [val_main_v56_apply]
  have e : idx_main_v56 (ix4 b (0 : Fin 1) h w) = ix3 b h w := funext fun a => by
    match a with
    | ⟨0, _⟩ => rfl
    | ⟨1, _⟩ => rfl
    | ⟨2, _⟩ => rfl
  rw [e]
  exact v29_ix3 x0 b h w

/-- Direction 3's neighbour picture with its unit direction axis. -/
theorem v57_ix4 (x0 : X0) (b : Fin 16) (h w : Fin 352) :
    val_main_v57 (F := Ideal) x0 (ix4 b 0 h w) = shR (prob (xs x0) b 4) h w := by
  rw [val_main_v57_apply]
  have e : idx_main_v57 (ix4 b (0 : Fin 1) h w) = ix3 b h w := funext fun a => by
    match a with
    | ⟨0, _⟩ => rfl
    | ⟨1, _⟩ => rfl
    | ⟨2, _⟩ => rfl
  rw [e]
  exact v33_ix3 x0 b h w

/-- Direction 4's neighbour picture with its unit direction axis. -/
theorem v58_ix4 (x0 : X0) (b : Fin 16) (h w : Fin 352) :
    val_main_v58 (F := Ideal) x0 (ix4 b 0 h w) = shL (prob (xs x0) b 3) h w := by
  rw [val_main_v58_apply]
  have e : idx_main_v58 (ix4 b (0 : Fin 1) h w) = ix3 b h w := funext fun a => by
    match a with
    | ⟨0, _⟩ => rfl
    | ⟨1, _⟩ => rfl
    | ⟨2, _⟩ => rfl
  rw [e]
  exact v37_ix3 x0 b h w

/-- Direction 5's neighbour picture with its unit direction axis. -/
theorem v59_ix4 (x0 : X0) (b : Fin 16) (h w : Fin 352) :
    val_main_v59 (F := Ideal) x0 (ix4 b 0 h w) = shU (shR (prob (xs x0) b 2)) h w := by
  rw [val_main_v59_apply]
  have e : idx_main_v59 (ix4 b (0 : Fin 1) h w) = ix3 b h w := funext fun a => by
    match a with
    | ⟨0, _⟩ => rfl
    | ⟨1, _⟩ => rfl
    | ⟨2, _⟩ => rfl
  rw [e]
  exact v43_ix3 x0 b h w

/-- Direction 6's neighbour picture with its unit direction axis. -/
theorem v60_ix4 (x0 : X0) (b : Fin 16) (h w : Fin 352) :
    val_main_v60 (F := Ideal) x0 (ix4 b 0 h w) = shU (prob (xs x0) b 1) h w := by
  rw [val_main_v60_apply]
  have e : idx_main_v60 (ix4 b (0 : Fin 1) h w) = ix3 b h w := funext fun a => by
    match a with
    | ⟨0, _⟩ => rfl
    | ⟨1, _⟩ => rfl
    | ⟨2, _⟩ => rfl
  rw [e]
  exact v47_ix3 x0 b h w

/-- Direction 7's neighbour picture with its unit direction axis. -/
theorem v61_ix4 (x0 : X0) (b : Fin 16) (h w : Fin 352) :
    val_main_v61 (F := Ideal) x0 (ix4 b 0 h w) = shU (shL (prob (xs x0) b 0)) h w := by
  rw [val_main_v61_apply]
  have e : idx_main_v61 (ix4 b (0 : Fin 1) h w) = ix3 b h w := funext fun a => by
    match a with
    | ⟨0, _⟩ => rfl
    | ⟨1, _⟩ => rfl
    | ⟨2, _⟩ => rfl
  rw [e]
  exact v53_ix3 x0 b h w

/-- The stacked neighbour pictures are the neighbour table of the probabilities. -/
theorem v62_ix4 (x0 : X0) (b : Fin 16) (i : Fin 8) (h w : Fin 352) :
    val_main_v62 (F := Ideal) x0 (ix4 b i h w) = nb (prob (xs x0) b) i h w := by
  unfold val_main_v62
  refine (concat8_apply _ _ _ _ _ _ _ _ _ b i h w).trans ?_
  fin_cases i
  · exact v54_ix4 x0 b h w
  · exact v55_ix4 x0 b h w
  · exact v56_ix4 x0 b h w
  · exact v57_ix4 x0 b h w
  · exact v58_ix4 x0 b h w
  · exact v59_ix4 x0 b h w
  · exact v60_ix4 x0 b h w
  · exact v61_ix4 x0 b h w

/-- A vote: the probability times its neighbour. -/
theorem v63_ix4 (x0 : X0) (b : Fin 16) (i : Fin 8) (h w : Fin 352) :
    val_main_v63 (F := Ideal) x0 (ix4 b i h w) = vote (xs x0) b i h w := by
  rw [val_main_v63_apply, v5_ix4, v62_ix4]
  rfl

/-- The largest vote of a pixel. -/
theorem v64_ix3 (x0 : X0) (b : Fin 16) (h w : Fin 352) :
    val_main_v64 (F := Ideal) x0 (ix3 b h w) = max8 (fun i => vote (xs x0) b i h w) := by
  have e : (fun i => val_main_v63 (F := Ideal) x0 (ix4 b i h w)) = fun i => vote (xs x0) b i h w :=
    funext fun i => v63_ix4 x0 b i h w
  rw [← e]
  unfold val_main_v64
  exact reduce_max8 _ _ _ _ ofBits_neg_inf_f32 b h w

/-- The smallest vote of a pixel. -/
theorem v65_ix3 (x0 : X0) (b : Fin 16) (h w : Fin 352) :
    val_main_v65 (F := Ideal) x0 (ix3 b h w) = min8 (fun i => vote (xs x0) b i h w) := by
  have e : (fun i => val_main_v63 (F := Ideal) x0 (ix4 b i h w)) = fun i => vote (xs x0) b i h w :=
    funext fun i => v63_ix4 x0 b i h w
  rw [← e]
  unfold val_main_v65
  exact reduce_min8 _ _ _ _ ofBits_pos_inf_f32 b h w

/-- The decoupled map at a pixel. -/
theorem v72_ix3 (x0 : X0) (x2 : X2) (b : Fin 16) (h w : Fin 352) :
    val_main_v72 (F := Ideal) x0 x2 (ix3 b h w) = dec (xs x0) (ns x2) b h w := by
  rw [val_main_v72_apply, val_main_v68_apply, val_main_v71_apply, val_main_v67_apply, val_main_v70_apply,
    val_main_v66_apply, val_main_cst_17_apply, val_main_v69_apply, val_main_cst_18_apply, v64_ix3, v65_ix3, v13_ix3]
  rfl

/-- The decoupled map with its unit direction axis. -/
theorem v73_ix4 (x0 : X0) (x2 : X2) (b : Fin 16) (h w : Fin 352) :
    val_main_v73 (F := Ideal) x0 x2 (ix4 b 0 h w) = dec (xs x0) (ns x2) b h w := by
  rw [val_main_v73_apply]
  have e : idx_main_v73 (ix4 b (0 : Fin 1) h w) = ix3 b h w := funext fun a => by
    match a with
    | ⟨0, _⟩ => rfl
    | ⟨1, _⟩ => rfl
    | ⟨2, _⟩ => rfl
  rw [e]
  exact v72_ix3 x0 x2 b h w

end Cert.Bicon.Ref

end
-- ==== Proof.RefSide.lean ====
/-
  The reference's result is the specification's total: each of the three cross-entropy sums over a whole array is
  the iterated sum over the coordinates of its integrand, and the result combines their negations with the two
  weights.
-/
import proofs.«131828_j61684320305394_2_alg».proof.Proof.RefVote

noncomputable section

open scoped BigOperators

namespace Cert.Bicon.Ref

open Cert.ReferenceIdeal Cert.ReferenceIdeal.Gen Cert.ReferenceIdeal.ReadP Idealize.ShloMosaic Idealize.ShloMosaic.ValueIdx
  Idealize.ShloMosaic.StableHlo

/-- The connectivity sum. -/
theorem v94_eq (x0 : X0) (x2 : X2) (i : S_.Idx) :
    val_main_v94 (F := Ideal) x0 x2 i = ∑ b, ∑ i, ∑ h, ∑ w, X (xs x0) (ns x2) b i h w := by
  rw [val_main_v94_apply, val_main_cst_26_apply]
  show Ideal.ofBits .f32 0x00000000#32 + _ = _
  rw [Ideal.ofBits_zero_f32, zero_add, sum_idx4]
  refine Finset.sum_congr rfl fun b _ => Finset.sum_congr rfl fun i _ => Finset.sum_congr rfl fun h _ =>
    Finset.sum_congr rfl fun w _ => ?_
  rw [v93_at, v5_ix4, v6_ix4]
  rfl

/-- The bilateral sum. -/
theorem v105_eq (x0 : X0) (x2 : X2) (i : S_.Idx) :
    val_main_v105 (F := Ideal) x0 x2 i = ∑ b, ∑ i, ∑ h, ∑ w, Z (xs x0) (ns x2) b i h w := by
  rw [val_main_v105_apply, val_main_cst_30_apply]
  show Ideal.ofBits .f32 0x00000000#32 + _ = _
  rw [Ideal.ofBits_zero_f32, zero_add, sum_idx4]
  refine Finset.sum_congr rfl fun b _ => Finset.sum_congr rfl fun i _ => Finset.sum_congr rfl fun h _ =>
    Finset.sum_congr rfl fun w _ => ?_
  rw [v104_at, v63_ix4, v6_ix4]
  rfl

/-- The decoupled sum. -/
theorem v83_eq (x0 : X0) (x1 : X1) (x2 : X2) (i : S_.Idx) :
    val_main_v83 (F := Ideal) x0 x1 x2 i = ∑ b, ∑ h, ∑ w, Y (xs x0) (ns x2) (ts x1) b h w := by
  rw [val_main_v83_apply, val_main_cst_22_apply]
  show Ideal.ofBits .f32 0x00000000#32 + _ = _
  rw [Ideal.ofBits_zero_f32, zero_add, sum_idx4_unit]
  refine Finset.sum_congr rfl fun b _ => Finset.sum_congr rfl fun h _ => Finset.sum_congr rfl fun w _ => ?_
  rw [v82_at, v73_ix4]
  rfl

/-- THE REFERENCE'S VALUE: the specification's total of the three arrays read by coordinates. -/
theorem ref_value (x0 : (⟨S16x8x352x352, .f32⟩ : BufTy).Contents (Elt Ideal))
    (x1 : (⟨S16x1x352x352, .f32⟩ : BufTy).Contents (Elt Ideal))
    (x2 : (⟨S16x8x352x352, .i32⟩ : BufTy).Contents (Elt Ideal)) (i : S_.Idx) :
    Cert.ReferenceIdeal.ReadP.val_main_v110 (F := Ideal) x0 x1 x2 i
      = Cert.Bicon.refTotal (fun b i h w => x0 (ix4 b i h w))
          (fun b i h w => (((x2 (ix4 b i h w)).toInt : ℝ) : EReal)) (fun b h w => x1 (ix4 b 0 h w)) := by
  rw [val_main_v110_apply, val_main_v108_apply, val_main_v109_apply, val_main_v107_apply, val_main_v106_apply,
    val_main_v95_apply, val_main_v84_apply, val_main_cst_31_apply, val_main_cst_32_apply, v94_eq, v105_eq, v83_eq]
  rfl

end Cert.Bicon.Ref

end
-- ==== Proof.Assemble.lean ====
/-
  The five claims of the certificate, from the statements of the other modules.

  The three frame claims are the frame runs (the reference's from its value run, forgetting the result).
  The idealization rewrote no operation, so the fourth claim is trivial.  For the fifth: the kernel's run ends
  with its result at the loss added batch entry by batch entry, `kernelTotal`, of the three argument arrays;
  the reference's run ends with its result at the reference program's composed term, which is the loss with the
  three sums taken over the whole arrays, `refTotal`, of the same arrays; under the precondition the arrays are
  real, and on real arrays the two totals agree.
-/
import proofs.«131828_j61684320305394_2_alg».proof.Defs
import proofs.«131828_j61684320305394_2_alg».proof.Proof.Gen.Kernel
import proofs.«131828_j61684320305394_2_alg».proof.Proof.Gen.Kernel.Frame
import proofs.«131828_j61684320305394_2_alg».proof.Proof.Gen.KernelIdeal
import proofs.«131828_j61684320305394_2_alg».proof.Proof.Gen.KernelIdeal.Frame
import proofs.«131828_j61684320305394_2_alg».proof.Proof.Gen.ReferenceIdeal
import proofs.«131828_j61684320305394_2_alg».proof.Proof.Gen.Pre_finite_inputs
import proofs.«131828_j61684320305394_2_alg».proof.Proof.Algebra
import proofs.«131828_j61684320305394_2_alg».proof.Proof.KBlockRead
import proofs.«131828_j61684320305394_2_alg».proof.Proof.KFinal
import proofs.«131828_j61684320305394_2_alg».proof.Proof.RefRunStaged
import proofs.«131828_j61684320305394_2_alg».proof.Proof.RefSide

noncomputable section

namespace Cert.Proof.Claims

open Idealize.ShloMosaic Idealize.SL.Sem Idealize.ShloMosaic.ValueIdx Cert.Bicon Cert.KernelIdeal.PointValue

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Staged.run (F := Ideal) m ρ)

theorem preserves : Cert.preserves_Kernel_KernelIdeal := trivial

/-- At the ideal instance the kernel's result is `kernelTotal` of the argument arrays and the reference's is
    `refTotal` of arrays that agree with them; the arrays are real under the precondition, so the two are equal. -/
theorem algebraic : Cert.algebraic_KernelIdeal_ReferenceIdeal := by
  intro m ρ m' ρ' hpre hagree
  refine ⟨fun c _ => kernelTotal (Xarr m c) (Narr m c) (Tarr m c), Cert.KernelIdeal.PointValue.run m ρ, ?_⟩
  refine (θ_run Cert.ReferenceIdeal.defs _ _).mono (fun _ h c => ⟨(h c).1.trans ?_, (h c).2⟩)
    (Cert.ReferenceIdeal.Staged.run (F := Ideal) m' ρ')
  rw [(hagree c).1, (hagree c).2.1, (hagree c).2.2]
  funext i
  refine (Cert.Bicon.Ref.ref_value _ _ _ i).trans ?_
  exact (kernelTotal_eq_refTotal (Xarr m c) (Narr m c) (Tarr m c) (real_Xarr m hpre c) (real_Narr m c)
    (real_Tarr m hpre c)).symm

end Cert.Proof.Claims

end
-- ==== Proof.lean ====
/-
  The certificate's claim: a loss over logits, a target and connectivity labels — the weighted sum of three
  clipped binary cross-entropies of a logistic map, of its eight bilateral votes (each probability times the
  zero-padded translate of the opposite direction's), and of the map decoupled from their maximum and minimum by
  the edge indicator of the labels — computed by a kernel batch entry by batch entry, two accumulators of eight
  entries each, against the same loss computed with three sums over the whole arrays.

  Both are functions of one specification (Proof/Spec.lean). The kernel's result is the sum over the batch of each
  entry's share, the sign taken inside every sum (Proof/KFinal.lean, over the picture-level readings of
  Proof/KImg.lean … Proof/KAccum.lean); the reference's is the three whole-array sums negated and weighted
  afterwards (Proof/RefSide.lean, over the reference's run read stage by stage, Proof/RefRunStaged.lean). On the extended reals the two arrangements differ at mixed infinities, and agree
  when every summand is a real number (Proof/Algebra.lean), which the finiteness of the inputs gives
  (Proof/Finite.lean). Proof/Assemble.lean states the five claims.
-/
import proofs.«131828_j61684320305394_2_alg».proof.Defs
import proofs.«131828_j61684320305394_2_alg».proof.Proof.Assemble
import proofs.«131828_j61684320305394_2_alg».proof.Proof.Gen.Kernel
import proofs.«131828_j61684320305394_2_alg».proof.Proof.Gen.Kernel.Skeleton
import proofs.«131828_j61684320305394_2_alg».proof.Proof.Gen.Kernel.Launch
import proofs.«131828_j61684320305394_2_alg».proof.Proof.Gen.Kernel.Points
import proofs.«131828_j61684320305394_2_alg».proof.Proof.Gen.Kernel.Frame
import proofs.«131828_j61684320305394_2_alg».proof.Proof.Gen.KernelIdeal
import proofs.«131828_j61684320305394_2_alg».proof.Proof.Gen.KernelIdeal.Skeleton
import proofs.«131828_j61684320305394_2_alg».proof.Proof.Gen.KernelIdeal.Launch
import proofs.«131828_j61684320305394_2_alg».proof.Proof.Gen.KernelIdeal.Points
import proofs.«131828_j61684320305394_2_alg».proof.Proof.Gen.KernelIdeal.Frame
import proofs.«131828_j61684320305394_2_alg».proof.Proof.Gen.ReferenceIdeal
import proofs.«131828_j61684320305394_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
